-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S20000x5 : Shape := ⟨2, ![20000, 5]⟩
abbrev S1000000 : Shape := ⟨1, ![1000000]⟩
abbrev S128x8 : Shape := ⟨2, ![128, 8]⟩
abbrev S128 : Shape := ⟨1, ![128]⟩
abbrev S128x5 : Shape := ⟨2, ![128, 5]⟩
abbrev S128x128 : Shape := ⟨2, ![128, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S20000x5 : S_.BroadcastsInDim S20000x5 (![] : Fin 0 → Fin S20000x5.rank)
  reducesTo_S20000x5_S_d0_1 : S20000x5.ReducesTo [0, 1] S_
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S2x64 1) (main_c_39 : IVec S_ 1) : IVec S_ 1 :=
  let main_v102 : IVec S_ 1 := (fun x v => Host.reduce IntOp.andi x v reducesTo_S2x64_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S64x128 .f32) (main_arg21 : FVec F S64 .f32) (main_arg22 : FVec F S2x64 .f32) (main_arg23 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S64x128 .f32 := Host.absf main_arg20
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S2x64 .f32 := Host.absf main_arg22
  let main_cst_38 : FVec F S_ .f32 := constant S_ .f32 0x7F800000#32
  let main_v100 : FVec F S2x64 .f32 := broadcastInDim S2x64 ![] bcast_S_S2x64 main_cst_38
  let main_v101 : IVec S2x64 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S2x64 .f32) (main_arg23 : FVec F S2 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S2x64 .f32) (main_arg23 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S2x64 .f32) (main_arg23 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x5 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S2x64 .f32) (main_arg23 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x5 .f32 := Host.absf main_arg6
  let main_cst_6 : FVec F S_ .f32 := constant S_ .f32 0x7F800000#32
  let main_v20 : FVec F S128x5 .f32 := broadcastInDim S128x5 ![] bcast_S_S128x5 main_cst_6
  let main_v21 : IVec S128x5 1 := cmpf .olt main_v19 main_v20
  let main_c_7 : IVec S_ 1 := constantI S_ 1 1#1
  let main_v22 : IVec S_ 1 := (fun x v => Host.reduce IntOp.andi x v reducesTo_S128x5_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x8 .f32) (main_arg1 : FVec F S20000x5 .f32) (main_arg2 : IVec S1000000 32) (main_arg3 : IVec S1000000 32) (main_arg4 : FVec F S128x8 .f32) (main_arg5 : FVec F S128 .f32) (main_arg6 : FVec F S128x5 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S2x64 .f32) (main_arg23 : FVec F S2 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S20000x5 .f32 := Host.absf main_arg1
  let main_cst_0 : FVec F S_ .f32 := constant S_ .f32 0x7F800000#32
  let main_v5 : FVec F S20000x5 .f32 := broadcastInDim S20000x5 ![] bcast_S_S20000x5 main_cst_0
  let main_v6 : IVec S20000x5 1 := cmpf .olt main_v4 main_v5
  let main_c_1 : IVec S_ 1 := constantI S_ 1 1#1
  let main_v7 : IVec S_ 1 := (fun x v => Host.reduce IntOp.andi x v reducesTo_S20000x5_S_d0_1 h_S_) main_v6 main_c_1
  let main_v8 : IVec S_ 1 := andi main_v3 main_v7
  let main_v9 : FVec F S128x8 .f32 := Host.absf main_arg4
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x8 : Shape := ⟨2, ![100000, 8]⟩
abbrev S20000x5 : Shape := ⟨2, ![20000, 5]⟩
abbrev S1000000 : Shape := ⟨1, ![1000000]⟩
abbrev S128x8 : Shape := ⟨2, ![128, 8]⟩
abbrev S128 : Shape := ⟨1, ![128]⟩
abbrev S128x5 : Shape := ⟨2, ![128, 5]⟩
abbrev S128x128 : Shape := ⟨2, ![128, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S8x128 : Shape := ⟨2, ![8, 128]⟩
abbrev S1x128 : Shape := ⟨2, ![1, 128]⟩
abbrev S100000x128 : Shape := ⟨2, ![100000, 128]⟩
abbrev S4000x8 : Shape := ⟨2, ![4000, 8]⟩
abbrev S4000x128 : Shape := ⟨2, ![4000, 128]⟩
abbrev S5x128 : Shape := ⟨2, ![5, 128]⟩
abbrev S20000x128 : Shape := ⟨2, ![20000, 128]⟩
abbrev S2000x5 : Shape := ⟨2, ![2000, 5]⟩
abbrev S2000x128 : Shape := ⟨2, ![2000, 128]⟩
abbrev S_ : Shape := ⟨0, ![]⟩
abbrev S20000 : Shape := ⟨1, ![20000]⟩
abbrev S1000000x1 : Shape := ⟨2, ![1000000, 1]⟩
abbrev S100000 : Shape := ⟨1, ![100000]⟩
abbrev S1000000x128 : Shape := ⟨2, ![1000000, 128]⟩
abbrev S20000x1 : Shape := ⟨2, ![20000, 1]⟩
abbrev S100000x1 : Shape := ⟨2, ![100000, 1]⟩
abbrev S128x64 : Shape := ⟨2, ![128, 64]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S4000x2 : Shape := ⟨2, ![4000, 2]⟩
abbrev S4000x64 : Shape := ⟨2, ![4000, 64]⟩

abbrev nBuf : Space → Nat
  | .hbm => 116
  | .vmem => 43
  | .smem => 0
  | _ => 0

abbrev bufTy : (tb : Table) → Fin (tcTables nBuf tb) → BufTy
  | .hbm, ⟨0, _⟩ => ⟨S100000x8, .f32⟩
  | .hbm, ⟨1, _⟩ => ⟨S20000x5, .f32⟩
  | .hbm, ⟨2, _⟩ => ⟨S1000000, .i32⟩
  | .hbm, ⟨3, _⟩ => ⟨S1000000, .i32⟩
  | .hbm, ⟨4, _⟩ => ⟨S128x8, .f32⟩
  | .hbm, ⟨5, _⟩ => ⟨S128, .f32⟩
  | .hbm, ⟨6, _⟩ => ⟨S128x5, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S64x128, .f32⟩
  | .hbm, ⟨21, _⟩ => ⟨S64, .f32⟩
  | .hbm, ⟨22, _⟩ => ⟨S2x64, .f32⟩
  | .hbm, ⟨23, _⟩ => ⟨S2, .f32⟩
  | .hbm, ⟨24, _⟩ => ⟨S8x128, .f32⟩
  | .hbm, ⟨25, _⟩ => ⟨S1x128, .f32⟩
  | .hbm, ⟨26, _⟩ => ⟨S100000x128, .bf16⟩
  | .hbm, ⟨27, _⟩ => ⟨S5x128, .f32⟩
  | .hbm, ⟨28, _⟩ => ⟨S1x128, .f32⟩
  | .hbm, ⟨29, _⟩ => ⟨S20000x128, .bf16⟩
  | .hbm, ⟨30, _⟩ => ⟨S_, .f32⟩
  | .hbm, ⟨31, _⟩ => ⟨S1000000, .f32⟩
  | .hbm, ⟨32, _⟩ => ⟨S_, .f32⟩
  | .hbm, ⟨33, _⟩ => ⟨S20000, .f32⟩
  | .hbm, ⟨34, _⟩ => ⟨S1000000x1, .i32⟩
  | .hbm, ⟨35, _⟩ => ⟨S20000, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S_, .f32⟩
  | .hbm, ⟨40, _⟩ => ⟨S100000, .f32⟩
  | .hbm, ⟨41, _⟩ => ⟨S1000000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x128, .bf16⟩
  | .hbm, ⟨55, _⟩ => ⟨S1000000x128, .f32⟩
  | .hbm, ⟨56, _⟩ => ⟨S_, .f32⟩
  | .hbm, ⟨57, _⟩ => ⟨S20000x128, .f32⟩
  | .hbm, ⟨58, _⟩ => ⟨S1000000x1, .i32⟩
  | .hbm, ⟨59, _⟩ => ⟨S20000x128, .f32⟩
  | .hbm, ⟨60, _⟩ => ⟨S20000x1, .f32⟩
  | .hbm, ⟨61, _⟩ => ⟨S20000x128, .f32⟩
  | .hbm, ⟨62, _⟩ => ⟨S20000x128, .f32⟩
  | .hbm, ⟨63, _⟩ => ⟨S20000x128, .bf16⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S20000x128, .bf16⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x128, .bf16⟩
  | .hbm, ⟨77, _⟩ => ⟨S1000000x128, .f32⟩
  | .hbm, ⟨78, _⟩ => ⟨S_, .f32⟩
  | .hbm, ⟨79, _⟩ => ⟨S100000x128, .f32⟩
  | .hbm, ⟨80, _⟩ => ⟨S1000000x1, .i32⟩
  | .hbm, ⟨81, _⟩ => ⟨S100000x128, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S100000x128, .bf16⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S100000x128, .bf16⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x128, .bf16⟩
  | .hbm, ⟨99, _⟩ => ⟨S1000000x128, .f32⟩
  | .hbm, ⟨100, _⟩ => ⟨S_, .f32⟩
  | .hbm, ⟨101, _⟩ => ⟨S100000x128, .f32⟩
  | .hbm, ⟨102, _⟩ => ⟨S1000000x1, .i32⟩
  | .hbm, ⟨103, _⟩ => ⟨S100000x128, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S100000x128, .bf16⟩
  | .hbm, ⟨108, _⟩ => ⟨S128x128, .f32⟩
  | .hbm, ⟨109, _⟩ => ⟨S128x128, .f32⟩
  | .hbm, ⟨110, _⟩ => ⟨S128x64, .f32⟩
  | .hbm, ⟨111, _⟩ => ⟨S64x2, .f32⟩
  | .hbm, ⟨112, _⟩ => ⟨S1x128, .f32⟩
  | .hbm, ⟨113, _⟩ => ⟨S1x64, .f32⟩
  | .hbm, ⟨114, _⟩ => ⟨S1x2, .f32⟩
  | .hbm, ⟨115, _⟩ => ⟨S100000x2, .f32⟩
  | .local _ .vmem, ⟨0, _⟩ => ⟨S4000x8, .f32⟩
  | .local _ .vmem, ⟨1, _⟩ => ⟨S4000x8, .f32⟩
  | .local _ .vmem, ⟨2, _⟩ => ⟨S8x128, .f32⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S2000x5, .f32⟩
  | .local _ .vmem, ⟨7, _⟩ => ⟨S2000x5, .f32⟩
  | .local _ .vmem, ⟨8, _⟩ => ⟨S5x128, .f32⟩
  | .local _ .vmem, ⟨9, _⟩ => ⟨S1x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S2000x128, .bf16⟩
  | .local _ .vmem, ⟨20, _⟩ => ⟨S2000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x128, .bf16⟩
  | .local _ .vmem, ⟨24, _⟩ => ⟨S4000x128, .bf16⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S4000x128, .bf16⟩
  | .local _ .vmem, ⟨29, _⟩ => ⟨S4000x128, .bf16⟩
  | .local _ .vmem, ⟨30, _⟩ => ⟨S4000x128, .bf16⟩
  | .local _ .vmem, ⟨31, _⟩ => ⟨S4000x128, .bf16⟩
  | .local _ .vmem, ⟨32, _⟩ => ⟨S4000x128, .bf16⟩
  | .local _ .vmem, ⟨33, _⟩ => ⟨S4000x128, .bf16⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S128x64, .f32⟩
  | .local _ .vmem, ⟨38, _⟩ => ⟨S1x64, .f32⟩
  | .local _ .vmem, ⟨39, _⟩ => ⟨S64x2, .f32⟩
  | .local _ .vmem, ⟨40, _⟩ => ⟨S1x2, .f32⟩
  | .local _ .vmem, ⟨41, _⟩ => ⟨S4000x2, .f32⟩
  | .local _ .vmem, ⟨42, _⟩ => ⟨S4000x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_c_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg9_0 : Ref sig .tc := ⟨.vmem, 41, rfl⟩
abbrev cc4_stg9_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem9_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x2 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  transposes_S128x8_S8x128_1_0 : S128x8.Transposes [1, 0] S8x128
  shapeCasts_S128_S1x128 : S128.ShapeCasts S1x128
  inb_S4000x8_S4000x8_0_0 : ∀ a, (![0, 0] : Fin 2 → Nat) a + S4000x8.size a ≤ S4000x8.size a
  h_S4000x8 : 0 < S4000x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  transposes_S128x5_S5x128_1_0 : S128x5.Transposes [1, 0] S5x128
  inb_S2000x5_S2000x5_0_0 : ∀ a, (![0, 0] : Fin 2 → Nat) a + S2000x5.size a ≤ S2000x5.size a
  h_S2000x5 : 0 < S2000x5.numel
  inb_S5x128_S5x128_0_0 : ∀ a, (![0, 0] : Fin 2 → Nat) a + S5x128.size a ≤ S5x128.size a
  h_S5x128 : 0 < S5x128.numel
  shapeCasts_S5x128_S5x128 : S5x128.ShapeCasts S5x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S1000000 : S_.BroadcastsInDim S1000000 (![] : Fin 0 → Fin S1000000.rank)
  bcast_S_S20000 : S_.BroadcastsInDim S20000 (![] : Fin 0 → Fin S20000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S4000x128_S4000x128 : S4000x128.ShapeCasts S4000x128
  transposes_S64x128_S128x64_1_0 : S64x128.Transposes [1, 0] S128x64
  transposes_S2x64_S64x2_1_0 : S2x64.Transposes [1, 0] S64x2
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  dot_S4000x8_S8x128_S4000x128_1_0_0_1_n_n_wf : DotDims.WF S4000x8 S8x128 S4000x128 [1] [0] [0] [1] [] []
  dot_S2000x5_S5x128_S2000x128_1_0_0_1_n_n_wf : DotDims.WF S2000x5 S5x128 S2000x128 [1] [0] [0] [1] [] []
  scatter_S20000_S1000000x1_S1000000_n_0_0_1_wf : ScatterDims.WF S20000 S1000000x1 S1000000 [] [0] [0] 1
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  dot_S2000x128_S128x128_S2000x128_1_0_0_1_n_n_wf : DotDims.WF S2000x128 S128x128 S2000x128 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S100000x8.size a
  hwx0_0 : ∀ i : grid0.Coords, EltTy.bits .f32 = 32 ∨ (Rect.block (s := S100000x8) S4000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x5.size a ≤ S20000x5.size a
  hwx1_0 : ∀ i : grid1.Coords, EltTy.bits .f32 = 32 ∨ (Rect.block (s := S20000x5) S2000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x128.size a ≤ S5x128.size a
  hwx1_1 : ∀ i : grid1.Coords, EltTy.bits .f32 = 32 ∨ (Rect.block (s := S5x128) S5x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .bf16 = 32 ∨ (Rect.block (s := S20000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .bf16 = 32 ∨ (Rect.block (s := S20000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .bf16 = 32 ∨ (Rect.block (s := S20000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .bf16 = 32 ∨ (Rect.block (s := S20000x128) S2000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .bf16 = 32 ∨ (Rect.block (s := S100000x128) S4000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .bf16 = 32 ∨ (Rect.block (s := S100000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .bf16 = 32 ∨ (Rect.block (s := S100000x128) S4000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x2.size a ≤ S64x2.size a
  hwx4_7 : ∀ i : grid4.Coords, EltTy.bits .f32 = 32 ∨ (Rect.block (s := S64x2) S64x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x2.size a ≤ S100000x2.size a
  hwx4_9 : ∀ i : grid4.Coords, EltTy.bits .f32 = 32 ∨ (Rect.block (s := S100000x2) S4000x2.size (cc4_transform_9 i) (hinb4_9 i)).WholeWords (EltTy.packing .f32)

variable [Facts₀]

def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S2000x5_S5x128_S2000x128_1_0_0_1_n_n : DotDims S2000x5 S5x128 S2000x128 where
  lhsContracting := [1]
  rhsContracting := [0]
  lhsNonContracting := [0]
  rhsNonContracting := [1]
  lhsBatch := []
  rhsBatch := []
  wf := dot_S2000x5_S5x128_S2000x128_1_0_0_1_n_n_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S64x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v76) S1x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v77) S4000x2.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x8 : Shape := ⟨2, ![100000, 8]⟩
abbrev S20000x5 : Shape := ⟨2, ![20000, 5]⟩
abbrev S1000000 : Shape := ⟨1, ![1000000]⟩
abbrev S128x8 : Shape := ⟨2, ![128, 8]⟩
abbrev S128 : Shape := ⟨1, ![128]⟩
abbrev S128x5 : Shape := ⟨2, ![128, 5]⟩
abbrev S128x128 : Shape := ⟨2, ![128, 128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S8x128 : Shape := ⟨2, ![8, 128]⟩
abbrev S100000x128 : Shape := ⟨2, ![100000, 128]⟩
abbrev S1x128 : Shape := ⟨2, ![1, 128]⟩
abbrev S_ : Shape := ⟨0, ![]⟩
abbrev S5x128 : Shape := ⟨2, ![5, 128]⟩
abbrev S20000x128 : Shape := ⟨2, ![20000, 128]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 197
  | .vmem => 0
  | .smem => 0
  | _ => 0

abbrev hbmTy0_0 (i : Nat) : BufTy := match i % 128 with
  | 0 => ⟨S100000x8, .f32⟩
  | 1 => ⟨S20000x5, .f32⟩
  | 2 => ⟨S1000000, .i32⟩
  | 3 => ⟨S1000000, .i32⟩
  | 4 => ⟨S128x8, .f32⟩
  | 5 => ⟨S128, .f32⟩
  | 6 => ⟨S128x5, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S64x128, .f32⟩
  | 21 => ⟨S64, .f32⟩
  | 22 => ⟨S2x64, .f32⟩
  | 23 => ⟨S2, .f32⟩
  | 24 => ⟨S8x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S5x128, .f32⟩
  | 33 => ⟨S20000x128, .f32⟩
  | 34 => ⟨S1x128, .f32⟩
  | 35 => ⟨S20000x128, .f32⟩
  | 36 => ⟨S20000x128, .f32⟩
  | 37 => ⟨S_, .f32⟩
  | 38 => ⟨S20000x128, .f32⟩
  | 39 => ⟨S20000x128, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x128, .f32⟩
  | 49 => ⟨S_, .f32⟩
  | 50 => ⟨S20000x128, .f32⟩
  | 51 => ⟨S1000000x1, .i32⟩
  | 52 => ⟨S20000x128, .f32⟩
  | 53 => ⟨S_, .f32⟩
  | 54 => ⟨S1000000, .f32⟩
  | 55 => ⟨S_, .f32⟩
  | 56 => ⟨S20000, .f32⟩
  | 57 => ⟨S1000000x1, .i32⟩
  | 58 => ⟨S20000, .f32⟩
  | 59 => ⟨S_, .f32⟩
  | 60 => ⟨S20000, .f32⟩
  | 61 => ⟨S20000, .f32⟩
  | 62 => ⟨S20000x1, .f32⟩
  | 63 => ⟨S20000x128, .f32⟩
  | 64 => ⟨S20000x128, .f32⟩
  | 65 => ⟨S128x128, .f32⟩
  | 66 => ⟨S20000x128, .f32⟩
  | 67 => ⟨S1x128, .f32⟩
  | 68 => ⟨S20000x128, .f32⟩
  | 69 => ⟨S20000x128, .f32⟩
  | 70 => ⟨S128x128, .f32⟩
  | 71 => ⟨S20000x128, .f32⟩
  | 72 => ⟨S20000x128, .f32⟩
  | 73 => ⟨S_, .f32⟩
  | 74 => ⟨S20000x128, .f32⟩
  | 75 => ⟨S20000x128, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x128, .f32⟩
  | 85 => ⟨S_, .f32⟩
  | 86 => ⟨S100000x128, .f32⟩
  | 87 => ⟨S1000000x1, .i32⟩
  | 88 => ⟨S100000x128, .f32⟩
  | 89 => ⟨S_, .f32⟩
  | 90 => ⟨S1000000, .f32⟩
  | 91 => ⟨S_, .f32⟩
  | 92 => ⟨S100000, .f32⟩
  | 93 => ⟨S1000000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S128x128, .f32⟩
  | 102 => ⟨S100000x128, .f32⟩
  | 103 => ⟨S1x128, .f32⟩
  | 104 => ⟨S100000x128, .f32⟩
  | 105 => ⟨S100000x128, .f32⟩
  | 106 => ⟨S128x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000x128, .f32⟩
  | 121 => ⟨S_, .f32⟩
  | 122 => ⟨S20000x128, .f32⟩
  | 123 => ⟨S1000000x1, .i32⟩
  | 124 => ⟨S20000x128, .f32⟩
  | 125 => ⟨S_, .f32⟩
  | 126 => ⟨S1000000, .f32⟩
  | 127 => ⟨S_, .f32⟩
  | _ => ⟨S100000x8, .f32⟩

abbrev hbmTy0_1 (i : Nat) : BufTy := match i % 128 with
  | 0 => ⟨S20000, .f32⟩
  | 1 => ⟨S1000000x1, .i32⟩
  | 2 => ⟨S20000, .f32⟩
  | 3 => ⟨S_, .f32⟩
  | 4 => ⟨S20000, .f32⟩
  | 5 => ⟨S20000, .f32⟩
  | 6 => ⟨S20000x1, .f32⟩
  | 7 => ⟨S20000x128, .f32⟩
  | 8 => ⟨S20000x128, .f32⟩
  | 9 => ⟨S128x128, .f32⟩
  | 10 => ⟨S20000x128, .f32⟩
  | 11 => ⟨S1x128, .f32⟩
  | 12 => ⟨S20000x128, .f32⟩
  | 13 => ⟨S20000x128, .f32⟩
  | 14 => ⟨S128x128, .f32⟩
  | 15 => ⟨S20000x128, .f32⟩
  | 16 => ⟨S20000x128, .f32⟩
  | 17 => ⟨S_, .f32⟩
  | 18 => ⟨S20000x128, .f32⟩
  | 19 => ⟨S20000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S100000x128, .f32⟩
  | 31 => ⟨S1000000x1, .i32⟩
  | 32 => ⟨S100000x128, .f32⟩
  | 33 => ⟨S_, .f32⟩
  | 34 => ⟨S1000000, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S128x128, .f32⟩
  | 46 => ⟨S100000x128, .f32⟩
  | 47 => ⟨S1x128, .f32⟩
  | 48 => ⟨S100000x128, .f32⟩
  | 49 => ⟨S100000x128, .f32⟩
  | 50 => ⟨S128x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S128x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S64x2, .f32⟩
  | 65 => ⟨S100000x2, .f32⟩
  | 66 => ⟨S1x2, .f32⟩
  | 67 => ⟨S100000x2, .f32⟩
  | 68 => ⟨S100000x2, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call1_cst : Ref sig .tc := ⟨.hbm, 37, rfl⟩
abbrev main_call1_v0 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_cst_2 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call2_cst : Ref sig .tc := ⟨.hbm, 73, rfl⟩
abbrev main_call2_v0 : Ref sig .tc := ⟨.hbm, 74, rfl⟩
abbrev main_v39 : Ref sig .tc := ⟨.hbm, 75, rfl⟩
abbrev main_c_4 : Ref sig .tc := ⟨.hbm, 76, rfl⟩
abbrev main_v40 : Ref sig .tc := ⟨.hbm, 77, rfl⟩
abbrev main_v41 : Ref sig .tc := ⟨.hbm, 78, rfl⟩
abbrev main_c_5 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call3_cst : Ref sig .tc := ⟨.hbm, 109, rfl⟩
abbrev main_call3_v0 : Ref sig .tc := ⟨.hbm, 110, rfl⟩
abbrev main_v67 : Ref sig .tc := ⟨.hbm, 111, rfl⟩
abbrev main_c_10 : Ref sig .tc := ⟨.hbm, 112, rfl⟩
abbrev main_v68 : Ref sig .tc := ⟨.hbm, 113, rfl⟩
abbrev main_v69 : Ref sig .tc := ⟨.hbm, 114, rfl⟩
abbrev main_c_11 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_12 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_13 : Ref sig .tc := ⟨.hbm, 125, rfl⟩
abbrev main_v78 : Ref sig .tc := ⟨.hbm, 126, rfl⟩
abbrev main_cst_14 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_15 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_call4_cst : Ref sig .tc := ⟨.hbm, 145, rfl⟩
abbrev main_call4_v0 : Ref sig .tc := ⟨.hbm, 146, rfl⟩
abbrev main_v95 : Ref sig .tc := ⟨.hbm, 147, rfl⟩
abbrev main_c_16 : Ref sig .tc := ⟨.hbm, 148, rfl⟩
abbrev main_v96 : Ref sig .tc := ⟨.hbm, 149, rfl⟩
abbrev main_v97 : Ref sig .tc := ⟨.hbm, 150, rfl⟩
abbrev main_c_17 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_18 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_19 : Ref sig .tc := ⟨.hbm, 161, rfl⟩
abbrev main_v106 : Ref sig .tc := ⟨.hbm, 162, rfl⟩
abbrev main_cst_20 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_21 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_call5_cst : Ref sig .tc := ⟨.hbm, 181, rfl⟩
abbrev main_call5_v0 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_call6_cst : Ref sig .tc := ⟨.hbm, 189, rfl⟩
abbrev main_call6_v0 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩

abbrev nD : Nat := 1
abbrev τ : Topo := Topo.v7x

variable {F : FTy → Type} [FloatOps F]

class Facts₀ : Prop where
  transposes_S128x8_S8x128_1_0 : S128x8.Transposes [1, 0] S8x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x5_S5x128_1_0 : S128x5.Transposes [1, 0] S5x128
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x8_S8x128_S100000x128_1_0_0_1_n_n_wf : DotDims.WF S100000x8 S8x128 S100000x128 [1] [0] [0] [1] [] []
  dot_S20000x5_S5x128_S20000x128_1_0_0_1_n_n_wf : DotDims.WF S20000x5 S5x128 S20000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x8_S8x128_S100000x128_1_0_0_1_n_n : DotDims S100000x8 S8x128 S100000x128 where
  lhsContracting := [1]
  rhsContracting := [0]
  lhsNonContracting := [0]
  rhsNonContracting := [1]
  lhsBatch := []
  rhsBatch := []
  wf := dot_S100000x8_S8x128_S100000x128_1_0_0_1_n_n_wf
def dot_S20000x5_S5x128_S20000x128_1_0_0_1_n_n : DotDims S20000x5 S5x128 S20000x128 where
  lhsContracting := [1]
  rhsContracting := [0]
  lhsNonContracting := [0]
  rhsNonContracting := [1]
  lhsBatch := []
  rhsBatch := []
  wf := dot_S20000x5_S5x128_S20000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result named: every weakly fair execution of the five regions and the host
  operations between them terminates, nothing faulting, with the argument arrays as launched and the result array
  at what the last boundary of the run holds there — the contents `Gen.W10`, the fold of the host operations and
  of each region's write-backs from the launch memory. The launch is the one the generated frame makes; only the
  final reading differs: the result buffer is read too.
-/
import proofs.«119777_j1168231104685_2_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c)⟩)

end Cert.KernelIdeal.Value

end
-- ==== Proof.LayerSpec.lean ====
/-
  The layers of the network as functions of whole arrays, index by index, on the extended reals.

  * `prod x w`      — the matrix product, `(r, c) ↦ ∑ k, x (r, k) * w (k, c)`;
  * `affine x w b`  — a dense layer without activation, `prod x w + b` with the bias a single row `b (0, c)`;
  * `lin x w b`     — a dense layer with relu, `max (affine x w b) 0`;
  * `sage a x wl wr bl` — one graph-convolution combine, `max ((a·wl + bl) + x·wr) 0`: `a` the mean of the
                       neighbours' features, `x` the node's own features;
  * `head …`        — the last combine followed by the two-layer classifier, `affine (lin (sage …) wc1 bc1) wc2 bc2`.

  Every one of them computes row `r` of its result from row `r` of its row operands alone (the weights and the
  bias row are shared by all rows). So restricting the row operands to a set of rows — `rowsOf e`, along any map
  `e` of row numbers — restricts the result to the same rows (`*_rowsOf`). That is what lets a kernel compute the
  layer one block of rows at a time: the block's result is the layer at the block's extents.
  No law of arithmetic beyond reading the definitions is used; in particular nothing needs the entries finite.
-/
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev A2 (a b : ℕ) : Type := (⟨2, ![a, b]⟩ : Shape).Idx → EReal

/-- The row number of a matrix index. -/
abbrev row {M N : ℕ} (i : (⟨2, ![M, N]⟩ : Shape).Idx) : Fin M := ⟨(i 0).val, idx2_lt0 i⟩
/-- The column number of a matrix index. -/
abbrev col {M N : ℕ} (i : (⟨2, ![M, N]⟩ : Shape).Idx) : Fin N := ⟨(i 1).val, idx2_lt1 i⟩

/-- The matrix product. -/
def prod {M K N : ℕ} (x : A2 M K) (w : A2 K N) : A2 M N :=
  fun i => ∑ k : Fin K, x (ix2 (row i) k) * w (ix2 k (col i))

/-- A dense layer without activation: the product plus the bias row. -/
def affine {M K N : ℕ} (x : A2 M K) (w : A2 K N) (b : A2 1 N) : A2 M N :=
  fun i => prod x w i + b (ix2 0 (col i))

/-- A dense layer with relu. -/
def lin {M K N : ℕ} (x : A2 M K) (w : A2 K N) (b : A2 1 N) : A2 M N :=
  fun i => max (affine x w b i) 0

/-- One graph-convolution combine: the neighbours' mean through `wl` with bias, plus the node's own features
    through `wr`, then relu — added in that order. -/
def sage {M H : ℕ} (a x : A2 M H) (wl wr : A2 H H) (bl : A2 1 H) : A2 M H :=
  fun i => max (affine a wl bl i + prod x wr i) 0

/-- The last combine followed by the classifier: a dense relu layer and a dense layer. -/
def head {M H C O : ℕ} (a x : A2 M H) (wl wr : A2 H H) (bl : A2 1 H) (wc1 : A2 H C) (bc1 : A2 1 C)
    (wc2 : A2 C O) (bc2 : A2 1 O) : A2 M O :=
  affine (lin (sage a x wl wr bl) wc1 bc1) wc2 bc2

/-- The rows `e 0, e 1, …` of a matrix, as a matrix. -/
def rowsOf {Mb M N : ℕ} (e : Fin Mb → Fin M) (x : A2 M N) : A2 Mb N :=
  fun y => x (ix2 (e (row y)) (col y))

theorem prod_rowsOf {Mb M K N : ℕ} (e : Fin Mb → Fin M) (x : A2 M K) (w : A2 K N) :
    prod (rowsOf e x) w = rowsOf e (prod x w) := rfl

theorem affine_rowsOf {Mb M K N : ℕ} (e : Fin Mb → Fin M) (x : A2 M K) (w : A2 K N) (b : A2 1 N) :
    affine (rowsOf e x) w b = rowsOf e (affine x w b) := rfl

theorem lin_rowsOf {Mb M K N : ℕ} (e : Fin Mb → Fin M) (x : A2 M K) (w : A2 K N) (b : A2 1 N) :
    lin (rowsOf e x) w b = rowsOf e (lin x w b) := rfl

theorem sage_rowsOf {Mb M H : ℕ} (e : Fin Mb → Fin M) (a x : A2 M H) (wl wr : A2 H H) (bl : A2 1 H) :
    sage (rowsOf e a) (rowsOf e x) wl wr bl = rowsOf e (sage a x wl wr bl) := rfl

theorem head_rowsOf {Mb M H C O : ℕ} (e : Fin Mb → Fin M) (a x : A2 M H) (wl wr : A2 H H) (bl : A2 1 H)
    (wc1 : A2 H C) (bc1 : A2 1 C) (wc2 : A2 C O) (bc2 : A2 1 O) :
    head (rowsOf e a) (rowsOf e x) wl wr bl wc1 bc1 wc2 bc2 = rowsOf e (head a x wl wr bl wc1 bc1 wc2 bc2) := rfl

end Cert.Spec

end
-- ==== Proof.NetSpec.lean ====
/-
  The whole network as one function of the argument arrays, built from the dense layers of `Cert.Spec` and from
  the neighbourhood mean, which is kept as WHOLE-ARRAY operations: both programs compute it with the same host
  operations (a gather of rows, a scatter-add of the gathered rows into zeros, a division by the clipped number
  of incoming edges), so nothing about it has to be read at an index.

  With `src`, `dst` the two edge arrays (edge `e` joins fund `src e` to manager `dst e`; a negative number counts
  from the end, as array indexing does):
  * `degMgr dst`, `degFund src` — the number of edges at each node, at least 1;
  * `meanToMgr f src dst` — for each manager the sum of the rows `f (src e)` over the edges `e` with `dst e` that
    manager, divided by its degree; `meanToFund g src dst` the same the other way round;
  * `f0`, `m0` the input projections; `m1`, `f1` the first layer; `out` the second layer on the funds followed by
    the classifier. (The second layer on the managers feeds nothing.)
-/
import proofs.«119777_j1168231104685_2_alg».proof.Proof.Gen.ReferenceIdeal
import proofs.«119777_j1168231104685_2_alg».proof.Proof.LayerSpec

noncomputable section

namespace Cert.Net

open Cert.ReferenceIdeal Idealize.ShloMosaic Idealize.ShloMosaic.ValueIdx
open Cert.ReferenceIdeal.Facts₀ Cert.ReferenceIdeal.Facts

/-- An edge array: one node number per edge. -/
abbrev Edges : Type := (⟨S1000000, .i32⟩ : BufTy).Contents (Elt Ideal)
/-- One row of 128 features per fund. -/
abbrev FundRows : Type := (⟨S100000x128, .f32⟩ : BufTy).Contents (Elt Ideal)
/-- One row of 128 features per manager. -/
abbrev MgrRows : Type := (⟨S20000x128, .f32⟩ : BufTy).Contents (Elt Ideal)

/-- A bias vector as the one-row matrix the dense layers take. -/
def biasRow {N : ℕ} (b : (⟨1, ![N]⟩ : Shape).Idx → EReal) : Spec.A2 1 N := fun i => b (ix1 (Spec.col i))

/-- Fund numbers with the negative ones counted from the end. -/
def wrapFund (e : Edges) : Edges :=
  select (cmpi .slt e (broadcastInDim S1000000 ![] bcast_S_S1000000 (constantI S_ 32 0#32)))
    (addi e (broadcastInDim S1000000 ![] bcast_S_S1000000 (constantI S_ 32 100000#32))) e

/-- Manager numbers with the negative ones counted from the end. -/
def wrapMgr (e : Edges) : Edges :=
  select (cmpi .slt e (broadcastInDim S1000000 ![] bcast_S_S1000000 (constantI S_ 32 0#32)))
    (addi e (broadcastInDim S1000000 ![] bcast_S_S1000000 (constantI S_ 32 20000#32))) e

/-- The number of edges into each manager, at least 1. -/
def degMgr (dst : Edges) : (⟨S20000, .f32⟩ : BufTy).Contents (Elt Ideal) :=
  maximumf
    (Host.scatterAdd scatter_S20000_S1000000x1_S1000000_n_0_0_1
      (broadcastInDim S20000 ![] bcast_S_S20000 (constant (F := Ideal) S_ .f32 0x00000000#32))
      (broadcastInDim S1000000x1 ![0] bcast_S1000000_S1000000x1_0 dst)
      (broadcastInDim S1000000 ![] bcast_S_S1000000 (constant (F := Ideal) S_ .f32 0x3F800000#32)))
    (broadcastInDim S20000 ![] bcast_S_S20000 (constant (F := Ideal) S_ .f32 0x3F800000#32))

/-- The number of edges out of each fund, at least 1. -/
def degFund (src : Edges) : (⟨S100000, .f32⟩ : BufTy).Contents (Elt Ideal) :=
  maximumf
    (Host.scatterAdd scatter_S100000_S1000000x1_S1000000_n_0_0_1
      (broadcastInDim S100000 ![] bcast_S_S100000 (constant (F := Ideal) S_ .f32 0x00000000#32))
      (broadcastInDim S1000000x1 ![0] bcast_S1000000_S1000000x1_0 src)
      (broadcastInDim S1000000 ![] bcast_S_S1000000 (constant (F := Ideal) S_ .f32 0x3F800000#32)))
    (broadcastInDim S100000 ![] bcast_S_S100000 (constant (F := Ideal) S_ .f32 0x3F800000#32))

/-- The mean, at each manager, of the fund rows at the other end of its edges. -/
def meanToMgr (f : FundRows) (src dst : Edges) : MgrRows :=
  Host.divf
    (Host.scatterAdd scatter_S20000x128_S1000000x1_S1000000x128_1_0_0_1
      (broadcastInDim S20000x128 ![] bcast_S_S20000x128 (constant (F := Ideal) S_ .f32 0x00000000#32))
      (broadcastInDim S1000000x1 ![0] bcast_S1000000_S1000000x1_0 dst)
      (Host.gather gather_S100000x128_S1000000x1_S1000000x128_1_0_n_n_0_1_1128 f
        (broadcastInDim S1000000x1 ![0] bcast_S1000000_S1000000x1_0 (wrapFund src))))
    (broadcastInDim S20000x128 ![0, 1] bcast_S20000x1_S20000x128_0_1
      (broadcastInDim S20000x1 ![0] bcast_S20000_S20000x1_0 (degMgr dst)))

/-- The mean, at each fund, of the manager rows at the other end of its edges. -/
def meanToFund (g : MgrRows) (src dst : Edges) : FundRows :=
  Host.divf
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 src)
      (Host.gather gather_S20000x128_S1000000x1_S1000000x128_1_0_n_n_0_1_1128 g
        (broadcastInDim S1000000x1 ![0] bcast_S1000000_S1000000x1_0 (wrapMgr dst))))
    (broadcastInDim S100000x128 ![0, 1] bcast_S100000x1_S100000x128_0_1
      (broadcastInDim S100000x1 ![0] bcast_S100000_S100000x1_0 (degFund src)))

/-- A weight matrix transposed: the layers multiply by the transpose of the stored weights. -/
abbrev tr8 (w : (⟨S128x8, .f32⟩ : BufTy).Contents (Elt Ideal)) : (⟨S8x128, .f32⟩ : BufTy).Contents (Elt Ideal) :=
  transpose S8x128 [1, 0] w transposes_S128x8_S8x128_1_0
abbrev tr5 (w : (⟨S128x5, .f32⟩ : BufTy).Contents (Elt Ideal)) : (⟨S5x128, .f32⟩ : BufTy).Contents (Elt Ideal) :=
  transpose S5x128 [1, 0] w transposes_S128x5_S5x128_1_0
abbrev tr128 (w : (⟨S128x128, .f32⟩ : BufTy).Contents (Elt Ideal)) : (⟨S128x128, .f32⟩ : BufTy).Contents (Elt Ideal) :=
  transpose S128x128 [1, 0] w transposes_S128x128_S128x128_1_0
abbrev tr64 (w : (⟨S64x128, .f32⟩ : BufTy).Contents (Elt Ideal)) : (⟨S128x64, .f32⟩ : BufTy).Contents (Elt Ideal) :=
  transpose S128x64 [1, 0] w transposes_S64x128_S128x64_1_0
abbrev tr2 (w : (⟨S2x64, .f32⟩ : BufTy).Contents (Elt Ideal)) : (⟨S64x2, .f32⟩ : BufTy).Contents (Elt Ideal) :=
  transpose S64x2 [1, 0] w transposes_S2x64_S64x2_1_0

/-- The fund nodes' input projection. -/
def f0 (x : (⟨S100000x8, .f32⟩ : BufTy).Contents (Elt Ideal)) (w : (⟨S128x8, .f32⟩ : BufTy).Contents (Elt Ideal))
    (b : (⟨S128, .f32⟩ : BufTy).Contents (Elt Ideal)) : FundRows :=
  Spec.lin (M := 100000) (K := 8) (N := 128) x (tr8 w) (biasRow b)

/-- The manager nodes' input projection. -/
def m0 (x : (⟨S20000x5, .f32⟩ : BufTy).Contents (Elt Ideal)) (w : (⟨S128x5, .f32⟩ : BufTy).Contents (Elt Ideal))
    (b : (⟨S128, .f32⟩ : BufTy).Contents (Elt Ideal)) : MgrRows :=
  Spec.lin (M := 20000) (K := 5) (N := 128) x (tr5 w) (biasRow b)

/-- A graph-convolution combine on the managers. -/
def combMgr (a x : MgrRows) (wl : (⟨S128x128, .f32⟩ : BufTy).Contents (Elt Ideal)) (bl : (⟨S128, .f32⟩ : BufTy).Contents (Elt Ideal))
    (wr : (⟨S128x128, .f32⟩ : BufTy).Contents (Elt Ideal)) : MgrRows :=
  Spec.sage (M := 20000) (H := 128) a x (tr128 wl) (tr128 wr) (biasRow bl)

/-- A graph-convolution combine on the funds. -/
def combFund (a x : FundRows) (wl : (⟨S128x128, .f32⟩ : BufTy).Contents (Elt Ideal)) (bl : (⟨S128, .f32⟩ : BufTy).Contents (Elt Ideal))
    (wr : (⟨S128x128, .f32⟩ : BufTy).Contents (Elt Ideal)) : FundRows :=
  Spec.sage (M := 100000) (H := 128) a x (tr128 wl) (tr128 wr) (biasRow bl)

/-- The classifier on the funds' last features. -/
def classify (y : FundRows) (wc1 : (⟨S64x128, .f32⟩ : BufTy).Contents (Elt Ideal)) (bc1 : (⟨S64, .f32⟩ : BufTy).Contents (Elt Ideal))
    (wc2 : (⟨S2x64, .f32⟩ : BufTy).Contents (Elt Ideal)) (bc2 : (⟨S2, .f32⟩ : BufTy).Contents (Elt Ideal)) :
    (⟨S100000x2, .f32⟩ : BufTy).Contents (Elt Ideal) :=
  Spec.affine (M := 100000) (K := 64) (N := 2) (Spec.lin (M := 100000) (K := 128) (N := 64) y (tr64 wc1) (biasRow bc1)) (tr2 wc2) (biasRow bc2)

/-- The network: both input projections, the first layer on both node types, the second layer on the funds, the
    classifier. `wlA blA wrA` combine funds into managers (layer 0), `wlB blB wrB` managers into funds (layer 0),
    `wlC blC wrC` managers into funds (layer 1). -/
def out (x0 : (⟨S100000x8, .f32⟩ : BufTy).Contents (Elt Ideal)) (x1 : (⟨S20000x5, .f32⟩ : BufTy).Contents (Elt Ideal)) (src dst : Edges)
    (wf : (⟨S128x8, .f32⟩ : BufTy).Contents (Elt Ideal)) (bf : (⟨S128, .f32⟩ : BufTy).Contents (Elt Ideal))
    (wm : (⟨S128x5, .f32⟩ : BufTy).Contents (Elt Ideal)) (bm : (⟨S128, .f32⟩ : BufTy).Contents (Elt Ideal))
    (wlA : (⟨S128x128, .f32⟩ : BufTy).Contents (Elt Ideal)) (blA : (⟨S128, .f32⟩ : BufTy).Contents (Elt Ideal)) (wrA : (⟨S128x128, .f32⟩ : BufTy).Contents (Elt Ideal))
    (wlB : (⟨S128x128, .f32⟩ : BufTy).Contents (Elt Ideal)) (blB : (⟨S128, .f32⟩ : BufTy).Contents (Elt Ideal)) (wrB : (⟨S128x128, .f32⟩ : BufTy).Contents (Elt Ideal))
    (wlC : (⟨S128x128, .f32⟩ : BufTy).Contents (Elt Ideal)) (blC : (⟨S128, .f32⟩ : BufTy).Contents (Elt Ideal)) (wrC : (⟨S128x128, .f32⟩ : BufTy).Contents (Elt Ideal))
    (wc1 : (⟨S64x128, .f32⟩ : BufTy).Contents (Elt Ideal)) (bc1 : (⟨S64, .f32⟩ : BufTy).Contents (Elt Ideal))
    (wc2 : (⟨S2x64, .f32⟩ : BufTy).Contents (Elt Ideal)) (bc2 : (⟨S2, .f32⟩ : BufTy).Contents (Elt Ideal)) :
    (⟨S100000x2, .f32⟩ : BufTy).Contents (Elt Ideal) :=
  classify
    (combFund
      (meanToFund (combMgr (meanToMgr (f0 x0 wf bf) src dst) (m0 x1 wm bm) wlA blA wrA) src dst)
      (combFund (meanToFund (m0 x1 wm bm) src dst) (f0 x0 wf bf) wlB blB wrB)
      wlC blC wrC)
    wc1 bc1 wc2 bc2

end Cert.Net

end
-- ==== Proof.FoldArgs.lean ====
/-
  The argument arrays at the boundaries of the run. The contents of the buffers between two segments of the run
  are a fold from the launch memory: a stretch of host operations changes only the buffers its operations
  write, a region only the arrays of its output windows. No operation and no region writes an argument array, so at
  every boundary an argument buffer still holds what it held at the launch. Stated here for the argument
  buffers that the stretch or region after each boundary reads.
-/
import proofs.«119777_j1168231104685_2_alg».proof.Proof.Gen.KernelIdeal.Frame
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem

/-- No operation of the named stretch writes the buffer: after the stretch it holds what it held before. -/
macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

theorem W2_arg1 : W2 m ρ c (Proc.devRef .tc main_arg1) = m ((c : Thread nD τ).loc main_arg1) :=
  (W2_of_ne m ρ c main_arg1 (by decide)).trans (by unwritten hostOps0)
theorem W2_arg6 : W2 m ρ c (Proc.devRef .tc main_arg6) = m ((c : Thread nD τ).loc main_arg6) :=
  (W2_of_ne m ρ c main_arg6 (by decide)).trans (by unwritten hostOps0)
theorem W2_arg7 : W2 m ρ c (Proc.devRef .tc main_arg7) = m ((c : Thread nD τ).loc main_arg7) :=
  (W2_of_ne m ρ c main_arg7 (by decide)).trans (by unwritten hostOps0)
theorem W2_arg2 : W2 m ρ c (Proc.devRef .tc main_arg2) = m ((c : Thread nD τ).loc main_arg2) :=
  (W2_of_ne m ρ c main_arg2 (by decide)).trans (by unwritten hostOps0)
theorem W2_arg3 : W2 m ρ c (Proc.devRef .tc main_arg3) = m ((c : Thread nD τ).loc main_arg3) :=
  (W2_of_ne m ρ c main_arg3 (by decide)).trans (by unwritten hostOps0)
theorem W2_arg8 : W2 m ρ c (Proc.devRef .tc main_arg8) = m ((c : Thread nD τ).loc main_arg8) :=
  (W2_of_ne m ρ c main_arg8 (by decide)).trans (by unwritten hostOps0)
theorem W2_arg9 : W2 m ρ c (Proc.devRef .tc main_arg9) = m ((c : Thread nD τ).loc main_arg9) :=
  (W2_of_ne m ρ c main_arg9 (by decide)).trans (by unwritten hostOps0)
theorem W2_arg10 : W2 m ρ c (Proc.devRef .tc main_arg10) = m ((c : Thread nD τ).loc main_arg10) :=
  (W2_of_ne m ρ c main_arg10 (by decide)).trans (by unwritten hostOps0)
theorem W2_arg11 : W2 m ρ c (Proc.devRef .tc main_arg11) = m ((c : Thread nD τ).loc main_arg11) :=
  (W2_of_ne m ρ c main_arg11 (by decide)).trans (by unwritten hostOps0)
theorem W2_arg12 : W2 m ρ c (Proc.devRef .tc main_arg12) = m ((c : Thread nD τ).loc main_arg12) :=
  (W2_of_ne m ρ c main_arg12 (by decide)).trans (by unwritten hostOps0)
theorem W2_arg13 : W2 m ρ c (Proc.devRef .tc main_arg13) = m ((c : Thread nD τ).loc main_arg13) :=
  (W2_of_ne m ρ c main_arg13 (by decide)).trans (by unwritten hostOps0)
theorem W2_arg17 : W2 m ρ c (Proc.devRef .tc main_arg17) = m ((c : Thread nD τ).loc main_arg17) :=
  (W2_of_ne m ρ c main_arg17 (by decide)).trans (by unwritten hostOps0)
theorem W2_arg18 : W2 m ρ c (Proc.devRef .tc main_arg18) = m ((c : Thread nD τ).loc main_arg18) :=
  (W2_of_ne m ρ c main_arg18 (by decide)).trans (by unwritten hostOps0)
theorem W2_arg19 : W2 m ρ c (Proc.devRef .tc main_arg19) = m ((c : Thread nD τ).loc main_arg19) :=
  (W2_of_ne m ρ c main_arg19 (by decide)).trans (by unwritten hostOps0)
theorem W2_arg20 : W2 m ρ c (Proc.devRef .tc main_arg20) = m ((c : Thread nD τ).loc main_arg20) :=
  (W2_of_ne m ρ c main_arg20 (by decide)).trans (by unwritten hostOps0)
theorem W2_arg21 : W2 m ρ c (Proc.devRef .tc main_arg21) = m ((c : Thread nD τ).loc main_arg21) :=
  (W2_of_ne m ρ c main_arg21 (by decide)).trans (by unwritten hostOps0)
theorem W2_arg22 : W2 m ρ c (Proc.devRef .tc main_arg22) = m ((c : Thread nD τ).loc main_arg22) :=
  (W2_of_ne m ρ c main_arg22 (by decide)).trans (by unwritten hostOps0)
theorem W2_arg23 : W2 m ρ c (Proc.devRef .tc main_arg23) = m ((c : Thread nD τ).loc main_arg23) :=
  (W2_of_ne m ρ c main_arg23 (by decide)).trans (by unwritten hostOps0)
theorem W4_arg2 : W4 m ρ c (Proc.devRef .tc main_arg2) = m ((c : Thread nD τ).loc main_arg2) :=
  (W4_of_ne m ρ c main_arg2 (by decide)).trans ((by unwritten hostOps1 : W3 m ρ c (Proc.devRef .tc main_arg2) = W2 m ρ c (Proc.devRef .tc main_arg2)).trans (W2_arg2 m ρ c))
theorem W4_arg3 : W4 m ρ c (Proc.devRef .tc main_arg3) = m ((c : Thread nD τ).loc main_arg3) :=
  (W4_of_ne m ρ c main_arg3 (by decide)).trans ((by unwritten hostOps1 : W3 m ρ c (Proc.devRef .tc main_arg3) = W2 m ρ c (Proc.devRef .tc main_arg3)).trans (W2_arg3 m ρ c))
theorem W4_arg8 : W4 m ρ c (Proc.devRef .tc main_arg8) = m ((c : Thread nD τ).loc main_arg8) :=
  (W4_of_ne m ρ c main_arg8 (by decide)).trans ((by unwritten hostOps1 : W3 m ρ c (Proc.devRef .tc main_arg8) = W2 m ρ c (Proc.devRef .tc main_arg8)).trans (W2_arg8 m ρ c))
theorem W4_arg9 : W4 m ρ c (Proc.devRef .tc main_arg9) = m ((c : Thread nD τ).loc main_arg9) :=
  (W4_of_ne m ρ c main_arg9 (by decide)).trans ((by unwritten hostOps1 : W3 m ρ c (Proc.devRef .tc main_arg9) = W2 m ρ c (Proc.devRef .tc main_arg9)).trans (W2_arg9 m ρ c))
theorem W4_arg10 : W4 m ρ c (Proc.devRef .tc main_arg10) = m ((c : Thread nD τ).loc main_arg10) :=
  (W4_of_ne m ρ c main_arg10 (by decide)).trans ((by unwritten hostOps1 : W3 m ρ c (Proc.devRef .tc main_arg10) = W2 m ρ c (Proc.devRef .tc main_arg10)).trans (W2_arg10 m ρ c))
theorem W4_arg11 : W4 m ρ c (Proc.devRef .tc main_arg11) = m ((c : Thread nD τ).loc main_arg11) :=
  (W4_of_ne m ρ c main_arg11 (by decide)).trans ((by unwritten hostOps1 : W3 m ρ c (Proc.devRef .tc main_arg11) = W2 m ρ c (Proc.devRef .tc main_arg11)).trans (W2_arg11 m ρ c))
theorem W4_arg12 : W4 m ρ c (Proc.devRef .tc main_arg12) = m ((c : Thread nD τ).loc main_arg12) :=
  (W4_of_ne m ρ c main_arg12 (by decide)).trans ((by unwritten hostOps1 : W3 m ρ c (Proc.devRef .tc main_arg12) = W2 m ρ c (Proc.devRef .tc main_arg12)).trans (W2_arg12 m ρ c))
theorem W4_arg13 : W4 m ρ c (Proc.devRef .tc main_arg13) = m ((c : Thread nD τ).loc main_arg13) :=
  (W4_of_ne m ρ c main_arg13 (by decide)).trans ((by unwritten hostOps1 : W3 m ρ c (Proc.devRef .tc main_arg13) = W2 m ρ c (Proc.devRef .tc main_arg13)).trans (W2_arg13 m ρ c))
theorem W4_arg17 : W4 m ρ c (Proc.devRef .tc main_arg17) = m ((c : Thread nD τ).loc main_arg17) :=
  (W4_of_ne m ρ c main_arg17 (by decide)).trans ((by unwritten hostOps1 : W3 m ρ c (Proc.devRef .tc main_arg17) = W2 m ρ c (Proc.devRef .tc main_arg17)).trans (W2_arg17 m ρ c))
theorem W4_arg18 : W4 m ρ c (Proc.devRef .tc main_arg18) = m ((c : Thread nD τ).loc main_arg18) :=
  (W4_of_ne m ρ c main_arg18 (by decide)).trans ((by unwritten hostOps1 : W3 m ρ c (Proc.devRef .tc main_arg18) = W2 m ρ c (Proc.devRef .tc main_arg18)).trans (W2_arg18 m ρ c))
theorem W4_arg19 : W4 m ρ c (Proc.devRef .tc main_arg19) = m ((c : Thread nD τ).loc main_arg19) :=
  (W4_of_ne m ρ c main_arg19 (by decide)).trans ((by unwritten hostOps1 : W3 m ρ c (Proc.devRef .tc main_arg19) = W2 m ρ c (Proc.devRef .tc main_arg19)).trans (W2_arg19 m ρ c))
theorem W4_arg20 : W4 m ρ c (Proc.devRef .tc main_arg20) = m ((c : Thread nD τ).loc main_arg20) :=
  (W4_of_ne m ρ c main_arg20 (by decide)).trans ((by unwritten hostOps1 : W3 m ρ c (Proc.devRef .tc main_arg20) = W2 m ρ c (Proc.devRef .tc main_arg20)).trans (W2_arg20 m ρ c))
theorem W4_arg21 : W4 m ρ c (Proc.devRef .tc main_arg21) = m ((c : Thread nD τ).loc main_arg21) :=
  (W4_of_ne m ρ c main_arg21 (by decide)).trans ((by unwritten hostOps1 : W3 m ρ c (Proc.devRef .tc main_arg21) = W2 m ρ c (Proc.devRef .tc main_arg21)).trans (W2_arg21 m ρ c))
theorem W4_arg22 : W4 m ρ c (Proc.devRef .tc main_arg22) = m ((c : Thread nD τ).loc main_arg22) :=
  (W4_of_ne m ρ c main_arg22 (by decide)).trans ((by unwritten hostOps1 : W3 m ρ c (Proc.devRef .tc main_arg22) = W2 m ρ c (Proc.devRef .tc main_arg22)).trans (W2_arg22 m ρ c))
theorem W4_arg23 : W4 m ρ c (Proc.devRef .tc main_arg23) = m ((c : Thread nD τ).loc main_arg23) :=
  (W4_of_ne m ρ c main_arg23 (by decide)).trans ((by unwritten hostOps1 : W3 m ρ c (Proc.devRef .tc main_arg23) = W2 m ρ c (Proc.devRef .tc main_arg23)).trans (W2_arg23 m ρ c))
theorem W6_arg2 : W6 m ρ c (Proc.devRef .tc main_arg2) = m ((c : Thread nD τ).loc main_arg2) :=
  (W6_of_ne m ρ c main_arg2 (by decide)).trans ((by unwritten hostOps2 : W5 m ρ c (Proc.devRef .tc main_arg2) = W4 m ρ c (Proc.devRef .tc main_arg2)).trans (W4_arg2 m ρ c))
theorem W6_arg3 : W6 m ρ c (Proc.devRef .tc main_arg3) = m ((c : Thread nD τ).loc main_arg3) :=
  (W6_of_ne m ρ c main_arg3 (by decide)).trans ((by unwritten hostOps2 : W5 m ρ c (Proc.devRef .tc main_arg3) = W4 m ρ c (Proc.devRef .tc main_arg3)).trans (W4_arg3 m ρ c))
theorem W6_arg11 : W6 m ρ c (Proc.devRef .tc main_arg11) = m ((c : Thread nD τ).loc main_arg11) :=
  (W6_of_ne m ρ c main_arg11 (by decide)).trans ((by unwritten hostOps2 : W5 m ρ c (Proc.devRef .tc main_arg11) = W4 m ρ c (Proc.devRef .tc main_arg11)).trans (W4_arg11 m ρ c))
theorem W6_arg12 : W6 m ρ c (Proc.devRef .tc main_arg12) = m ((c : Thread nD τ).loc main_arg12) :=
  (W6_of_ne m ρ c main_arg12 (by decide)).trans ((by unwritten hostOps2 : W5 m ρ c (Proc.devRef .tc main_arg12) = W4 m ρ c (Proc.devRef .tc main_arg12)).trans (W4_arg12 m ρ c))
theorem W6_arg13 : W6 m ρ c (Proc.devRef .tc main_arg13) = m ((c : Thread nD τ).loc main_arg13) :=
  (W6_of_ne m ρ c main_arg13 (by decide)).trans ((by unwritten hostOps2 : W5 m ρ c (Proc.devRef .tc main_arg13) = W4 m ρ c (Proc.devRef .tc main_arg13)).trans (W4_arg13 m ρ c))
theorem W6_arg17 : W6 m ρ c (Proc.devRef .tc main_arg17) = m ((c : Thread nD τ).loc main_arg17) :=
  (W6_of_ne m ρ c main_arg17 (by decide)).trans ((by unwritten hostOps2 : W5 m ρ c (Proc.devRef .tc main_arg17) = W4 m ρ c (Proc.devRef .tc main_arg17)).trans (W4_arg17 m ρ c))
theorem W6_arg18 : W6 m ρ c (Proc.devRef .tc main_arg18) = m ((c : Thread nD τ).loc main_arg18) :=
  (W6_of_ne m ρ c main_arg18 (by decide)).trans ((by unwritten hostOps2 : W5 m ρ c (Proc.devRef .tc main_arg18) = W4 m ρ c (Proc.devRef .tc main_arg18)).trans (W4_arg18 m ρ c))
theorem W6_arg19 : W6 m ρ c (Proc.devRef .tc main_arg19) = m ((c : Thread nD τ).loc main_arg19) :=
  (W6_of_ne m ρ c main_arg19 (by decide)).trans ((by unwritten hostOps2 : W5 m ρ c (Proc.devRef .tc main_arg19) = W4 m ρ c (Proc.devRef .tc main_arg19)).trans (W4_arg19 m ρ c))
theorem W6_arg20 : W6 m ρ c (Proc.devRef .tc main_arg20) = m ((c : Thread nD τ).loc main_arg20) :=
  (W6_of_ne m ρ c main_arg20 (by decide)).trans ((by unwritten hostOps2 : W5 m ρ c (Proc.devRef .tc main_arg20) = W4 m ρ c (Proc.devRef .tc main_arg20)).trans (W4_arg20 m ρ c))
theorem W6_arg21 : W6 m ρ c (Proc.devRef .tc main_arg21) = m ((c : Thread nD τ).loc main_arg21) :=
  (W6_of_ne m ρ c main_arg21 (by decide)).trans ((by unwritten hostOps2 : W5 m ρ c (Proc.devRef .tc main_arg21) = W4 m ρ c (Proc.devRef .tc main_arg21)).trans (W4_arg21 m ρ c))
theorem W6_arg22 : W6 m ρ c (Proc.devRef .tc main_arg22) = m ((c : Thread nD τ).loc main_arg22) :=
  (W6_of_ne m ρ c main_arg22 (by decide)).trans ((by unwritten hostOps2 : W5 m ρ c (Proc.devRef .tc main_arg22) = W4 m ρ c (Proc.devRef .tc main_arg22)).trans (W4_arg22 m ρ c))
theorem W6_arg23 : W6 m ρ c (Proc.devRef .tc main_arg23) = m ((c : Thread nD τ).loc main_arg23) :=
  (W6_of_ne m ρ c main_arg23 (by decide)).trans ((by unwritten hostOps2 : W5 m ρ c (Proc.devRef .tc main_arg23) = W4 m ρ c (Proc.devRef .tc main_arg23)).trans (W4_arg23 m ρ c))
theorem W8_arg2 : W8 m ρ c (Proc.devRef .tc main_arg2) = m ((c : Thread nD τ).loc main_arg2) :=
  (W8_of_ne m ρ c main_arg2 (by decide)).trans ((by unwritten hostOps3 : W7 m ρ c (Proc.devRef .tc main_arg2) = W6 m ρ c (Proc.devRef .tc main_arg2)).trans (W6_arg2 m ρ c))
theorem W8_arg3 : W8 m ρ c (Proc.devRef .tc main_arg3) = m ((c : Thread nD τ).loc main_arg3) :=
  (W8_of_ne m ρ c main_arg3 (by decide)).trans ((by unwritten hostOps3 : W7 m ρ c (Proc.devRef .tc main_arg3) = W6 m ρ c (Proc.devRef .tc main_arg3)).trans (W6_arg3 m ρ c))
theorem W8_arg17 : W8 m ρ c (Proc.devRef .tc main_arg17) = m ((c : Thread nD τ).loc main_arg17) :=
  (W8_of_ne m ρ c main_arg17 (by decide)).trans ((by unwritten hostOps3 : W7 m ρ c (Proc.devRef .tc main_arg17) = W6 m ρ c (Proc.devRef .tc main_arg17)).trans (W6_arg17 m ρ c))
theorem W8_arg18 : W8 m ρ c (Proc.devRef .tc main_arg18) = m ((c : Thread nD τ).loc main_arg18) :=
  (W8_of_ne m ρ c main_arg18 (by decide)).trans ((by unwritten hostOps3 : W7 m ρ c (Proc.devRef .tc main_arg18) = W6 m ρ c (Proc.devRef .tc main_arg18)).trans (W6_arg18 m ρ c))
theorem W8_arg19 : W8 m ρ c (Proc.devRef .tc main_arg19) = m ((c : Thread nD τ).loc main_arg19) :=
  (W8_of_ne m ρ c main_arg19 (by decide)).trans ((by unwritten hostOps3 : W7 m ρ c (Proc.devRef .tc main_arg19) = W6 m ρ c (Proc.devRef .tc main_arg19)).trans (W6_arg19 m ρ c))
theorem W8_arg20 : W8 m ρ c (Proc.devRef .tc main_arg20) = m ((c : Thread nD τ).loc main_arg20) :=
  (W8_of_ne m ρ c main_arg20 (by decide)).trans ((by unwritten hostOps3 : W7 m ρ c (Proc.devRef .tc main_arg20) = W6 m ρ c (Proc.devRef .tc main_arg20)).trans (W6_arg20 m ρ c))
theorem W8_arg21 : W8 m ρ c (Proc.devRef .tc main_arg21) = m ((c : Thread nD τ).loc main_arg21) :=
  (W8_of_ne m ρ c main_arg21 (by decide)).trans ((by unwritten hostOps3 : W7 m ρ c (Proc.devRef .tc main_arg21) = W6 m ρ c (Proc.devRef .tc main_arg21)).trans (W6_arg21 m ρ c))
theorem W8_arg22 : W8 m ρ c (Proc.devRef .tc main_arg22) = m ((c : Thread nD τ).loc main_arg22) :=
  (W8_of_ne m ρ c main_arg22 (by decide)).trans ((by unwritten hostOps3 : W7 m ρ c (Proc.devRef .tc main_arg22) = W6 m ρ c (Proc.devRef .tc main_arg22)).trans (W6_arg22 m ρ c))
theorem W8_arg23 : W8 m ρ c (Proc.devRef .tc main_arg23) = m ((c : Thread nD τ).loc main_arg23) :=
  (W8_of_ne m ρ c main_arg23 (by decide)).trans ((by unwritten hostOps3 : W7 m ρ c (Proc.devRef .tc main_arg23) = W6 m ρ c (Proc.devRef .tc main_arg23)).trans (W6_arg23 m ρ c))

end Cert.KernelIdeal.Fold

end
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.Body0.lean ====
/-
  The body of the first input projection on one block: a product into a zero accumulator, the bias row broadcast
  down the rows, a maximum with the zero splat, with changes of float format (the identity on extended reals)
  around the product. It is the dense relu layer `Spec.lin` of the three loaded blocks, at the block's extents.
-/
import proofs.«119777_j1168231104685_2_alg».proof.Proof.Gen.KernelIdeal.Skeleton
import proofs.«119777_j1168231104685_2_alg».proof.Proof.LayerSpec
import proofs.«119777_j1168231104685_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body0

open Cert.KernelIdeal Cert.KernelIdeal.Gen Idealize.ShloMosaic
open Idealize.ShloMosaic.ValueIdx

/-- The block product into the zero accumulator is the matrix product of the two blocks. -/
theorem prod_block (l : FVec Ideal S4000x8 .bf16) (r : FVec Ideal S8x128 .bf16) :
    matmul dot_S4000x8_S8x128_S4000x128_1_0_0_1_n_n none l r (constant S4000x128 .f32 0x00000000#32)
      = Spec.prod (M := 4000) (K := 8) (N := 128) l r := by
  funext j
  simp only [matmul]
  rw [Ideal.matmul_constant_zero_apply]
  exact Cert.PlainDot.sum_eq dot_S4000x8_S8x128_S4000x128_1_0_0_1_n_n rfl rfl
    (fun j q => by
      unfold DotDims.lhsIdx
      rw [dif_neg (show ¬(0 : Fin S4000x8.rank) ∈ dot_S4000x8_S8x128_S4000x128_1_0_0_1_n_n.lhsBatch by decide),
        dif_pos (show (0 : Fin S4000x8.rank) ∈ dot_S4000x8_S8x128_S4000x128_1_0_0_1_n_n.lhsNonContracting by decide)]
      rfl)
    (fun j q => dot_S4000x8_S8x128_S4000x128_1_0_0_1_n_n.lhsIdx_val_of_single rfl j q)
    (fun j q => dot_S4000x8_S8x128_S4000x128_1_0_0_1_n_n.rhsIdx_val_of_single rfl j q)
    (fun j q => by
      unfold DotDims.rhsIdx
      rw [dif_neg (show ¬(1 : Fin S8x128.rank) ∈ dot_S4000x8_S8x128_S4000x128_1_0_0_1_n_n.rhsBatch by decide),
        dif_pos (show (1 : Fin S8x128.rank) ∈ dot_S4000x8_S8x128_S4000x128_1_0_0_1_n_n.rhsNonContracting by decide)]
      rfl)
    l r j

/-- The bias row broadcast down the block's rows reads the row at the column. -/
theorem bias_block (b : FVec Ideal S1x128 .f32) (j : S4000x128.Idx) :
    broadcastTo S4000x128 b broadcasts_S1x128_S4000x128 j = b (ix2 0 (Spec.col j)) :=
  broadcastTo_apply b broadcasts_S1x128_S4000x128 j (ix2 0 (Spec.col j)) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])

/-- The body's one payload is the dense relu layer of its three loaded blocks. -/
theorem pay_eq (x0 : Vec Ideal S4000x8 .f32) (x1 : Vec Ideal S8x128 .f32) (x2 : Vec Ideal S1x128 .f32) :
    k0_pay1 (F := Ideal) x0 x1 x2 = Spec.lin (M := 4000) (K := 8) (N := 128) x0 x1 x2 := by
  funext j
  unfold k0_pay1
  rw [shapeCast_self, shapeCast_self]
  have h1 := congrFun (prod_block (truncf (F := Ideal) .bf16 (x0 : FVec Ideal S4000x8 .f32) bitsLt_bf16_f32)
    (truncf (F := Ideal) .bf16 (x1 : FVec Ideal S8x128 .f32) bitsLt_bf16_f32)) j
  have h2 := bias_block (x2 : FVec Ideal S1x128 .f32) j
  have h3 : (Ideal.ofBits .f32 0x00000000#32 : EReal) = 0 := Ideal.ofBits_zero_f32
  show max ((matmul (F := Ideal) dot_S4000x8_S8x128_S4000x128_1_0_0_1_n_n none
        (truncf (F := Ideal) .bf16 (x0 : FVec Ideal S4000x8 .f32) bitsLt_bf16_f32)
        (truncf (F := Ideal) .bf16 (x1 : FVec Ideal S8x128 .f32) bitsLt_bf16_f32)
        (constant (F := Ideal) S4000x128 .f32 0x00000000#32)) j
      + broadcastTo S4000x128 (x2 : FVec Ideal S1x128 .f32) broadcasts_S1x128_S4000x128 j) (Ideal.ofBits .f32 0x00000000#32)
    = max (Spec.prod (M := 4000) (K := 8) (N := 128) x0 x1 j + x2 (ix2 0 (Spec.col j))) 0
  rw [h1, h2, h3]
  rfl

end Cert.KernelIdeal.Body0

end
-- ==== Proof.Region0.lean ====
/-
  The first input projection (the fund nodes): what the array it writes holds after the region.

  The region walks the 100000 rows of its first operand in 25 blocks of 4000 rows; the weights (8×128) and the
  bias row (1×128) are resident: every point reads all of them. At a point the body computes on its block the
  dense relu layer `Spec.lin` at the block's extents (`Body0.pay_eq`). A dense layer computes a row from that row
  alone (`Spec.lin_rowsOf`), so what point `t` writes back is rows `4000 t … 4000 t + 3999` of the layer of the
  whole arrays (`flushed_eq`); the 25 blocks tile the rows (`cover`); hence the array ends holding the layer of
  the arrays the region found (`value`).
-/
import proofs.«119777_j1168231104685_2_alg».proof.Proof.Gen.KernelIdeal.Frame
import proofs.«119777_j1168231104685_2_alg».proof.Proof.Body0

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

/-! ## From blocks to the array -/

variable (V : (c : Dev nD) → (b : Ref sig .tc) → Buf (Elt Ideal) ((c : Thread nD τ).loc b))

/-- The printed index maps, decided over the 25 points: the row operand and the result move with the point, the
    weights and the bias row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `4000 t + p` of the array. -/
def rowAt (t : Fin cfg0.N) (p : Fin 4000) : Fin 100000 :=
  ⟨t.val * 4000 + p.val, by have ht : t.val < 25 := t.isLt; have hp := p.isLt; omega⟩

/-- The row operand's block at a point is those rows of the array. -/
theorem blk_rows (c : Dev nD) (t : Fin cfg0.N) :
    iblk0 V c 0 t = Spec.rowsOf (rowAt t) (V c (Pipeline.arrRef spec0 0)) := by
  obtain ⟨e0, e1, -, -, -, -, -, -⟩ := idx_facts t
  funext y
  show V c (Pipeline.arrRef spec0 0) (((cfg0.win 0).blk t).view.emb y) = V c (Pipeline.arrRef spec0 0) (ix2 (rowAt t (Spec.row y)) (Spec.col y))
  refine congrArg (V c (Pipeline.arrRef spec0 0)) (funext fun a => Fin.ext ?_)
  match a with
  | ⟨0, _⟩ => show win0_0.index t (0 : Fin 2) * 4000 + 1 * (y 0).val = t.val * 4000 + (y 0).val; omega
  | ⟨1, _⟩ => show win0_0.index t (1 : Fin 2) * 8 + 1 * (y 1).val = (y 1).val; omega

/-- The weights' block at every point is the whole array. -/
theorem blk_weights (c : Dev nD) (t : Fin cfg0.N) : iblk0 V c 1 t = V c (Pipeline.arrRef spec0 1) := by
  obtain ⟨-, -, e2, e3, -, -, -, -⟩ := idx_facts t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 8 + 1 * (y 0).val = (y 0).val; omega
  | ⟨1, _⟩ => show win0_1.index t (1 : Fin 2) * 128 + 1 * (y 1).val = (y 1).val; omega

/-- The bias row's block at every point is the whole row. -/
theorem blk_bias (c : Dev nD) (t : Fin cfg0.N) : iblk0 V c 2 t = V c (Pipeline.arrRef spec0 2) := by
  obtain ⟨-, -, -, -, e4, e5, -, -⟩ := idx_facts t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT POINT `t` WRITES BACK is its block of rows of the dense relu layer of the arrays the region found. -/
theorem flushed_eq (c : Dev nD) (t : Fin cfg0.N) :
    (dat0 V c).flushed 3 t = ((cfg0.win 3).blk t).view.read (Elt Ideal)
      (Spec.lin (M := 100000) (K := 8) (N := 128) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S4000x8) hz, View.ld_unit_zero (S := S8x128) hz, View.ld_unit_zero (S := S1x128) hz]
  rw [Body0.pay_eq, blk_rows, blk_weights, blk_bias, Spec.lin_rowsOf]
  obtain ⟨-, -, -, -, -, -, e6, e7⟩ := idx_facts t
  funext j
  show Spec.lin (M := 100000) (K := 8) (N := 128) (V c (Pipeline.arrRef spec0 0)) (V c (Pipeline.arrRef spec0 1)) (V c (Pipeline.arrRef spec0 2)) (ix2 (rowAt t (Spec.row j)) (Spec.col j))
    = Spec.lin (M := 100000) (K := 8) (N := 128) (V c (Pipeline.arrRef spec0 0)) (V c (Pipeline.arrRef spec0 1)) (V c (Pipeline.arrRef spec0 2)) (((cfg0.win 3).blk t).view.emb j)
  refine congrArg (Spec.lin (M := 100000) (K := 8) (N := 128) (V c (Pipeline.arrRef spec0 0)) (V c (Pipeline.arrRef spec0 1)) (V c (Pipeline.arrRef spec0 2))) (funext fun a => Fin.ext ?_)
  match a with
  | ⟨0, _⟩ => show t.val * 4000 + (j 0).val = win0_3.index t (0 : Fin 2) * 4000 + 1 * (j 0).val; omega
  | ⟨1, _⟩ => show (j 1).val = win0_3.index t (1 : Fin 2) * 128 + 1 * (j 1).val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v2).slice (win0_3.rect t)).set ↔ _
  rw [View.set_slice_whole, Rect.mem_set_unit]
  exact Iff.rfl

/-- The 25 blocks tile the rows: row `r` is in the block of point `r / 4000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 4000 < 25 := by omega
  refine ⟨⟨(i 0).val / 4000, ht⟩, flush0_3 _, ?_⟩
  obtain ⟨-, -, -, -, -, -, e6, e7⟩ := idx_facts ⟨(i 0).val / 4000, ht⟩
  rw [mem_blk]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    have e6' : win0_3.index ⟨(i 0).val / 4000, ht⟩ (0 : Fin 2) = (i 0).val / 4000 := e6
    omega
  | ⟨1, _⟩ =>
    show win0_3.index ⟨(i 0).val / 4000, ht⟩ (1 : Fin 2) * 128 ≤ (i 1).val ∧ (i 1).val < win0_3.index ⟨(i 0).val / 4000, ht⟩ (1 : Fin 2) * 128 + 128
    omega

/-- THE ARRAY after the region: the dense relu layer of the arrays the region found. -/
theorem value (c : Dev nD) :
    (dat0 V c).arrAt 3 cfg0.N
      = Spec.lin (M := 100000) (K := 8) (N := 128) (V c (Pipeline.arrRef spec0 0)) (V c (Pipeline.arrRef spec0 1)) (V c (Pipeline.arrRef spec0 2)) :=
  (dat0 V c).arrAt_eq_of_cover 3 _ (fun t _ => flushed_eq V c t) (cover)

end Cert.KernelIdeal.Region0

end
-- ==== Proof.Body1.lean ====
/-
  The body of the second input projection on one block: a product into a zero accumulator, the bias row broadcast
  down the rows, a maximum with the zero splat, with changes of float format (the identity on extended reals)
  around the product. It is the dense relu layer `Spec.lin` of the three loaded blocks, at the block's extents.
-/
import proofs.«119777_j1168231104685_2_alg».proof.Proof.Gen.KernelIdeal.Skeleton
import proofs.«119777_j1168231104685_2_alg».proof.Proof.LayerSpec
import proofs.«119777_j1168231104685_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body1

open Cert.KernelIdeal Cert.KernelIdeal.Gen Idealize.ShloMosaic
open Idealize.ShloMosaic.ValueIdx

/-- The block product into the zero accumulator is the matrix product of the two blocks. -/
theorem prod_block (l : FVec Ideal S2000x5 .bf16) (r : FVec Ideal S5x128 .bf16) :
    matmul dot_S2000x5_S5x128_S2000x128_1_0_0_1_n_n none l r (constant S2000x128 .f32 0x00000000#32)
      = Spec.prod (M := 2000) (K := 5) (N := 128) l r := by
  funext j
  simp only [matmul]
  rw [Ideal.matmul_constant_zero_apply]
  exact Cert.PlainDot.sum_eq dot_S2000x5_S5x128_S2000x128_1_0_0_1_n_n rfl rfl
    (fun j q => by
      unfold DotDims.lhsIdx
      rw [dif_neg (show ¬(0 : Fin S2000x5.rank) ∈ dot_S2000x5_S5x128_S2000x128_1_0_0_1_n_n.lhsBatch by decide),
        dif_pos (show (0 : Fin S2000x5.rank) ∈ dot_S2000x5_S5x128_S2000x128_1_0_0_1_n_n.lhsNonContracting by decide)]
      rfl)
    (fun j q => dot_S2000x5_S5x128_S2000x128_1_0_0_1_n_n.lhsIdx_val_of_single rfl j q)
    (fun j q => dot_S2000x5_S5x128_S2000x128_1_0_0_1_n_n.rhsIdx_val_of_single rfl j q)
    (fun j q => by
      unfold DotDims.rhsIdx
      rw [dif_neg (show ¬(1 : Fin S5x128.rank) ∈ dot_S2000x5_S5x128_S2000x128_1_0_0_1_n_n.rhsBatch by decide),
        dif_pos (show (1 : Fin S5x128.rank) ∈ dot_S2000x5_S5x128_S2000x128_1_0_0_1_n_n.rhsNonContracting by decide)]
      rfl)
    l r j

/-- The bias row broadcast down the block's rows reads the row at the column. -/
theorem bias_block (b : FVec Ideal S1x128 .f32) (j : S2000x128.Idx) :
    broadcastTo S2000x128 b broadcasts_S1x128_S2000x128 j = b (ix2 0 (Spec.col j)) :=
  broadcastTo_apply b broadcasts_S1x128_S2000x128 j (ix2 0 (Spec.col j)) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])

/-- The body's one payload is the dense relu layer of its three loaded blocks. -/
theorem pay_eq (x0 : Vec Ideal S2000x5 .f32) (x1 : Vec Ideal S5x128 .f32) (x2 : Vec Ideal S1x128 .f32) :
    k1_pay1 (F := Ideal) x0 x1 x2 = Spec.lin (M := 2000) (K := 5) (N := 128) x0 x1 x2 := by
  funext j
  unfold k1_pay1
  rw [shapeCast_self, shapeCast_self]
  have h1 := congrFun (prod_block (truncf (F := Ideal) .bf16 (x0 : FVec Ideal S2000x5 .f32) bitsLt_bf16_f32)
    (truncf (F := Ideal) .bf16 (x1 : FVec Ideal S5x128 .f32) bitsLt_bf16_f32)) j
  have h2 := bias_block (x2 : FVec Ideal S1x128 .f32) j
  have h3 : (Ideal.ofBits .f32 0x00000000#32 : EReal) = 0 := Ideal.ofBits_zero_f32
  show max ((matmul (F := Ideal) dot_S2000x5_S5x128_S2000x128_1_0_0_1_n_n none
        (truncf (F := Ideal) .bf16 (x0 : FVec Ideal S2000x5 .f32) bitsLt_bf16_f32)
        (truncf (F := Ideal) .bf16 (x1 : FVec Ideal S5x128 .f32) bitsLt_bf16_f32)
        (constant (F := Ideal) S2000x128 .f32 0x00000000#32)) j
      + broadcastTo S2000x128 (x2 : FVec Ideal S1x128 .f32) broadcasts_S1x128_S2000x128 j) (Ideal.ofBits .f32 0x00000000#32)
    = max (Spec.prod (M := 2000) (K := 5) (N := 128) x0 x1 j + x2 (ix2 0 (Spec.col j))) 0
  rw [h1, h2, h3]
  rfl

end Cert.KernelIdeal.Body1

end
-- ==== Proof.Region1.lean ====
/-
  The second input projection (the manager nodes): what the array it writes holds after the region.

  The region walks the 20000 rows of its first operand in 10 blocks of 2000 rows; the weights (5×128) and the
  bias row (1×128) are resident: every point reads all of them. At a point the body computes on its block the
  dense relu layer `Spec.lin` at the block's extents (`Body1.pay_eq`). A dense layer computes a row from that row
  alone (`Spec.lin_rowsOf`), so what point `t` writes back is rows `2000 t … 2000 t + 1999` of the layer of the
  whole arrays (`flushed_eq`); the 10 blocks tile the rows (`cover`); hence the array ends holding the layer of
  the arrays the region found (`value`).
-/
import proofs.«119777_j1168231104685_2_alg».proof.Proof.Gen.KernelIdeal.Frame
import proofs.«119777_j1168231104685_2_alg».proof.Proof.Body1

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

/-! ## From blocks to the array -/

variable (V : (c : Dev nD) → (b : Ref sig .tc) → Buf (Elt Ideal) ((c : Thread nD τ).loc b))

/-- The printed index maps, decided over the 10 points: the row operand and the result move with the point, the
    weights and the bias row stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `2000 t + p` of the array. -/
def rowAt (t : Fin cfg1.N) (p : Fin 2000) : Fin 20000 :=
  ⟨t.val * 2000 + p.val, by have ht : t.val < 10 := t.isLt; have hp := p.isLt; omega⟩

/-- The row operand's block at a point is those rows of the array. -/
theorem blk_rows (c : Dev nD) (t : Fin cfg1.N) :
    iblk1 V c 0 t = Spec.rowsOf (rowAt t) (V c (Pipeline.arrRef spec1 0)) := by
  obtain ⟨e0, e1, -, -, -, -, -, -⟩ := idx_facts t
  funext y
  show V c (Pipeline.arrRef spec1 0) (((cfg1.win 0).blk t).view.emb y) = V c (Pipeline.arrRef spec1 0) (ix2 (rowAt t (Spec.row y)) (Spec.col y))
  refine congrArg (V c (Pipeline.arrRef spec1 0)) (funext fun a => Fin.ext ?_)
  match a with
  | ⟨0, _⟩ => show win1_0.index t (0 : Fin 2) * 2000 + 1 * (y 0).val = t.val * 2000 + (y 0).val; omega
  | ⟨1, _⟩ => show win1_0.index t (1 : Fin 2) * 5 + 1 * (y 1).val = (y 1).val; omega

/-- The weights' block at every point is the whole array. -/
theorem blk_weights (c : Dev nD) (t : Fin cfg1.N) : iblk1 V c 1 t = V c (Pipeline.arrRef spec1 1) := by
  obtain ⟨-, -, e2, e3, -, -, -, -⟩ := idx_facts t
  funext y
  show V c (Pipeline.arrRef spec1 1) (((cfg1.win 1).blk t).view.emb y) = V c (Pipeline.arrRef spec1 1) y
  refine congrArg (V c (Pipeline.arrRef spec1 1)) (funext fun a => Fin.ext ?_)
  match a with
  | ⟨0, _⟩ => show win1_1.index t (0 : Fin 2) * 5 + 1 * (y 0).val = (y 0).val; omega
  | ⟨1, _⟩ => show win1_1.index t (1 : Fin 2) * 128 + 1 * (y 1).val = (y 1).val; omega

/-- The bias row's block at every point is the whole row. -/
theorem blk_bias (c : Dev nD) (t : Fin cfg1.N) : iblk1 V c 2 t = V c (Pipeline.arrRef spec1 2) := by
  obtain ⟨-, -, -, -, e4, e5, -, -⟩ := idx_facts t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- WHAT POINT `t` WRITES BACK is its block of rows of the dense relu layer of the arrays the region found. -/
theorem flushed_eq (c : Dev nD) (t : Fin cfg1.N) :
    (dat1 V c).flushed 3 t = ((cfg1.win 3).blk t).view.read (Elt Ideal)
      (Spec.lin (M := 20000) (K := 5) (N := 128) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x5) hz, View.ld_unit_zero (S := S5x128) hz, View.ld_unit_zero (S := S1x128) hz]
  rw [Body1.pay_eq, blk_rows, blk_weights, blk_bias, Spec.lin_rowsOf]
  obtain ⟨-, -, -, -, -, -, e6, e7⟩ := idx_facts t
  funext j
  show Spec.lin (M := 20000) (K := 5) (N := 128) (V c (Pipeline.arrRef spec1 0)) (V c (Pipeline.arrRef spec1 1)) (V c (Pipeline.arrRef spec1 2)) (ix2 (rowAt t (Spec.row j)) (Spec.col j))
    = Spec.lin (M := 20000) (K := 5) (N := 128) (V c (Pipeline.arrRef spec1 0)) (V c (Pipeline.arrRef spec1 1)) (V c (Pipeline.arrRef spec1 2)) (((cfg1.win 3).blk t).view.emb j)
  refine congrArg (Spec.lin (M := 20000) (K := 5) (N := 128) (V c (Pipeline.arrRef spec1 0)) (V c (Pipeline.arrRef spec1 1)) (V c (Pipeline.arrRef spec1 2))) (funext fun a => Fin.ext ?_)
  match a with
  | ⟨0, _⟩ => show t.val * 2000 + (j 0).val = win1_3.index t (0 : Fin 2) * 2000 + 1 * (j 0).val; omega
  | ⟨1, _⟩ => show (j 1).val = win1_3.index t (1 : Fin 2) * 128 + 1 * (j 1).val; omega

/-- An index of the array is in point `t`'s block iff each coordinate is in the block's range on its axis. -/
theorem mem_blk (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v5).slice (win1_3.rect t)).set ↔ _
  rw [View.set_slice_whole, Rect.mem_set_unit]
  exact Iff.rfl

/-- The 10 blocks tile the rows: row `r` is in the block of point `r / 2000`. -/
theorem cover (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have ht : (i 0).val / 2000 < 10 := by omega
  refine ⟨⟨(i 0).val / 2000, ht⟩, flush1_3 _, ?_⟩
  obtain ⟨-, -, -, -, -, -, e6, e7⟩ := idx_facts ⟨(i 0).val / 2000, ht⟩
  rw [mem_blk]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    have e6' : win1_3.index ⟨(i 0).val / 2000, ht⟩ (0 : Fin 2) = (i 0).val / 2000 := e6
    omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    omega

/-- THE ARRAY after the region: the dense relu layer of the arrays the region found. -/
theorem value (c : Dev nD) :
    (dat1 V c).arrAt 3 cfg1.N
      = Spec.lin (M := 20000) (K := 5) (N := 128) (V c (Pipeline.arrRef spec1 0)) (V c (Pipeline.arrRef spec1 1)) (V c (Pipeline.arrRef spec1 2)) :=
  (dat1 V c).arrAt_eq_of_cover 3 _ (fun t _ => flushed_eq V c t) (cover)

end Cert.KernelIdeal.Region1

end
-- ==== Proof.Body2.lean ====
/-
  The body of a graph-convolution combine on one block of 2000 rows: the block of the neighbours' means times the
  first weight matrix into a zero accumulator, plus the bias row broadcast down the rows; the block of the nodes'
  own features times the second weight matrix into a zero accumulator; the sum of the two, in that order; a maximum
  with the zero splat. The weights change float format before each product and the result changes format at the
  end: on extended reals every change of format is the identity. It is the combine `Spec.sage` of the five loaded
  blocks, at the block's extents.
-/
import proofs.«119777_j1168231104685_2_alg».proof.Proof.Gen.KernelIdeal.Skeleton
import proofs.«119777_j1168231104685_2_alg».proof.Proof.LayerSpec
import proofs.«119777_j1168231104685_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body2

open Cert.KernelIdeal Cert.KernelIdeal.Gen Idealize.ShloMosaic
open Idealize.ShloMosaic.ValueIdx

/-- A block product into the zero accumulator is the matrix product of the block and the weights. -/
theorem prod_block (l : FVec Ideal S2000x128 .bf16) (r : FVec Ideal S128x128 .bf16) :
    matmul dot_S2000x128_S128x128_S2000x128_1_0_0_1_n_n none l r (constant S2000x128 .f32 0x00000000#32)
      = Spec.prod (M := 2000) (K := 128) (N := 128) l r := by
  funext j
  simp only [matmul]
  rw [Ideal.matmul_constant_zero_apply]
  exact Cert.PlainDot.sum_eq dot_S2000x128_S128x128_S2000x128_1_0_0_1_n_n rfl rfl
    (fun j q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun j q => dot_S2000x128_S128x128_S2000x128_1_0_0_1_n_n.lhsIdx_val_of_single rfl j q)
    (fun j q => dot_S2000x128_S128x128_S2000x128_1_0_0_1_n_n.rhsIdx_val_of_single rfl j q)
    (fun j q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    l r j

/-- The bias row broadcast down the block's rows reads the row at the column. -/
theorem bias_block (b : FVec Ideal S1x128 .f32) (j : S2000x128.Idx) :
    broadcastTo S2000x128 b broadcasts_S1x128_S2000x128 j = b (ix2 0 (Spec.col j)) :=
  broadcastTo_apply b broadcasts_S1x128_S2000x128 j (ix2 0 (Spec.col j)) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])

/-- The body's one payload is the combine of its five loaded blocks: the first product plus the bias, plus the
    second product, then the maximum with zero. -/
theorem pay_eq (x0 x1 : Vec Ideal S2000x128 .bf16) (x2 x3 : Vec Ideal S128x128 .f32) (x4 : Vec Ideal S1x128 .f32) :
    k2_pay1 (F := Ideal) x0 x1 x2 x3 x4 = Spec.sage (M := 2000) (H := 128) x0 x1 x2 x3 x4 := by
  funext j
  unfold k2_pay1
  rw [shapeCast_self, shapeCast_self, shapeCast_self, shapeCast_self, shapeCast_self]
  have h1 := congrFun (prod_block (x0 : FVec Ideal S2000x128 .bf16)
    (truncf (F := Ideal) .bf16 (x2 : FVec Ideal S128x128 .f32) bitsLt_bf16_f32)) j
  have h2 := bias_block (x4 : FVec Ideal S1x128 .f32) j
  have h3 := congrFun (prod_block (x1 : FVec Ideal S2000x128 .bf16)
    (truncf (F := Ideal) .bf16 (x3 : FVec Ideal S128x128 .f32) bitsLt_bf16_f32)) j
  have h4 : (Ideal.ofBits .f32 0x00000000#32 : EReal) = 0 := Ideal.ofBits_zero_f32
  show max (((matmul (F := Ideal) dot_S2000x128_S128x128_S2000x128_1_0_0_1_n_n none
        (x0 : FVec Ideal S2000x128 .bf16)
        (truncf (F := Ideal) .bf16 (x2 : FVec Ideal S128x128 .f32) bitsLt_bf16_f32)
        (constant (F := Ideal) S2000x128 .f32 0x00000000#32)) j
      + broadcastTo S2000x128 (x4 : FVec Ideal S1x128 .f32) broadcasts_S1x128_S2000x128 j)
      + (matmul (F := Ideal) dot_S2000x128_S128x128_S2000x128_1_0_0_1_n_n none
        (x1 : FVec Ideal S2000x128 .bf16)
        (truncf (F := Ideal) .bf16 (x3 : FVec Ideal S128x128 .f32) bitsLt_bf16_f32)
        (constant (F := Ideal) S2000x128 .f32 0x00000000#32)) j) (Ideal.ofBits .f32 0x00000000#32)
    = max ((Spec.prod (M := 2000) (K := 128) (N := 128) x0 x2 j + x4 (ix2 0 (Spec.col j)))
      + Spec.prod (M := 2000) (K := 128) (N := 128) x1 x3 j) 0
  rw [h1, h2, h3, h4]
  rfl

end Cert.KernelIdeal.Body2

end
-- ==== Proof.Region2.lean ====
/-
  The graph-convolution combine over the arrays of 20000 rows: what the array it writes holds after the region.

  The region walks the 20000 rows of its two row operands — the neighbours' means and the nodes' own features —
  in 10 blocks of 2000 rows, the same block of rows of both at a point; the two weight matrices (128×128) and the
  bias row (1×128) are resident: every point reads all of them. At a point the body computes on its blocks the
  combine `Spec.sage` at the block's extents (`Body2.pay_eq`). The combine computes a row from that row of its
  two row operands alone (`Spec.sage_rowsOf`), so what point `t` writes back is rows `2000 t … 2000 t + 1999` of
  the combine of the whole arrays (`flushed_eq`); the 10 blocks tile the rows (`cover`); hence the array ends
  holding the combine of the arrays the region found (`value`).
-/
import proofs.«119777_j1168231104685_2_alg».proof.Proof.Gen.KernelIdeal.Frame
import proofs.«119777_j1168231104685_2_alg».proof.Proof.Body2

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

/-! ## From blocks to the array -/

variable (V : (c : Dev nD) → (b : Ref sig .tc) → Buf (Elt Ideal) ((c : Thread nD τ).loc b))

/-- The printed index maps, decided over the 10 points: the two row operands and the result move with the point,
    the two weight matrices and the bias row stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `2000 t + p` of the array. -/
def rowAt (t : Fin cfg2.N) (p : Fin 2000) : Fin 20000 :=
  ⟨t.val * 2000 + p.val, by have ht : t.val < 10 := t.isLt; have hp := p.isLt; omega⟩

/-- The block of the neighbours' means at a point is those rows of the array. -/
theorem blk_means (c : Dev nD) (t : Fin cfg2.N) :
    iblk2 V c 0 t = Spec.rowsOf (rowAt t) (V c (Pipeline.arrRef spec2 0)) := by
  obtain ⟨e0, e1, -, -, -, -, -, -, -, -, -, -⟩ := idx_facts t
  funext y
  show (V c (Pipeline.arrRef spec2 0)) (((cfg2.win 0).blk t).view.emb y) = (V c (Pipeline.arrRef spec2 0)) (ix2 (rowAt t (Spec.row y)) (Spec.col y))
  refine congrArg (V c (Pipeline.arrRef spec2 0)) (funext fun a => Fin.ext ?_)
  match a with
  | ⟨0, _⟩ => show win2_0.index t (0 : Fin 2) * 2000 + 1 * (y 0).val = t.val * 2000 + (y 0).val; omega
  | ⟨1, _⟩ => show win2_0.index t (1 : Fin 2) * 128 + 1 * (y 1).val = (y 1).val; omega

/-- The block of the nodes' own features at a point is the same rows of its array. -/
theorem blk_own (c : Dev nD) (t : Fin cfg2.N) :
    iblk2 V c 1 t = Spec.rowsOf (rowAt t) (V c (Pipeline.arrRef spec2 1)) := by
  obtain ⟨-, -, e2, e3, -, -, -, -, -, -, -, -⟩ := idx_facts t
  funext y
  show (V c (Pipeline.arrRef spec2 1)) (((cfg2.win 1).blk t).view.emb y) = (V c (Pipeline.arrRef spec2 1)) (ix2 (rowAt t (Spec.row y)) (Spec.col y))
  refine congrArg (V c (Pipeline.arrRef spec2 1)) (funext fun a => Fin.ext ?_)
  match a with
  | ⟨0, _⟩ => show win2_1.index t (0 : Fin 2) * 2000 + 1 * (y 0).val = t.val * 2000 + (y 0).val; omega
  | ⟨1, _⟩ => show win2_1.index t (1 : Fin 2) * 128 + 1 * (y 1).val = (y 1).val; omega

/-- The first weight matrix's block at every point is the whole array. -/
theorem blk_weights_means (c : Dev nD) (t : Fin cfg2.N) : iblk2 V c 2 t = (V c (Pipeline.arrRef spec2 2)) := by
  obtain ⟨-, -, -, -, e4, e5, -, -, -, -, -, -⟩ := idx_facts t
  funext y
  show (V c (Pipeline.arrRef spec2 2)) (((cfg2.win 2).blk t).view.emb y) = (V c (Pipeline.arrRef spec2 2)) y
  refine congrArg (V c (Pipeline.arrRef spec2 2)) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The second weight matrix's block at every point is the whole array. -/
theorem blk_weights_own (c : Dev nD) (t : Fin cfg2.N) : iblk2 V c 3 t = (V c (Pipeline.arrRef spec2 3)) := by
  obtain ⟨-, -, -, -, -, -, e6, e7, -, -, -, -⟩ := idx_facts t
  funext y
  show (V c (Pipeline.arrRef spec2 3)) (((cfg2.win 3).blk t).view.emb y) = (V c (Pipeline.arrRef spec2 3)) y
  refine congrArg (V c (Pipeline.arrRef spec2 3)) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row's block at every point is the whole row. -/
theorem blk_bias (c : Dev nD) (t : Fin cfg2.N) : iblk2 V c 4 t = (V c (Pipeline.arrRef spec2 4)) := by
  obtain ⟨-, -, -, -, -, -, -, -, e8, e9, -, -⟩ := idx_facts t
  funext y
  show (V c (Pipeline.arrRef spec2 4)) (((cfg2.win 4).blk t).view.emb y) = (V c (Pipeline.arrRef spec2 4)) y
  refine congrArg (V c (Pipeline.arrRef spec2 4)) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

set_option maxHeartbeats 1000000 in
/-- WHAT POINT `t` WRITES BACK is its block of rows of the combine of the arrays the region found. -/
theorem flushed_eq (c : Dev nD) (t : Fin cfg2.N) :
    (dat2 V c).flushed 5 t = ((cfg2.win 5).blk t).view.read (Elt Ideal)
      (Spec.sage (M := 20000) (H := 128) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  rw [Body2.pay_eq, blk_means, blk_own, blk_weights_means, blk_weights_own, blk_bias,
    Spec.sage_rowsOf (Mb := 2000) (M := 20000) (H := 128) (rowAt t) (V c (Pipeline.arrRef spec2 0)) (V c (Pipeline.arrRef spec2 1))
      (V c (Pipeline.arrRef spec2 2)) (V c (Pipeline.arrRef spec2 3)) (V c (Pipeline.arrRef spec2 4))]
  obtain ⟨-, -, -, -, -, -, -, -, -, -, e10, e11⟩ := idx_facts t
  funext j
  show Spec.sage (M := 20000) (H := 128) (V c (Pipeline.arrRef spec2 0)) (V c (Pipeline.arrRef spec2 1)) (V c (Pipeline.arrRef spec2 2)) (V c (Pipeline.arrRef spec2 3)) (V c (Pipeline.arrRef spec2 4)) (ix2 (rowAt t (Spec.row j)) (Spec.col j))
    = Spec.sage (M := 20000) (H := 128) (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  refine congrArg (Spec.sage (M := 20000) (H := 128) (V c (Pipeline.arrRef spec2 0)) (V c (Pipeline.arrRef spec2 1)) (V c (Pipeline.arrRef spec2 2)) (V c (Pipeline.arrRef spec2 3)) (V c (Pipeline.arrRef spec2 4))) (funext fun a => Fin.ext ?_)
  match a with
  | ⟨0, _⟩ => show t.val * 2000 + (j 0).val = win2_5.index t (0 : Fin 2) * 2000 + 1 * (j 0).val; omega
  | ⟨1, _⟩ => show (j 1).val = win2_5.index t (1 : Fin 2) * 128 + 1 * (j 1).val; omega

/-- An index of the array is in point `t`'s block iff each coordinate is in the block's range on its axis. -/
theorem mem_blk (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v35).slice (win2_5.rect t)).set ↔ _
  rw [View.set_slice_whole, Rect.mem_set_unit]
  exact Iff.rfl

/-- The 10 blocks tile the rows: row `r` is in the block of point `r / 2000`. -/
theorem cover (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  have ht : (i 0).val / 2000 < 10 := by omega
  refine ⟨⟨(i 0).val / 2000, ht⟩, flush2_5 _, ?_⟩
  obtain ⟨-, -, -, -, -, -, -, -, -, -, e10, e11⟩ := idx_facts ⟨(i 0).val / 2000, ht⟩
  rw [mem_blk]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    have e10' : win2_5.index ⟨(i 0).val / 2000, ht⟩ (0 : Fin 2) = (i 0).val / 2000 := e10
    omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    omega

/-- THE ARRAY after the region: the combine of the arrays the region found. -/
theorem value (c : Dev nD) :
    (dat2 V c).arrAt 5 cfg2.N
      = Spec.sage (M := 20000) (H := 128) (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed_eq V c t) (cover)

end Cert.KernelIdeal.Region2

end
-- ==== Proof.Body3.lean ====
/-
  The body of a graph-convolution combine on one block of 4000 rows: the block of the neighbours' means times the
  first weight matrix into a zero accumulator, plus the bias row broadcast down the rows; the block of the nodes'
  own features times the second weight matrix into a zero accumulator; the sum of the two, in that order; a maximum
  with the zero splat. The weights change float format before each product and the result changes format at the
  end: on extended reals every change of format is the identity. It is the combine `Spec.sage` of the five loaded
  blocks, at the block's extents.
-/
import proofs.«119777_j1168231104685_2_alg».proof.Proof.Gen.KernelIdeal.Skeleton
import proofs.«119777_j1168231104685_2_alg».proof.Proof.LayerSpec
import proofs.«119777_j1168231104685_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body3

open Cert.KernelIdeal Cert.KernelIdeal.Gen Idealize.ShloMosaic
open Idealize.ShloMosaic.ValueIdx

/-- A block product into the zero accumulator is the matrix product of the block and the weights. -/
theorem prod_block (l : FVec Ideal S4000x128 .bf16) (r : FVec Ideal S128x128 .bf16) :
    matmul dot_S4000x128_S128x128_S4000x128_1_0_0_1_n_n none l r (constant S4000x128 .f32 0x00000000#32)
      = Spec.prod (M := 4000) (K := 128) (N := 128) l r := by
  funext j
  simp only [matmul]
  rw [Ideal.matmul_constant_zero_apply]
  exact Cert.PlainDot.sum_eq dot_S4000x128_S128x128_S4000x128_1_0_0_1_n_n rfl rfl
    (fun j q => by
      unfold DotDims.lhsIdx
      rw [dif_neg (show ¬(0 : Fin S4000x128.rank) ∈ dot_S4000x128_S128x128_S4000x128_1_0_0_1_n_n.lhsBatch by decide),
        dif_pos (show (0 : Fin S4000x128.rank) ∈ dot_S4000x128_S128x128_S4000x128_1_0_0_1_n_n.lhsNonContracting by decide)]
      rfl)
    (fun j q => dot_S4000x128_S128x128_S4000x128_1_0_0_1_n_n.lhsIdx_val_of_single rfl j q)
    (fun j q => dot_S4000x128_S128x128_S4000x128_1_0_0_1_n_n.rhsIdx_val_of_single rfl j q)
    (fun j q => by
      unfold DotDims.rhsIdx
      rw [dif_neg (show ¬(1 : Fin S128x128.rank) ∈ dot_S4000x128_S128x128_S4000x128_1_0_0_1_n_n.rhsBatch by decide),
        dif_pos (show (1 : Fin S128x128.rank) ∈ dot_S4000x128_S128x128_S4000x128_1_0_0_1_n_n.rhsNonContracting by decide)]
      rfl)
    l r j

/-- The bias row broadcast down the block's rows reads the row at the column. -/
theorem bias_block (b : FVec Ideal S1x128 .f32) (j : S4000x128.Idx) :
    broadcastTo S4000x128 b broadcasts_S1x128_S4000x128 j = b (ix2 0 (Spec.col j)) :=
  broadcastTo_apply b broadcasts_S1x128_S4000x128 j (ix2 0 (Spec.col j)) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])

/-- The body's one payload is the combine of its five loaded blocks: the first product plus the bias, plus the
    second product, then the maximum with zero. -/
theorem pay_eq (x0 x1 : Vec Ideal S4000x128 .bf16) (x2 x3 : Vec Ideal S128x128 .f32) (x4 : Vec Ideal S1x128 .f32) :
    k3_pay1 (F := Ideal) x0 x1 x2 x3 x4 = Spec.sage (M := 4000) (H := 128) x0 x1 x2 x3 x4 := by
  funext j
  unfold k3_pay1
  rw [shapeCast_self, shapeCast_self, shapeCast_self, shapeCast_self, shapeCast_self]
  have h1 := congrFun (prod_block (x0 : FVec Ideal S4000x128 .bf16)
    (truncf (F := Ideal) .bf16 (x2 : FVec Ideal S128x128 .f32) bitsLt_bf16_f32)) j
  have h2 := bias_block (x4 : FVec Ideal S1x128 .f32) j
  have h3 := congrFun (prod_block (x1 : FVec Ideal S4000x128 .bf16)
    (truncf (F := Ideal) .bf16 (x3 : FVec Ideal S128x128 .f32) bitsLt_bf16_f32)) j
  have h4 : (Ideal.ofBits .f32 0x00000000#32 : EReal) = 0 := Ideal.ofBits_zero_f32
  show max (((matmul (F := Ideal) dot_S4000x128_S128x128_S4000x128_1_0_0_1_n_n none
        (x0 : FVec Ideal S4000x128 .bf16)
        (truncf (F := Ideal) .bf16 (x2 : FVec Ideal S128x128 .f32) bitsLt_bf16_f32)
        (constant (F := Ideal) S4000x128 .f32 0x00000000#32)) j
      + broadcastTo S4000x128 (x4 : FVec Ideal S1x128 .f32) broadcasts_S1x128_S4000x128 j)
      + (matmul (F := Ideal) dot_S4000x128_S128x128_S4000x128_1_0_0_1_n_n none
        (x1 : FVec Ideal S4000x128 .bf16)
        (truncf (F := Ideal) .bf16 (x3 : FVec Ideal S128x128 .f32) bitsLt_bf16_f32)
        (constant (F := Ideal) S4000x128 .f32 0x00000000#32)) j) (Ideal.ofBits .f32 0x00000000#32)
    = max ((Spec.prod (M := 4000) (K := 128) (N := 128) x0 x2 j + x4 (ix2 0 (Spec.col j)))
      + Spec.prod (M := 4000) (K := 128) (N := 128) x1 x3 j) 0
  rw [h1, h2, h3, h4]
  rfl

end Cert.KernelIdeal.Body3

end
-- ==== Proof.Region3.lean ====
/-
  The graph-convolution combine over the arrays of 100000 rows: what the array it writes holds after the region.

  The region walks the 100000 rows of its two row operands — the neighbours' means and the nodes' own features —
  in 25 blocks of 4000 rows, the same block of rows of both at a point; the two weight matrices (128×128) and the
  bias row (1×128) are resident: every point reads all of them. At a point the body computes on its blocks the
  combine `Spec.sage` at the block's extents (`Body3.pay_eq`). The combine computes a row from that row of its
  two row operands alone (`Spec.sage_rowsOf`), so what point `t` writes back is rows `4000 t … 4000 t + 3999` of
  the combine of the whole arrays (`flushed_eq`); the 25 blocks tile the rows (`cover`); hence the array ends
  holding the combine of the arrays the region found (`value`).
-/
import proofs.«119777_j1168231104685_2_alg».proof.Proof.Gen.KernelIdeal.Frame
import proofs.«119777_j1168231104685_2_alg».proof.Proof.Body3

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

/-! ## From blocks to the array -/

variable (V : (c : Dev nD) → (b : Ref sig .tc) → Buf (Elt Ideal) ((c : Thread nD τ).loc b))

/-- The printed index maps, decided over the 25 points: the two row operands and the result move with the point,
    the two weight matrices and the bias row stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row `4000 t + p` of the array. -/
def rowAt (t : Fin cfg3.N) (p : Fin 4000) : Fin 100000 :=
  ⟨t.val * 4000 + p.val, by have ht : t.val < 25 := t.isLt; have hp := p.isLt; omega⟩

/-- The block of the neighbours' means at a point is those rows of the array. -/
theorem blk_means (c : Dev nD) (t : Fin cfg3.N) :
    iblk3 V c 0 t = Spec.rowsOf (rowAt t) (V c (Pipeline.arrRef spec3 0)) := by
  obtain ⟨e0, e1, -, -, -, -, -, -, -, -, -, -⟩ := idx_facts t
  funext y
  show (V c (Pipeline.arrRef spec3 0)) (((cfg3.win 0).blk t).view.emb y) = (V c (Pipeline.arrRef spec3 0)) (ix2 (rowAt t (Spec.row y)) (Spec.col y))
  refine congrArg (V c (Pipeline.arrRef spec3 0)) (funext fun a => Fin.ext ?_)
  match a with
  | ⟨0, _⟩ => show win3_0.index t (0 : Fin 2) * 4000 + 1 * (y 0).val = t.val * 4000 + (y 0).val; omega
  | ⟨1, _⟩ => show win3_0.index t (1 : Fin 2) * 128 + 1 * (y 1).val = (y 1).val; omega

/-- The block of the nodes' own features at a point is the same rows of its array. -/
theorem blk_own (c : Dev nD) (t : Fin cfg3.N) :
    iblk3 V c 1 t = Spec.rowsOf (rowAt t) (V c (Pipeline.arrRef spec3 1)) := by
  obtain ⟨-, -, e2, e3, -, -, -, -, -, -, -, -⟩ := idx_facts t
  funext y
  show (V c (Pipeline.arrRef spec3 1)) (((cfg3.win 1).blk t).view.emb y) = (V c (Pipeline.arrRef spec3 1)) (ix2 (rowAt t (Spec.row y)) (Spec.col y))
  refine congrArg (V c (Pipeline.arrRef spec3 1)) (funext fun a => Fin.ext ?_)
  match a with
  | ⟨0, _⟩ => show win3_1.index t (0 : Fin 2) * 4000 + 1 * (y 0).val = t.val * 4000 + (y 0).val; omega
  | ⟨1, _⟩ => show win3_1.index t (1 : Fin 2) * 128 + 1 * (y 1).val = (y 1).val; omega

/-- The first weight matrix's block at every point is the whole array. -/
theorem blk_weights_means (c : Dev nD) (t : Fin cfg3.N) : iblk3 V c 2 t = (V c (Pipeline.arrRef spec3 2)) := by
  obtain ⟨-, -, -, -, e4, e5, -, -, -, -, -, -⟩ := idx_facts t
  funext y
  show (V c (Pipeline.arrRef spec3 2)) (((cfg3.win 2).blk t).view.emb y) = (V c (Pipeline.arrRef spec3 2)) y
  refine congrArg (V c (Pipeline.arrRef spec3 2)) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The second weight matrix's block at every point is the whole array. -/
theorem blk_weights_own (c : Dev nD) (t : Fin cfg3.N) : iblk3 V c 3 t = (V c (Pipeline.arrRef spec3 3)) := by
  obtain ⟨-, -, -, -, -, -, e6, e7, -, -, -, -⟩ := idx_facts t
  funext y
  show (V c (Pipeline.arrRef spec3 3)) (((cfg3.win 3).blk t).view.emb y) = (V c (Pipeline.arrRef spec3 3)) y
  refine congrArg (V c (Pipeline.arrRef spec3 3)) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The bias row's block at every point is the whole row. -/
theorem blk_bias (c : Dev nD) (t : Fin cfg3.N) : iblk3 V c 4 t = (V c (Pipeline.arrRef spec3 4)) := by
  obtain ⟨-, -, -, -, -, -, -, -, e8, e9, -, -⟩ := idx_facts t
  funext y
  show (V c (Pipeline.arrRef spec3 4)) (((cfg3.win 4).blk t).view.emb y) = (V c (Pipeline.arrRef spec3 4)) y
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

set_option maxHeartbeats 1000000 in
/-- WHAT POINT `t` WRITES BACK is its block of rows of the combine of the arrays the region found. -/
theorem flushed_eq (c : Dev nD) (t : Fin cfg3.N) :
    (dat3 V c).flushed 5 t = ((cfg3.win 5).blk t).view.read (Elt Ideal)
      (Spec.sage (M := 100000) (H := 128) (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S4000x128) hz, View.ld_unit_zero (S := S128x128) hz, View.ld_unit_zero (S := S1x128) hz]
  rw [Body3.pay_eq, blk_means, blk_own, blk_weights_means, blk_weights_own, blk_bias,
    Spec.sage_rowsOf (Mb := 4000) (M := 100000) (H := 128) (rowAt t) (V c (Pipeline.arrRef spec3 0)) (V c (Pipeline.arrRef spec3 1))
      (V c (Pipeline.arrRef spec3 2)) (V c (Pipeline.arrRef spec3 3)) (V c (Pipeline.arrRef spec3 4))]
  obtain ⟨-, -, -, -, -, -, -, -, -, -, e10, e11⟩ := idx_facts t
  funext j
  show Spec.sage (M := 100000) (H := 128) (V c (Pipeline.arrRef spec3 0)) (V c (Pipeline.arrRef spec3 1)) (V c (Pipeline.arrRef spec3 2)) (V c (Pipeline.arrRef spec3 3)) (V c (Pipeline.arrRef spec3 4)) (ix2 (rowAt t (Spec.row j)) (Spec.col j))
    = Spec.sage (M := 100000) (H := 128) (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
  refine congrArg (Spec.sage (M := 100000) (H := 128) (V c (Pipeline.arrRef spec3 0)) (V c (Pipeline.arrRef spec3 1)) (V c (Pipeline.arrRef spec3 2)) (V c (Pipeline.arrRef spec3 3)) (V c (Pipeline.arrRef spec3 4))) (funext fun a => Fin.ext ?_)
  match a with
  | ⟨0, _⟩ => show t.val * 4000 + (j 0).val = win3_5.index t (0 : Fin 2) * 4000 + 1 * (j 0).val; omega
  | ⟨1, _⟩ => show (j 1).val = win3_5.index t (1 : Fin 2) * 128 + 1 * (j 1).val; omega

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v54).slice (win3_5.rect t)).set ↔ _
  rw [View.set_slice_whole, Rect.mem_set_unit]
  exact Iff.rfl

/-- The 25 blocks tile the rows: row `r` is in the block of point `r / 4000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 4000 < 25 := by omega
  refine ⟨⟨(i 0).val / 4000, ht⟩, flush3_5 _, ?_⟩
  obtain ⟨-, -, -, -, -, -, -, -, -, -, e10, e11⟩ := idx_facts ⟨(i 0).val / 4000, ht⟩
  rw [mem_blk]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    have e10' : win3_5.index ⟨(i 0).val / 4000, ht⟩ (0 : Fin 2) = (i 0).val / 4000 := e10
    omega
  | ⟨1, _⟩ =>
    show win3_5.index ⟨(i 0).val / 4000, ht⟩ (1 : Fin 2) * 128 ≤ (i 1).val ∧ (i 1).val < win3_5.index ⟨(i 0).val / 4000, ht⟩ (1 : Fin 2) * 128 + 128
    omega

/-- THE ARRAY after the region: the combine of the arrays the region found. -/
theorem value (c : Dev nD) :
    (dat3 V c).arrAt 5 cfg3.N
      = Spec.sage (M := 100000) (H := 128) (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed_eq V c t) (cover)

end Cert.KernelIdeal.Region3

end
-- ==== Proof.Body4.lean ====
/-
  The body of the last graph-convolution combine fused with the classifier, on one block of 4000 rows.

  Four products into zero accumulators, three bias rows broadcast down the rows, two maxima with the zero splat,
  with changes of float format (the identity on extended reals) around the products:

  * the neighbours' mean through the first 128×128 weights plus the 1×128 bias row, plus the node's own features
    through the second 128×128 weights, then relu — the combine `Spec.sage` of the two row blocks;
  * that 4000×128 result through the 128×64 weights plus the 1×64 bias row, then relu — `Spec.lin`;
  * that 4000×64 result through the 64×2 weights plus the 1×2 bias row — `Spec.affine`.

  Each layer's result is passed on to the next product as a whole block, so the three layer laws are stated for
  arbitrary blocks (functions of the index), not at an index; read from the inside out they give `Spec.head` of the
  nine loaded blocks, at the block's extents.
-/
import proofs.«119777_j1168231104685_2_alg».proof.Proof.Gen.KernelIdeal.Skeleton
import proofs.«119777_j1168231104685_2_alg».proof.Proof.LayerSpec
import proofs.«119777_j1168231104685_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body4

open Cert.KernelIdeal Cert.KernelIdeal.Gen Idealize.ShloMosaic
open Idealize.ShloMosaic.ValueIdx

/-! ## The three products -/

/-- The 4000×128 by 128×128 block product into the zero accumulator is the matrix product of the two blocks. -/
theorem prod_block_hidden (l : FVec Ideal S4000x128 .bf16) (r : FVec Ideal S128x128 .bf16) :
    matmul dot_S4000x128_S128x128_S4000x128_1_0_0_1_n_n none l r (constant S4000x128 .f32 0x00000000#32)
      = Spec.prod (M := 4000) (K := 128) (N := 128) l r := by
  funext j
  simp only [matmul]
  rw [Ideal.matmul_constant_zero_apply]
  exact Cert.PlainDot.sum_eq dot_S4000x128_S128x128_S4000x128_1_0_0_1_n_n rfl rfl
    (fun j q => by
      unfold DotDims.lhsIdx
      rw [dif_neg (show ¬(0 : Fin S4000x128.rank) ∈ dot_S4000x128_S128x128_S4000x128_1_0_0_1_n_n.lhsBatch by decide),
        dif_pos (show (0 : Fin S4000x128.rank) ∈ dot_S4000x128_S128x128_S4000x128_1_0_0_1_n_n.lhsNonContracting by decide)]
      rfl)
    (fun j q => dot_S4000x128_S128x128_S4000x128_1_0_0_1_n_n.lhsIdx_val_of_single rfl j q)
    (fun j q => dot_S4000x128_S128x128_S4000x128_1_0_0_1_n_n.rhsIdx_val_of_single rfl j q)
    (fun j q => by
      unfold DotDims.rhsIdx
      rw [dif_neg (show ¬(1 : Fin S128x128.rank) ∈ dot_S4000x128_S128x128_S4000x128_1_0_0_1_n_n.rhsBatch by decide),
        dif_pos (show (1 : Fin S128x128.rank) ∈ dot_S4000x128_S128x128_S4000x128_1_0_0_1_n_n.rhsNonContracting by decide)]
      rfl)
    l r j

/-- The 4000×128 by 128×64 block product into the zero accumulator is the matrix product of the two blocks. -/
theorem prod_block_mid (l : FVec Ideal S4000x128 .bf16) (r : FVec Ideal S128x64 .bf16) :
    matmul dot_S4000x128_S128x64_S4000x64_1_0_0_1_n_n none l r (constant S4000x64 .f32 0x00000000#32)
      = Spec.prod (M := 4000) (K := 128) (N := 64) l r := by
  funext j
  simp only [matmul]
  rw [Ideal.matmul_constant_zero_apply]
  exact Cert.PlainDot.sum_eq dot_S4000x128_S128x64_S4000x64_1_0_0_1_n_n rfl rfl
    (fun j q => by
      unfold DotDims.lhsIdx
      rw [dif_neg (show ¬(0 : Fin S4000x128.rank) ∈ dot_S4000x128_S128x64_S4000x64_1_0_0_1_n_n.lhsBatch by decide),
        dif_pos (show (0 : Fin S4000x128.rank) ∈ dot_S4000x128_S128x64_S4000x64_1_0_0_1_n_n.lhsNonContracting by decide)]
      rfl)
    (fun j q => dot_S4000x128_S128x64_S4000x64_1_0_0_1_n_n.lhsIdx_val_of_single rfl j q)
    (fun j q => dot_S4000x128_S128x64_S4000x64_1_0_0_1_n_n.rhsIdx_val_of_single rfl j q)
    (fun j q => by
      unfold DotDims.rhsIdx
      rw [dif_neg (show ¬(1 : Fin S128x64.rank) ∈ dot_S4000x128_S128x64_S4000x64_1_0_0_1_n_n.rhsBatch by decide),
        dif_pos (show (1 : Fin S128x64.rank) ∈ dot_S4000x128_S128x64_S4000x64_1_0_0_1_n_n.rhsNonContracting by decide)]
      rfl)
    l r j

/-- The 4000×64 by 64×2 block product into the zero accumulator is the matrix product of the two blocks. -/
theorem prod_block_out (l : FVec Ideal S4000x64 .bf16) (r : FVec Ideal S64x2 .bf16) :
    matmul dot_S4000x64_S64x2_S4000x2_1_0_0_1_n_n none l r (constant S4000x2 .f32 0x00000000#32)
      = Spec.prod (M := 4000) (K := 64) (N := 2) l r := by
  funext j
  simp only [matmul]
  rw [Ideal.matmul_constant_zero_apply]
  exact Cert.PlainDot.sum_eq dot_S4000x64_S64x2_S4000x2_1_0_0_1_n_n rfl rfl
    (fun j q => by
      unfold DotDims.lhsIdx
      rw [dif_neg (show ¬(0 : Fin S4000x64.rank) ∈ dot_S4000x64_S64x2_S4000x2_1_0_0_1_n_n.lhsBatch by decide),
        dif_pos (show (0 : Fin S4000x64.rank) ∈ dot_S4000x64_S64x2_S4000x2_1_0_0_1_n_n.lhsNonContracting by decide)]
      rfl)
    (fun j q => dot_S4000x64_S64x2_S4000x2_1_0_0_1_n_n.lhsIdx_val_of_single rfl j q)
    (fun j q => dot_S4000x64_S64x2_S4000x2_1_0_0_1_n_n.rhsIdx_val_of_single rfl j q)
    (fun j q => by
      unfold DotDims.rhsIdx
      rw [dif_neg (show ¬(1 : Fin S64x2.rank) ∈ dot_S4000x64_S64x2_S4000x2_1_0_0_1_n_n.rhsBatch by decide),
        dif_pos (show (1 : Fin S64x2.rank) ∈ dot_S4000x64_S64x2_S4000x2_1_0_0_1_n_n.rhsNonContracting by decide)]
      rfl)
    l r j

/-! ## The three bias rows -/

/-- The 1×128 bias row broadcast down the block's rows reads the row at the column. -/
theorem bias_block_hidden (b : FVec Ideal S1x128 .f32) (j : S4000x128.Idx) :
    broadcastTo S4000x128 b broadcasts_S1x128_S4000x128 j = b (ix2 0 (Spec.col j)) :=
  broadcastTo_apply b broadcasts_S1x128_S4000x128 j (ix2 0 (Spec.col j)) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])

/-- The 1×64 bias row broadcast down the block's rows reads the row at the column. -/
theorem bias_block_mid (b : FVec Ideal S1x64 .f32) (j : S4000x64.Idx) :
    broadcastTo S4000x64 b broadcasts_S1x64_S4000x64 j = b (ix2 0 (Spec.col j)) :=
  broadcastTo_apply b broadcasts_S1x64_S4000x64 j (ix2 0 (Spec.col j)) (fun a => match a with
    | ⟨0, _⟩ => by show (0 : ℕ) = if (1 : ℕ) = 1 then 0 else _; rw [if_pos rfl]
    | ⟨1, _⟩ => by show (j 1).val = if (64 : ℕ) = 1 then 0 else (j 1).val; rw [if_neg (by decide)])

/-- The 1×2 bias row broadcast down the block's rows reads the row at the column. -/
theorem bias_block_out (b : FVec Ideal S1x2 .f32) (j : S4000x2.Idx) :
    broadcastTo S4000x2 b broadcasts_S1x2_S4000x2 j = b (ix2 0 (Spec.col j)) :=
  broadcastTo_apply b broadcasts_S1x2_S4000x2 j (ix2 0 (Spec.col j)) (fun a => match a with
    | ⟨0, _⟩ => by show (0 : ℕ) = if (1 : ℕ) = 1 then 0 else _; rw [if_pos rfl]
    | ⟨1, _⟩ => by show (j 1).val = if (2 : ℕ) = 1 then 0 else (j 1).val; rw [if_neg (by decide)])

/-! ## The three layers, for arbitrary blocks -/

/-- The combine: (mean · wl + bias row) + own · wr, then the maximum with zero, is `Spec.sage`. -/
theorem sage_block (a x : FVec Ideal S4000x128 .bf16) (wl wr : FVec Ideal S128x128 .bf16) (bl : FVec Ideal S1x128 .f32) :
    maximumf (F := Ideal)
        (addf (F := Ideal)
          (addf (F := Ideal)
            (matmul (F := Ideal) dot_S4000x128_S128x128_S4000x128_1_0_0_1_n_n none a wl (constant (F := Ideal) S4000x128 .f32 0x00000000#32))
            (broadcastTo S4000x128 bl broadcasts_S1x128_S4000x128))
          (matmul (F := Ideal) dot_S4000x128_S128x128_S4000x128_1_0_0_1_n_n none x wr (constant (F := Ideal) S4000x128 .f32 0x00000000#32)))
        (broadcast S4000x128 (Scalar.ofBits (F := Ideal) .f32 0x00000000#32))
      = Spec.sage (M := 4000) (H := 128) a x wl wr bl := by
  rw [prod_block_hidden, prod_block_hidden]
  funext j
  have h2 := bias_block_hidden bl j
  have h3 : (Ideal.ofBits .f32 0x00000000#32 : EReal) = 0 := Ideal.ofBits_zero_f32
  show max ((Spec.prod (M := 4000) (K := 128) (N := 128) a wl j
        + broadcastTo S4000x128 bl broadcasts_S1x128_S4000x128 j)
        + Spec.prod (M := 4000) (K := 128) (N := 128) x wr j) (Ideal.ofBits .f32 0x00000000#32)
    = max ((Spec.prod (M := 4000) (K := 128) (N := 128) a wl j + bl (ix2 0 (Spec.col j)))
        + Spec.prod (M := 4000) (K := 128) (N := 128) x wr j) 0
  rw [h2, h3]

/-- The dense relu layer: x · w + bias row, then the maximum with zero, is `Spec.lin`. -/
theorem lin_block (x : FVec Ideal S4000x128 .bf16) (w : FVec Ideal S128x64 .bf16) (b : FVec Ideal S1x64 .f32) :
    maximumf (F := Ideal)
        (addf (F := Ideal)
          (matmul (F := Ideal) dot_S4000x128_S128x64_S4000x64_1_0_0_1_n_n none x w (constant (F := Ideal) S4000x64 .f32 0x00000000#32))
          (broadcastTo S4000x64 b broadcasts_S1x64_S4000x64))
        (broadcast S4000x64 (Scalar.ofBits (F := Ideal) .f32 0x00000000#32))
      = Spec.lin (M := 4000) (K := 128) (N := 64) x w b := by
  rw [prod_block_mid]
  funext j
  have h2 := bias_block_mid b j
  have h3 : (Ideal.ofBits .f32 0x00000000#32 : EReal) = 0 := Ideal.ofBits_zero_f32
  show max (Spec.prod (M := 4000) (K := 128) (N := 64) x w j
        + broadcastTo S4000x64 b broadcasts_S1x64_S4000x64 j) (Ideal.ofBits .f32 0x00000000#32)
    = max (Spec.prod (M := 4000) (K := 128) (N := 64) x w j + b (ix2 0 (Spec.col j))) 0
  rw [h2, h3]

/-- The dense layer without activation: x · w + bias row is `Spec.affine`. -/
theorem affine_block (x : FVec Ideal S4000x64 .bf16) (w : FVec Ideal S64x2 .bf16) (b : FVec Ideal S1x2 .f32) :
    addf (F := Ideal)
        (matmul (F := Ideal) dot_S4000x64_S64x2_S4000x2_1_0_0_1_n_n none x w (constant (F := Ideal) S4000x2 .f32 0x00000000#32))
        (broadcastTo S4000x2 b broadcasts_S1x2_S4000x2)
      = Spec.affine (M := 4000) (K := 64) (N := 2) x w b := by
  rw [prod_block_out]
  funext j
  have h2 := bias_block_out b j
  show Spec.prod (M := 4000) (K := 64) (N := 2) x w j + broadcastTo S4000x2 b broadcasts_S1x2_S4000x2 j
    = Spec.prod (M := 4000) (K := 64) (N := 2) x w j + b (ix2 0 (Spec.col j))
  rw [h2]

/-! ## The payload -/

/-- The stored payload is the combine followed by the classifier, of its nine loaded blocks. -/
theorem pay_eq (x0 x1 : Vec Ideal S4000x128 .bf16) (x2 x3 : Vec Ideal S128x128 .f32) (x4 : Vec Ideal S1x128 .f32)
    (x5 : Vec Ideal S128x64 .f32) (x6 : Vec Ideal S1x64 .f32) (x7 : Vec Ideal S64x2 .f32) (x8 : Vec Ideal S1x2 .f32) :
    k4_pay1 (F := Ideal) (k4_pay2 (F := Ideal) x0 x1 x2 x3 x4 x5 x6 x7) x8
      = Cert.Spec.head (M := 4000) (H := 128) (C := 64) (O := 2) x0 x1 x2 x3 x4 x5 x6 x7 x8 := by
  unfold k4_pay1 k4_pay2
  simp only [shapeCast_self]
  have hs := sage_block (x0 : FVec Ideal S4000x128 .bf16) (x1 : FVec Ideal S4000x128 .bf16)
    (truncf (F := Ideal) .bf16 (x2 : FVec Ideal S128x128 .f32) bitsLt_bf16_f32)
    (truncf (F := Ideal) .bf16 (x3 : FVec Ideal S128x128 .f32) bitsLt_bf16_f32) (x4 : FVec Ideal S1x128 .f32)
  rw [hs]
  have hl := lin_block
    (truncf (F := Ideal) .bf16 (Spec.sage (M := 4000) (H := 128) (x0 : FVec Ideal S4000x128 .bf16) (x1 : FVec Ideal S4000x128 .bf16)
      (truncf (F := Ideal) .bf16 (x2 : FVec Ideal S128x128 .f32) bitsLt_bf16_f32)
      (truncf (F := Ideal) .bf16 (x3 : FVec Ideal S128x128 .f32) bitsLt_bf16_f32) (x4 : FVec Ideal S1x128 .f32) : FVec Ideal S4000x128 .f32) bitsLt_bf16_f32)
    (truncf (F := Ideal) .bf16 (x5 : FVec Ideal S128x64 .f32) bitsLt_bf16_f32) (x6 : FVec Ideal S1x64 .f32)
  rw [hl]
  rw [affine_block]
  rfl

end Cert.KernelIdeal.Body4

end
-- ==== Proof.Region4.lean ====
/-
  The last graph-convolution combine fused with the classifier: what the array it writes holds after the region.

  The region walks the 100000 rows of its two row operands (the neighbours' mean and the nodes' own features, both
  100000×128) in 25 blocks of 4000 rows; the two 128×128 weights, the 1×128 bias row, the 128×64 weights, the 1×64
  bias row, the 64×2 weights and the 1×2 bias row are resident: every point reads all of them. At a point the body
  leaves in the result's buffer its one payload of the nine blocks (`after_eq`), which is the combine followed by
  the classifier, `Spec.head`, at the block's extents (`Body4.pay_eq`). The two row blocks are rows
  `4000 t … 4000 t + 3999` of their arrays and the resident blocks are whole arrays; every layer of `Spec.head`
  computes a row from that row of the row operands alone (`Spec.head_rowsOf`), so the nine blocks give those rows of
  `Spec.head` of the whole arrays (`head_blocks`, `after_rows`). Written back, they land on the same rows of the
  100000×2 result (`cut_rows`, `flushed_eq`); the 25 blocks tile its rows (`cover`); hence the array ends holding
  `Spec.head` of the arrays the region found (`value`).
-/
import proofs.«119777_j1168231104685_2_alg».proof.Proof.Gen.KernelIdeal.Frame
import proofs.«119777_j1168231104685_2_alg».proof.Proof.Body4

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

/-! ## The printed index maps, decided over the 25 points -/

/-! The two row operands and the result move with the point: block (t, 0). -/

theorem idx_moving_0 : ∀ t : Fin cfg4.N, win4_0.index t (0 : Fin 2) = t.val ∧ win4_0.index t (1 : Fin 2) = 0 :=
  (by decide +kernel : ∀ t : Fin grid4.N, _)

theorem idx_moving_1 : ∀ t : Fin cfg4.N, win4_1.index t (0 : Fin 2) = t.val ∧ win4_1.index t (1 : Fin 2) = 0 :=
  (by decide +kernel : ∀ t : Fin grid4.N, _)

theorem idx_moving_9 : ∀ t : Fin cfg4.N, win4_9.index t (0 : Fin 2) = t.val ∧ win4_9.index t (1 : Fin 2) = 0 :=
  (by decide +kernel : ∀ t : Fin grid4.N, _)

/-! The weights and the bias rows stay at block (0, 0). -/

theorem idx_resident_2 : ∀ t : Fin cfg4.N, win4_2.index t (0 : Fin 2) = 0 ∧ win4_2.index t (1 : Fin 2) = 0 :=
  (by decide +kernel : ∀ t : Fin grid4.N, _)

theorem idx_resident_3 : ∀ t : Fin cfg4.N, win4_3.index t (0 : Fin 2) = 0 ∧ win4_3.index t (1 : Fin 2) = 0 :=
  (by decide +kernel : ∀ t : Fin grid4.N, _)

theorem idx_resident_4 : ∀ t : Fin cfg4.N, win4_4.index t (0 : Fin 2) = 0 ∧ win4_4.index t (1 : Fin 2) = 0 :=
  (by decide +kernel : ∀ t : Fin grid4.N, _)

theorem idx_resident_5 : ∀ t : Fin cfg4.N, win4_5.index t (0 : Fin 2) = 0 ∧ win4_5.index t (1 : Fin 2) = 0 :=
  (by decide +kernel : ∀ t : Fin grid4.N, _)

theorem idx_resident_6 : ∀ t : Fin cfg4.N, win4_6.index t (0 : Fin 2) = 0 ∧ win4_6.index t (1 : Fin 2) = 0 :=
  (by decide +kernel : ∀ t : Fin grid4.N, _)

theorem idx_resident_7 : ∀ t : Fin cfg4.N, win4_7.index t (0 : Fin 2) = 0 ∧ win4_7.index t (1 : Fin 2) = 0 :=
  (by decide +kernel : ∀ t : Fin grid4.N, _)

theorem idx_resident_8 : ∀ t : Fin cfg4.N, win4_8.index t (0 : Fin 2) = 0 ∧ win4_8.index t (1 : Fin 2) = 0 :=
  (by decide +kernel : ∀ t : Fin grid4.N, _)

/-! ## From blocks to the array -/

variable (V : (c : Dev nD) → (b : Ref sig .tc) → Buf (Elt Ideal) ((c : Thread nD τ).loc b))

/-- Row `p` of point `t`'s block is row `4000 t + p` of the array. -/
def rowAt (t : Fin cfg4.N) (p : Fin 4000) : Fin 100000 :=
  ⟨t.val * 4000 + p.val, by have ht : t.val < 25 := t.isLt; have hp := p.isLt; omega⟩

/-- The neighbours' mean: its block at a point is those rows of the array. -/
theorem blk_rows_mean (c : Dev nD) (t : Fin cfg4.N) :
    iblk4 V c 0 t = Spec.rowsOf (rowAt t) (V c (Pipeline.arrRef spec4 0)) := by
  obtain ⟨e0, e1⟩ := idx_moving_0 t
  funext y
  show V c (Pipeline.arrRef spec4 0) (((cfg4.win 0).blk t).view.emb y) = V c (Pipeline.arrRef spec4 0) (ix2 (rowAt t (Spec.row y)) (Spec.col y))
  refine congrArg (V c (Pipeline.arrRef spec4 0)) (funext fun a => Fin.ext ?_)
  match a with
  | ⟨0, _⟩ => show win4_0.index t (0 : Fin 2) * 4000 + 1 * (y 0).val = t.val * 4000 + (y 0).val; omega
  | ⟨1, _⟩ => show win4_0.index t (1 : Fin 2) * 128 + 1 * (y 1).val = (y 1).val; omega

/-- The nodes' own features: their block at a point is those rows of the array. -/
theorem blk_rows_own (c : Dev nD) (t : Fin cfg4.N) :
    iblk4 V c 1 t = Spec.rowsOf (rowAt t) (V c (Pipeline.arrRef spec4 1)) := by
  obtain ⟨e0, e1⟩ := idx_moving_1 t
  funext y
  show V c (Pipeline.arrRef spec4 1) (((cfg4.win 1).blk t).view.emb y) = V c (Pipeline.arrRef spec4 1) (ix2 (rowAt t (Spec.row y)) (Spec.col y))
  refine congrArg (V c (Pipeline.arrRef spec4 1)) (funext fun a => Fin.ext ?_)
  match a with
  | ⟨0, _⟩ => show win4_1.index t (0 : Fin 2) * 4000 + 1 * (y 0).val = t.val * 4000 + (y 0).val; omega
  | ⟨1, _⟩ => show win4_1.index t (1 : Fin 2) * 128 + 1 * (y 1).val = (y 1).val; omega

/-- The first 128×128 weights' block at every point is the whole array. -/
theorem blk_weights_mean (c : Dev nD) (t : Fin cfg4.N) : iblk4 V c 2 t = V c (Pipeline.arrRef spec4 2) := by
  obtain ⟨e0, e1⟩ := idx_resident_2 t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The second 128×128 weights' block at every point is the whole array. -/
theorem blk_weights_own (c : Dev nD) (t : Fin cfg4.N) : iblk4 V c 3 t = V c (Pipeline.arrRef spec4 3) := by
  obtain ⟨e0, e1⟩ := idx_resident_3 t
  funext y
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The 1×128 bias row's block at every point is the whole row. -/
theorem blk_bias_hidden (c : Dev nD) (t : Fin cfg4.N) : iblk4 V c 4 t = V c (Pipeline.arrRef spec4 4) := by
  obtain ⟨e0, e1⟩ := idx_resident_4 t
  funext y
  show V c (Pipeline.arrRef spec4 4) (((cfg4.win 4).blk t).view.emb y) = V c (Pipeline.arrRef spec4 4) y
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The 128×64 weights' block at every point is the whole array. -/
theorem blk_weights_mid (c : Dev nD) (t : Fin cfg4.N) : iblk4 V c 5 t = V c (Pipeline.arrRef spec4 5) := by
  obtain ⟨e0, e1⟩ := idx_resident_5 t
  funext y
  show V c (Pipeline.arrRef spec4 5) (((cfg4.win 5).blk t).view.emb y) = V c (Pipeline.arrRef spec4 5) y
  refine congrArg (V c (Pipeline.arrRef spec4 5)) (funext fun a => Fin.ext ?_)
  match a with
  | ⟨0, _⟩ => show win4_5.index t (0 : Fin 2) * 128 + 1 * (y 0).val = (y 0).val; omega
  | ⟨1, _⟩ => show win4_5.index t (1 : Fin 2) * 64 + 1 * (y 1).val = (y 1).val; omega

/-- The 1×64 bias row's block at every point is the whole row. -/
theorem blk_bias_mid (c : Dev nD) (t : Fin cfg4.N) : iblk4 V c 6 t = V c (Pipeline.arrRef spec4 6) := by
  obtain ⟨e0, e1⟩ := idx_resident_6 t
  funext y
  show V c (Pipeline.arrRef spec4 6) (((cfg4.win 6).blk t).view.emb y) = V c (Pipeline.arrRef spec4 6) y
  refine congrArg (V c (Pipeline.arrRef spec4 6)) (funext fun a => Fin.ext ?_)
  match a with
  | ⟨0, _⟩ => show win4_6.index t (0 : Fin 2) * 1 + 1 * (y 0).val = (y 0).val; omega
  | ⟨1, _⟩ => show win4_6.index t (1 : Fin 2) * 64 + 1 * (y 1).val = (y 1).val; omega

/-- The 64×2 weights' block at every point is the whole array. -/
theorem blk_weights_out (c : Dev nD) (t : Fin cfg4.N) : iblk4 V c 7 t = V c (Pipeline.arrRef spec4 7) := by
  obtain ⟨e0, e1⟩ := idx_resident_7 t
  funext y
  show V c (Pipeline.arrRef spec4 7) (((cfg4.win 7).blk t).view.emb y) = V c (Pipeline.arrRef spec4 7) y
  refine congrArg (V c (Pipeline.arrRef spec4 7)) (funext fun a => Fin.ext ?_)
  match a with
  | ⟨0, _⟩ => show win4_7.index t (0 : Fin 2) * 64 + 1 * (y 0).val = (y 0).val; omega
  | ⟨1, _⟩ => show win4_7.index t (1 : Fin 2) * 2 + 1 * (y 1).val = (y 1).val; omega

/-- The 1×2 bias row's block at every point is the whole row. -/
theorem blk_bias_out (c : Dev nD) (t : Fin cfg4.N) : iblk4 V c 8 t = V c (Pipeline.arrRef spec4 8) := by
  obtain ⟨e0, e1⟩ := idx_resident_8 t
  funext y
  show V c (Pipeline.arrRef spec4 8) (((cfg4.win 8).blk t).view.emb y) = V c (Pipeline.arrRef spec4 8) y
  refine congrArg (V c (Pipeline.arrRef spec4 8)) (funext fun a => Fin.ext ?_)
  match a with
  | ⟨0, _⟩ => show win4_8.index t (0 : Fin 2) * 1 + 1 * (y 0).val = (y 0).val; omega
  | ⟨1, _⟩ => show win4_8.index t (1 : Fin 2) * 2 + 1 * (y 1).val = (y 1).val; omega

/-- The combine followed by the classifier, of the nine arrays as the region finds them. -/
def whole (c : Dev nD) : Spec.A2 100000 2 :=
  Spec.head (M := 100000) (H := 128) (C := 64) (O := 2) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

/-- `Spec.head` of equal operands, operand by operand. -/
theorem head_congr {M H C O : ℕ} {a a' x x' : Spec.A2 M H} {wl wl' wr wr' : Spec.A2 H H} {bl bl' : Spec.A2 1 H}
    {wc1 wc1' : Spec.A2 H C} {bc1 bc1' : Spec.A2 1 C} {wc2 wc2' : Spec.A2 C O} {bc2 bc2' : Spec.A2 1 O}
    (h0 : a = a') (h1 : x = x') (h2 : wl = wl') (h3 : wr = wr') (h4 : bl = bl') (h5 : wc1 = wc1') (h6 : bc1 = bc1')
    (h7 : wc2 = wc2') (h8 : bc2 = bc2') :
    Spec.head a x wl wr bl wc1 bc1 wc2 bc2 = Spec.head a' x' wl' wr' bl' wc1' bc1' wc2' bc2' := by
  subst h0 h1 h2 h3 h4 h5 h6 h7 h8
  rfl

/-- What the body leaves in the result window's buffer at point `t`: its one stored payload, of the nine blocks
    the point reads (each load takes the whole of its buffer, the one store fills the whole of the result's). -/
theorem after_eq (c : Dev nD) (t : Fin cfg4.N) :
    (dat4 V c).after 9 t = k4_pay1 (F := Ideal) (k4_pay2 (F := Ideal) (iblk4 V c 0 t) (iblk4 V c 1 t) (iblk4 V c 2 t) (iblk4 V c 3 t) (iblk4 V c 4 t) (iblk4 V c 5 t) (iblk4 V c 6 t) (iblk4 V c 7 t)) (iblk4 V c 8 t) := by
  rw [after4_9]
  unfold out4_9
  rw [View.canon_unit_zero hz]
  simp only [View.ld_unit_zero (S := S4000x128) hz, View.ld_unit_zero (S := S128x128) hz, View.ld_unit_zero (S := S1x128) hz,
    View.ld_unit_zero (S := S128x64) hz, View.ld_unit_zero (S := S1x64) hz, View.ld_unit_zero (S := S64x2) hz,
    View.ld_unit_zero (S := S1x2) hz]

/-- The combine followed by the classifier, of the nine blocks at point `t`, is the point's rows of the same of the
    whole arrays: the two row blocks are those rows, the weights and bias rows are whole, and every layer computes a
    row from that row alone. -/
theorem head_blocks (c : Dev nD) (t : Fin cfg4.N) :
    Spec.head (M := 4000) (H := 128) (C := 64) (O := 2) (iblk4 V c 0 t) (iblk4 V c 1 t) (iblk4 V c 2 t) (iblk4 V c 3 t) (iblk4 V c 4 t) (iblk4 V c 5 t) (iblk4 V c 6 t) (iblk4 V c 7 t) (iblk4 V c 8 t)
      = Spec.rowsOf (rowAt t) (whole V c) :=
  (head_congr (blk_rows_mean V c t) (blk_rows_own V c t) (blk_weights_mean V c t) (blk_weights_own V c t) (blk_bias_hidden V c t) (blk_weights_mid V c t) (blk_bias_mid V c t) (blk_weights_out V c t) (blk_bias_out V c t)).trans
    (Spec.head_rowsOf (rowAt t) _ _ _ _ _ _ _ _ _)

/-- So the body leaves, at point `t`, the point's rows of the layers of the whole arrays. -/
theorem after_rows (c : Dev nD) (t : Fin cfg4.N) :
    (dat4 V c).after 9 t = Spec.rowsOf (rowAt t) (whole V c) :=
  (after_eq V c t).trans ((Body4.pay_eq (iblk4 V c 0 t) (iblk4 V c 1 t) (iblk4 V c 2 t) (iblk4 V c 3 t) (iblk4 V c 4 t) (iblk4 V c 5 t) (iblk4 V c 6 t) (iblk4 V c 7 t) (iblk4 V c 8 t)).trans (head_blocks V c t))

/-- The rows `4000 t … 4000 t + 3999` of a 100000×2 array, written back whole, are what reading the array through
    point `t`'s block of the result window gives: the block sits at rows `4000 t` on, all columns. -/
theorem cut_rows (t : Fin cfg4.N) (G : Spec.A2 100000 2) :
    (cfg4.win 9).cut (grid4.coords t) (Spec.rowsOf (rowAt t) G) = ((cfg4.win 9).blk t).view.read (Elt Ideal) G := by
  obtain ⟨e0, e1⟩ := idx_moving_9 t
  funext j
  show G (ix2 (rowAt t (Spec.row j)) (Spec.col j)) = G (((cfg4.win 9).blk t).view.emb j)
  refine congrArg G (funext fun a => Fin.ext ?_)
  match a with
  | ⟨0, _⟩ => show t.val * 4000 + (j 0).val = win4_9.index t (0 : Fin 2) * 4000 + 1 * (j 0).val; omega
  | ⟨1, _⟩ => show (j 1).val = win4_9.index t (1 : Fin 2) * 2 + 1 * (j 1).val; omega

/-- WHAT POINT `t` WRITES BACK is its block of rows of the combine followed by the classifier, of the arrays the
    region found. -/
theorem flushed_eq (c : Dev nD) (t : Fin cfg4.N) :
    (dat4 V c).flushed 9 t = ((cfg4.win 9).blk t).view.read (Elt Ideal) (whole V c) := by
  show (cfg4.win 9).cut (grid4.coords t) ((dat4 V c).after 9 t) = _
  exact (congrArg ((cfg4.win 9).cut (grid4.coords t)) (after_rows V c t)).trans (cut_rows t (whole V c))

/-- An index of the array is in point `t`'s block iff each coordinate is in the block's range on its axis. -/
theorem mem_blk (t : Fin cfg4.N) (i : S100000x2.Idx) :
    i ∈ ((cfg4.win 9).blk t).view.set ↔ ∀ a : Fin 2, win4_9.index t a * S4000x2.size a ≤ (i a).val ∧ (i a).val < win4_9.index t a * S4000x2.size a + S4000x2.size a := by
  show i ∈ ((View.whole main_v77).slice (win4_9.rect t)).set ↔ _
  rw [View.set_slice_whole, Rect.mem_set_unit]
  exact Iff.rfl

/-- The 25 blocks tile the rows: row `r` is in the block of point `r / 4000`. -/
theorem cover (i : S100000x2.Idx) :
    ∃ t : Fin cfg4.N, (cfg4.win 9).flush t = true ∧ i ∈ ((cfg4.win 9).blk t).view.set := by
  have hi0 : (i 0).val < 100000 := (i 0).isLt
  have hi1 : (i 1).val < 2 := (i 1).isLt
  have ht : (i 0).val / 4000 < 25 := by omega
  refine ⟨⟨(i 0).val / 4000, ht⟩, flush4_9 _, ?_⟩
  obtain ⟨e0, e1⟩ := idx_moving_9 ⟨(i 0).val / 4000, ht⟩
  rw [mem_blk]
  intro a
  match a with
  | ⟨0, _⟩ =>
    show win4_9.index ⟨(i 0).val / 4000, ht⟩ (0 : Fin 2) * 4000 ≤ (i 0).val ∧ (i 0).val < win4_9.index ⟨(i 0).val / 4000, ht⟩ (0 : Fin 2) * 4000 + 4000
    have e0' : win4_9.index ⟨(i 0).val / 4000, ht⟩ (0 : Fin 2) = (i 0).val / 4000 := e0
    omega
  | ⟨1, _⟩ =>
    show win4_9.index ⟨(i 0).val / 4000, ht⟩ (1 : Fin 2) * 2 ≤ (i 1).val ∧ (i 1).val < win4_9.index ⟨(i 0).val / 4000, ht⟩ (1 : Fin 2) * 2 + 2
    omega

/-- THE ARRAY after the region: the combine followed by the classifier, of the arrays the region found. -/
theorem value (c : Dev nD) :
    (dat4 V c).arrAt 9 cfg4.N
      = Spec.head (M := 100000) (H := 128) (C := 64) (O := 2) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) :=
  (dat4 V c).arrAt_eq_of_cover 9 _ (fun t _ => flushed_eq V c t) (cover)

end Cert.KernelIdeal.Region4

end
-- ==== Proof.FoldHost.lean ====
/-
  The idealized kernel's result read back to the launch memory.

  The run's contents at its last boundary are a fold from the launch memory through five stretches of host
  operations and five regions. Read backwards from the result buffer: the last region leaves there the combine
  followed by the classifier (`Region4.value`) of the arrays it found; of those, the neighbours' mean is what the
  last stretch computes — a gather, a scatter-add into zeros, a division by the clipped degree — from the array the
  third region left (`Region2.value`), the nodes' own features are what the fourth region left (`Region3.value`),
  the weights are transposes and the bias rows reshapes of argument arrays; and so on down to the two input
  projections (`Region0.value`, `Region1.value`). A buffer that no operation of a stretch writes, and no output
  window of a region covers, holds after it what it held before.

  The host chain is the reference's, with three differences that change nothing: the kernel's features cross the
  host as bf16 and are widened after each gather and narrowed after each division (at the exact instance a change
  of float format is the identity: `truncf_id`, `extf_id`); its records of dimension numbers are its own program's
  (equal to the reference's, field by field: `*_rec`); a bias vector reaches a region reshaped to one row
  (`reshape_bias*`). With those rewritten away each stage is, symbol for symbol, a stage of `Cert.Net`.
-/
import proofs.«119777_j1168231104685_2_alg».proof.Proof.Gen.KernelIdeal.Frame
import proofs.«119777_j1168231104685_2_alg».proof.Proof.NetSpec
import proofs.«119777_j1168231104685_2_alg».proof.Proof.FoldArgs
import proofs.«119777_j1168231104685_2_alg».proof.Proof.Region0
import proofs.«119777_j1168231104685_2_alg».proof.Proof.Region1
import proofs.«119777_j1168231104685_2_alg».proof.Proof.Region2
import proofs.«119777_j1168231104685_2_alg».proof.Proof.Region3
import proofs.«119777_j1168231104685_2_alg».proof.Proof.Region4
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx

/-! ## What changes nothing -/

/-- Narrowing the float format is the identity on extended reals. -/
theorem truncf_id {s : Shape} {φ ψ : FTy} (a : FVec Ideal s φ) (h : ψ.bits < φ.bits) : (truncf ψ a h : FVec Ideal s ψ) = a := rfl
/-- Widening the float format is the identity on extended reals. -/
theorem extf_id {s : Shape} {φ ψ : FTy} (a : FVec Ideal s φ) (h : φ.bits < ψ.bits) : (extf ψ a h : FVec Ideal s ψ) = a := rfl

/-- The two programs' dimension numbers for each gather and scatter-add are the same records. -/
theorem gatherFund_rec : gather_S100000x128_S1000000x1_S1000000x128_1_0_n_n_0_1_1128 = Cert.ReferenceIdeal.gather_S100000x128_S1000000x1_S1000000x128_1_0_n_n_0_1_1128 := rfl
theorem gatherMgr_rec : gather_S20000x128_S1000000x1_S1000000x128_1_0_n_n_0_1_1128 = Cert.ReferenceIdeal.gather_S20000x128_S1000000x1_S1000000x128_1_0_n_n_0_1_1128 := rfl
theorem scatterMgr_rec : scatter_S20000x128_S1000000x1_S1000000x128_1_0_0_1 = Cert.ReferenceIdeal.scatter_S20000x128_S1000000x1_S1000000x128_1_0_0_1 := rfl
theorem scatterFund_rec : scatter_S100000x128_S1000000x1_S1000000x128_1_0_0_1 = Cert.ReferenceIdeal.scatter_S100000x128_S1000000x1_S1000000x128_1_0_0_1 := rfl
theorem scatterDegMgr_rec : scatter_S20000_S1000000x1_S1000000_n_0_0_1 = Cert.ReferenceIdeal.scatter_S20000_S1000000x1_S1000000_n_0_0_1 := rfl
theorem scatterDegFund_rec : scatter_S100000_S1000000x1_S1000000_n_0_0_1 = Cert.ReferenceIdeal.scatter_S100000_S1000000x1_S1000000_n_0_0_1 := rfl

/-- A bias vector reshaped to one row is the bias row. -/
theorem reshape_bias128 (b : FVec Ideal S128 .f32) :
    shapeCast S1x128 b Facts₀.shapeCasts_S128_S1x128 = Cert.Net.biasRow b := by
  funext i
  refine shapeCast_apply b Facts₀.shapeCasts_S128_S1x128 i (ix1 (Cert.Spec.col i)) ?_
  rw [Shape.rowMajor_val_one, Shape.rowMajor_val_two]
  show (i 1).val = (i 0).val * 128 + (i 1).val
  have h0 : (i 0).val < 1 := (i 0).isLt
  omega
theorem reshape_bias64 (b : FVec Ideal S64 .f32) :
    shapeCast S1x64 b Facts₀.shapeCasts_S64_S1x64 = Cert.Net.biasRow b := by
  funext i
  refine shapeCast_apply b Facts₀.shapeCasts_S64_S1x64 i (ix1 (Cert.Spec.col i)) ?_
  rw [Shape.rowMajor_val_one, Shape.rowMajor_val_two]
  show (i 1).val = (i 0).val * 64 + (i 1).val
  have h0 : (i 0).val < 1 := (i 0).isLt
  omega
theorem reshape_bias2 (b : FVec Ideal S2 .f32) :
    shapeCast S1x2 b Facts₀.shapeCasts_S2_S1x2 = Cert.Net.biasRow b := by
  funext i
  refine shapeCast_apply b Facts₀.shapeCasts_S2_S1x2 i (ix1 (Cert.Spec.col i)) ?_
  rw [Shape.rowMajor_val_one, Shape.rowMajor_val_two]
  show (i 1).val = (i 0).val * 2 + (i 1).val
  have h0 : (i 0).val < 1 := (i 0).isLt
  omega

/-! ## The neighbourhood means as the kernel's host operations spell them -/

/-- The managers' mean of fund rows. -/
theorem meanToMgr_kernel (f : FVec Ideal S100000x128 .bf16) (src dst : IVec S1000000 32) :
    (truncf .bf16
      (Host.divf
        (Host.scatterAdd scatter_S20000x128_S1000000x1_S1000000x128_1_0_0_1
          (broadcastInDim S20000x128 ![] Facts₀.bcast_S_S20000x128 (constant (F := Ideal) S_ .f32 0x00000000#32))
          (broadcastInDim S1000000x1 ![0] Facts₀.bcast_S1000000_S1000000x1_0 dst)
          (extf .f32
            (Host.gather gather_S100000x128_S1000000x1_S1000000x128_1_0_n_n_0_1_1128 f
              (broadcastInDim S1000000x1 ![0] Facts₀.bcast_S1000000_S1000000x1_0
                (select
                  (cmpi .slt src (broadcastInDim S1000000 ![] Facts₀.bcast_S_S1000000 (constantI S_ 32 0#32)))
                  (addi src (broadcastInDim S1000000 ![] Facts₀.bcast_S_S1000000 (constantI S_ 32 100000#32)))
                  src)))
            bitsLt_bf16_f32))
        (broadcastInDim S20000x128 ![0, 1] Facts₀.bcast_S20000x1_S20000x128_0_1
          (broadcastInDim S20000x1 ![0] Facts₀.bcast_S20000_S20000x1_0
            (maximumf
              (Host.scatterAdd scatter_S20000_S1000000x1_S1000000_n_0_0_1
                (broadcastInDim S20000 ![] Facts₀.bcast_S_S20000 (constant (F := Ideal) S_ .f32 0x00000000#32))
                (broadcastInDim S1000000x1 ![0] Facts₀.bcast_S1000000_S1000000x1_0 dst)
                (broadcastInDim S1000000 ![] Facts₀.bcast_S_S1000000 (constant (F := Ideal) S_ .f32 0x3F800000#32)))
              (broadcastInDim S20000 ![] Facts₀.bcast_S_S20000 (constant (F := Ideal) S_ .f32 0x3F800000#32))))))
      bitsLt_bf16_f32 : FVec Ideal S20000x128 .bf16)
      = Cert.Net.meanToMgr f src dst := by
  rw [truncf_id, extf_id, gatherFund_rec, scatterMgr_rec, scatterDegMgr_rec]
  rfl

/-- The funds' clipped degree. -/
theorem degFund_kernel (src : IVec S1000000 32) :
    (maximumf
      (Host.scatterAdd scatter_S100000_S1000000x1_S1000000_n_0_0_1
        (broadcastInDim S100000 ![] Facts₀.bcast_S_S100000 (constant (F := Ideal) S_ .f32 0x00000000#32))
        (broadcastInDim S1000000x1 ![0] Facts₀.bcast_S1000000_S1000000x1_0 src)
        (broadcastInDim S1000000 ![] Facts₀.bcast_S_S1000000 (constant (F := Ideal) S_ .f32 0x3F800000#32)))
      (broadcastInDim S100000 ![] Facts₀.bcast_S_S100000 (constant (F := Ideal) S_ .f32 0x3F800000#32)) : FVec Ideal S100000 .f32)
      = Cert.Net.degFund src := by
  rw [scatterDegFund_rec]
  rfl

/-- The funds' mean of manager rows, the degree computed once and shared by both layers. -/
theorem meanToFund_kernel (g : FVec Ideal S20000x128 .bf16) (src dst : IVec S1000000 32) :
    (truncf .bf16
      (Host.divf
        (Host.scatterAdd scatter_S100000x128_S1000000x1_S1000000x128_1_0_0_1
          (broadcastInDim S100000x128 ![] Facts₀.bcast_S_S100000x128 (constant (F := Ideal) S_ .f32 0x00000000#32))
          (broadcastInDim S1000000x1 ![0] Facts₀.bcast_S1000000_S1000000x1_0 src)
          (extf .f32
            (Host.gather gather_S20000x128_S1000000x1_S1000000x128_1_0_n_n_0_1_1128 g
              (broadcastInDim S1000000x1 ![0] Facts₀.bcast_S1000000_S1000000x1_0
                (select
                  (cmpi .slt dst (broadcastInDim S1000000 ![] Facts₀.bcast_S_S1000000 (constantI S_ 32 0#32)))
                  (addi dst (broadcastInDim S1000000 ![] Facts₀.bcast_S_S1000000 (constantI S_ 32 20000#32)))
                  dst)))
            bitsLt_bf16_f32))
        (broadcastInDim S100000x128 ![0, 1] Facts₀.bcast_S100000x1_S100000x128_0_1
          (broadcastInDim S100000x1 ![0] Facts₀.bcast_S100000_S100000x1_0 (Cert.Net.degFund src))))
      bitsLt_bf16_f32 : FVec Ideal S100000x128 .bf16)
      = Cert.Net.meanToFund g src dst := by
  rw [truncf_id, extf_id, gatherMgr_rec, scatterFund_rec]
  rfl

variable (m : (ℓ : Loc nD τ sig) → Buf (Elt Ideal) ℓ) (ρ : Dev nD → PrngReg) (c : Dev nD)

/-! ## The first region: the funds' input projection -/

theorem V1_in0 : V1 m ρ c (Pipeline.arrRef spec0 0) = (m ((c : Thread nD τ).loc main_arg0)) := by
  show StableHlo.after hostOps0 (W0 m ρ c) (Proc.devRef .tc main_arg0) = _
  after_results_simp
theorem V1_in1 : V1 m ρ c (Pipeline.arrRef spec0 1) = Cert.Net.tr8 (m ((c : Thread nD τ).loc main_arg4)) := by
  show StableHlo.after hostOps0 (W0 m ρ c) (Proc.devRef .tc main_v0) = _
  after_results_simp
theorem V1_in2 : V1 m ρ c (Pipeline.arrRef spec0 2) = Cert.Net.biasRow (m ((c : Thread nD τ).loc main_arg5)) := by
  show StableHlo.after hostOps0 (W0 m ρ c) (Proc.devRef .tc main_v1) = _
  after_results_simp
  exact reshape_bias128 (m ((c : Thread nD τ).loc main_arg5))

/-- After the first region its result array holds the funds' input projection. -/
theorem W2_f0 : W2 m ρ c (Proc.devRef .tc main_v2) = Cert.Net.f0 (m ((c : Thread nD τ).loc main_arg0)) (m ((c : Thread nD τ).loc main_arg4)) (m ((c : Thread nD τ).loc main_arg5)) := by
  refine (W2_arr m ρ c 3).trans ((Region0.value (V1 m ρ) c).trans ?_)
  rw [V1_in0 m ρ c, V1_in1 m ρ c, V1_in2 m ρ c]
  rfl

/-! ## The second region: the managers' input projection -/

theorem W4_f0 : W4 m ρ c (Proc.devRef .tc main_v2) = Cert.Net.f0 (m ((c : Thread nD τ).loc main_arg0)) (m ((c : Thread nD τ).loc main_arg4)) (m ((c : Thread nD τ).loc main_arg5)) :=
  (W4_of_ne m ρ c main_v2 (by decide)).trans ((by unwritten hostOps1 : W3 m ρ c (Proc.devRef .tc main_v2) = W2 m ρ c (Proc.devRef .tc main_v2)).trans (W2_f0 m ρ c))

theorem V3_in0 : V3 m ρ c (Pipeline.arrRef spec1 0) = (m ((c : Thread nD τ).loc main_arg1)) :=
  (by unwritten hostOps1 : W3 m ρ c (Proc.devRef .tc main_arg1) = W2 m ρ c (Proc.devRef .tc main_arg1)).trans (W2_arg1 m ρ c)
theorem V3_in1 : V3 m ρ c (Pipeline.arrRef spec1 1) = Cert.Net.tr5 (m ((c : Thread nD τ).loc main_arg6)) := by
  show StableHlo.after hostOps1 (W2 m ρ c) (Proc.devRef .tc main_v3) = _
  after_results_simp
  rw [W2_arg6 m ρ c]
theorem V3_in2 : V3 m ρ c (Pipeline.arrRef spec1 2) = Cert.Net.biasRow (m ((c : Thread nD τ).loc main_arg7)) := by
  show StableHlo.after hostOps1 (W2 m ρ c) (Proc.devRef .tc main_v4) = _
  after_results_simp
  rw [W2_arg7 m ρ c]
  exact reshape_bias128 (m ((c : Thread nD τ).loc main_arg7))

/-- After the second region its result array holds the managers' input projection. -/
theorem W4_m0 : W4 m ρ c (Proc.devRef .tc main_v5) = Cert.Net.m0 (m ((c : Thread nD τ).loc main_arg1)) (m ((c : Thread nD τ).loc main_arg6)) (m ((c : Thread nD τ).loc main_arg7)) := by
  refine (W4_arr m ρ c 3).trans ((Region1.value (V3 m ρ) c).trans ?_)
  rw [V3_in0 m ρ c, V3_in1 m ρ c, V3_in2 m ρ c]
  rfl

/-! ## The third region: the first layer on the managers -/

set_option maxHeartbeats 4000000 in
theorem V5_in0 : V5 m ρ c (Pipeline.arrRef spec2 0) = Cert.Net.meanToMgr (Cert.Net.f0 (m ((c : Thread nD τ).loc main_arg0)) (m ((c : Thread nD τ).loc main_arg4)) (m ((c : Thread nD τ).loc main_arg5))) (m ((c : Thread nD τ).loc main_arg2)) (m ((c : Thread nD τ).loc main_arg3)) := by
  show StableHlo.after hostOps2 (W4 m ρ c) (Proc.devRef .tc main_v31) = _
  after_results_simp
  rw [W4_f0 m ρ c, W4_arg2 m ρ c, W4_arg3 m ρ c]
  exact meanToMgr_kernel _ _ _
theorem V5_in1 : V5 m ρ c (Pipeline.arrRef spec2 1) = Cert.Net.m0 (m ((c : Thread nD τ).loc main_arg1)) (m ((c : Thread nD τ).loc main_arg6)) (m ((c : Thread nD τ).loc main_arg7)) :=
  (by unwritten hostOps2 : W5 m ρ c (Proc.devRef .tc main_v5) = W4 m ρ c (Proc.devRef .tc main_v5)).trans (W4_m0 m ρ c)
set_option maxHeartbeats 4000000 in
theorem V5_in2 : V5 m ρ c (Pipeline.arrRef spec2 2) = Cert.Net.tr128 (m ((c : Thread nD τ).loc main_arg8)) := by
  show StableHlo.after hostOps2 (W4 m ρ c) (Proc.devRef .tc main_v32) = _
  after_results_simp
  rw [W4_arg8 m ρ c]
set_option maxHeartbeats 4000000 in
theorem V5_in3 : V5 m ρ c (Pipeline.arrRef spec2 3) = Cert.Net.tr128 (m ((c : Thread nD τ).loc main_arg10)) := by
  show StableHlo.after hostOps2 (W4 m ρ c) (Proc.devRef .tc main_v33) = _
  after_results_simp
  rw [W4_arg10 m ρ c]
set_option maxHeartbeats 4000000 in
theorem V5_in4 : V5 m ρ c (Pipeline.arrRef spec2 4) = Cert.Net.biasRow (m ((c : Thread nD τ).loc main_arg9)) := by
  show StableHlo.after hostOps2 (W4 m ρ c) (Proc.devRef .tc main_v34) = _
  after_results_simp
  rw [W4_arg9 m ρ c]
  exact reshape_bias128 (m ((c : Thread nD τ).loc main_arg9))

/-- After the third region its result array holds the managers' first-layer features. -/
theorem W6_m1 : W6 m ρ c (Proc.devRef .tc main_v35) = Cert.Net.combMgr (Cert.Net.meanToMgr (Cert.Net.f0 (m ((c : Thread nD τ).loc main_arg0)) (m ((c : Thread nD τ).loc main_arg4)) (m ((c : Thread nD τ).loc main_arg5))) (m ((c : Thread nD τ).loc main_arg2)) (m ((c : Thread nD τ).loc main_arg3))) (Cert.Net.m0 (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg10)) := by
  refine (W6_arr m ρ c 5).trans ((Region2.value (V5 m ρ) c).trans ?_)
  rw [V5_in0 m ρ c, V5_in1 m ρ c, V5_in2 m ρ c, V5_in3 m ρ c, V5_in4 m ρ c]
  rfl

theorem W6_f0 : W6 m ρ c (Proc.devRef .tc main_v2) = Cert.Net.f0 (m ((c : Thread nD τ).loc main_arg0)) (m ((c : Thread nD τ).loc main_arg4)) (m ((c : Thread nD τ).loc main_arg5)) :=
  (W6_of_ne m ρ c main_v2 (by decide)).trans ((by unwritten hostOps2 : W5 m ρ c (Proc.devRef .tc main_v2) = W4 m ρ c (Proc.devRef .tc main_v2)).trans (W4_f0 m ρ c))

/-- The managers' input projection is an INPUT of the third region: the region leaves it as it found it. -/
theorem W6_m0 : W6 m ρ c (Proc.devRef .tc main_v5) = Cert.Net.m0 (m ((c : Thread nD τ).loc main_arg1)) (m ((c : Thread nD τ).loc main_arg6)) (m ((c : Thread nD τ).loc main_arg7)) :=
  (W6_arr m ρ c 1).trans (((dat2 (V5 m ρ) c).arrAt_in 1 rfl _).trans ((A_eq2 (V5 m ρ) c 1).trans (V5_in1 m ρ c)))

set_option maxHeartbeats 4000000 in
/-- The funds' clipped degree, computed by the third stretch and read by the two later ones. -/
theorem W6_degF : W6 m ρ c (Proc.devRef .tc main_v16) = Cert.Net.degFund (m ((c : Thread nD τ).loc main_arg2)) := by
  refine (W6_of_ne m ρ c main_v16 (by decide)).trans ?_
  show StableHlo.after hostOps2 (W4 m ρ c) (Proc.devRef .tc main_v16) = _
  after_results_simp
  rw [W4_arg2 m ρ c]
  exact degFund_kernel _

/-! ## The fourth region: the first layer on the funds -/

set_option maxHeartbeats 4000000 in
theorem V7_in0 : V7 m ρ c (Pipeline.arrRef spec3 0) = Cert.Net.meanToFund (Cert.Net.m0 (m ((c : Thread nD τ).loc main_arg1)) (m ((c : Thread nD τ).loc main_arg6)) (m ((c : Thread nD τ).loc main_arg7))) (m ((c : Thread nD τ).loc main_arg2)) (m ((c : Thread nD τ).loc main_arg3)) := by
  show StableHlo.after hostOps3 (W6 m ρ c) (Proc.devRef .tc main_v50) = _
  after_results_simp
  rw [W6_m0 m ρ c, W6_arg2 m ρ c, W6_arg3 m ρ c, W6_degF m ρ c]
  exact meanToFund_kernel _ _ _
theorem V7_in1 : V7 m ρ c (Pipeline.arrRef spec3 1) = Cert.Net.f0 (m ((c : Thread nD τ).loc main_arg0)) (m ((c : Thread nD τ).loc main_arg4)) (m ((c : Thread nD τ).loc main_arg5)) :=
  (by unwritten hostOps3 : W7 m ρ c (Proc.devRef .tc main_v2) = W6 m ρ c (Proc.devRef .tc main_v2)).trans (W6_f0 m ρ c)
set_option maxHeartbeats 4000000 in
theorem V7_in2 : V7 m ρ c (Pipeline.arrRef spec3 2) = Cert.Net.tr128 (m ((c : Thread nD τ).loc main_arg11)) := by
  show StableHlo.after hostOps3 (W6 m ρ c) (Proc.devRef .tc main_v51) = _
  after_results_simp
  rw [W6_arg11 m ρ c]
set_option maxHeartbeats 4000000 in
theorem V7_in3 : V7 m ρ c (Pipeline.arrRef spec3 3) = Cert.Net.tr128 (m ((c : Thread nD τ).loc main_arg13)) := by
  show StableHlo.after hostOps3 (W6 m ρ c) (Proc.devRef .tc main_v52) = _
  after_results_simp
  rw [W6_arg13 m ρ c]
set_option maxHeartbeats 4000000 in
theorem V7_in4 : V7 m ρ c (Pipeline.arrRef spec3 4) = Cert.Net.biasRow (m ((c : Thread nD τ).loc main_arg12)) := by
  show StableHlo.after hostOps3 (W6 m ρ c) (Proc.devRef .tc main_v53) = _
  after_results_simp
  rw [W6_arg12 m ρ c]
  exact reshape_bias128 (m ((c : Thread nD τ).loc main_arg12))

/-- After the fourth region its result array holds the funds' first-layer features. -/
theorem W8_f1 : W8 m ρ c (Proc.devRef .tc main_v54) = Cert.Net.combFund (Cert.Net.meanToFund (Cert.Net.m0 (m ((c : Thread nD τ).loc main_arg1)) (m ((c : Thread nD τ).loc main_arg6)) (m ((c : Thread nD τ).loc main_arg7))) (m ((c : Thread nD τ).loc main_arg2)) (m ((c : Thread nD τ).loc main_arg3))) (Cert.Net.f0 (m ((c : Thread nD τ).loc main_arg0)) (m ((c : Thread nD τ).loc main_arg4)) (m ((c : Thread nD τ).loc main_arg5))) (m ((c : Thread nD τ).loc main_arg11)) (m ((c : Thread nD τ).loc main_arg12)) (m ((c : Thread nD τ).loc main_arg13)) := by
  refine (W8_arr m ρ c 5).trans ((Region3.value (V7 m ρ) c).trans ?_)
  rw [V7_in0 m ρ c, V7_in1 m ρ c, V7_in2 m ρ c, V7_in3 m ρ c, V7_in4 m ρ c]
  rfl

theorem W8_m1 : W8 m ρ c (Proc.devRef .tc main_v35) = Cert.Net.combMgr (Cert.Net.meanToMgr (Cert.Net.f0 (m ((c : Thread nD τ).loc main_arg0)) (m ((c : Thread nD τ).loc main_arg4)) (m ((c : Thread nD τ).loc main_arg5))) (m ((c : Thread nD τ).loc main_arg2)) (m ((c : Thread nD τ).loc main_arg3))) (Cert.Net.m0 (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg10)) :=
  (W8_of_ne m ρ c main_v35 (by decide)).trans ((by unwritten hostOps3 : W7 m ρ c (Proc.devRef .tc main_v35) = W6 m ρ c (Proc.devRef .tc main_v35)).trans (W6_m1 m ρ c))

theorem W8_degF : W8 m ρ c (Proc.devRef .tc main_v16) = Cert.Net.degFund (m ((c : Thread nD τ).loc main_arg2)) :=
  (W8_of_ne m ρ c main_v16 (by decide)).trans ((by unwritten hostOps3 : W7 m ρ c (Proc.devRef .tc main_v16) = W6 m ρ c (Proc.devRef .tc main_v16)).trans (W6_degF m ρ c))

/-! ## The fifth region: the second layer on the funds and the classifier -/

set_option maxHeartbeats 4000000 in
theorem V9_in0 : V9 m ρ c (Pipeline.arrRef spec4 0) = Cert.Net.meanToFund (Cert.Net.combMgr (Cert.Net.meanToMgr (Cert.Net.f0 (m ((c : Thread nD τ).loc main_arg0)) (m ((c : Thread nD τ).loc main_arg4)) (m ((c : Thread nD τ).loc main_arg5))) (m ((c : Thread nD τ).loc main_arg2)) (m ((c : Thread nD τ).loc main_arg3))) (Cert.Net.m0 (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg10))) (m ((c : Thread nD τ).loc main_arg2)) (m ((c : Thread nD τ).loc main_arg3)) := by
  show StableHlo.after hostOps4 (W8 m ρ c) (Proc.devRef .tc main_v69) = _
  after_results_simp
  rw [W8_m1 m ρ c, W8_arg2 m ρ c, W8_arg3 m ρ c, W8_degF m ρ c]
  exact meanToFund_kernel _ _ _
theorem V9_in1 : V9 m ρ c (Pipeline.arrRef spec4 1) = Cert.Net.combFund (Cert.Net.meanToFund (Cert.Net.m0 (m ((c : Thread nD τ).loc main_arg1)) (m ((c : Thread nD τ).loc main_arg6)) (m ((c : Thread nD τ).loc main_arg7))) (m ((c : Thread nD τ).loc main_arg2)) (m ((c : Thread nD τ).loc main_arg3))) (Cert.Net.f0 (m ((c : Thread nD τ).loc main_arg0)) (m ((c : Thread nD τ).loc main_arg4)) (m ((c : Thread nD τ).loc main_arg5))) (m ((c : Thread nD τ).loc main_arg11)) (m ((c : Thread nD τ).loc main_arg12)) (m ((c : Thread nD τ).loc main_arg13)) :=
  (by unwritten hostOps4 : W9 m ρ c (Proc.devRef .tc main_v54) = W8 m ρ c (Proc.devRef .tc main_v54)).trans (W8_f1 m ρ c)
set_option maxHeartbeats 4000000 in
theorem V9_in2 : V9 m ρ c (Pipeline.arrRef spec4 2) = Cert.Net.tr128 (m ((c : Thread nD τ).loc main_arg17)) := by
  show StableHlo.after hostOps4 (W8 m ρ c) (Proc.devRef .tc main_v70) = _
  after_results_simp
  rw [W8_arg17 m ρ c]
set_option maxHeartbeats 4000000 in
theorem V9_in3 : V9 m ρ c (Pipeline.arrRef spec4 3) = Cert.Net.tr128 (m ((c : Thread nD τ).loc main_arg19)) := by
  show StableHlo.after hostOps4 (W8 m ρ c) (Proc.devRef .tc main_v71) = _
  after_results_simp
  rw [W8_arg19 m ρ c]
set_option maxHeartbeats 4000000 in
theorem V9_in4 : V9 m ρ c (Pipeline.arrRef spec4 4) = Cert.Net.biasRow (m ((c : Thread nD τ).loc main_arg18)) := by
  show StableHlo.after hostOps4 (W8 m ρ c) (Proc.devRef .tc main_v74) = _
  after_results_simp
  rw [W8_arg18 m ρ c]
  exact reshape_bias128 (m ((c : Thread nD τ).loc main_arg18))
set_option maxHeartbeats 4000000 in
theorem V9_in5 : V9 m ρ c (Pipeline.arrRef spec4 5) = Cert.Net.tr64 (m ((c : Thread nD τ).loc main_arg20)) := by
  show StableHlo.after hostOps4 (W8 m ρ c) (Proc.devRef .tc main_v72) = _
  after_results_simp
  rw [W8_arg20 m ρ c]
set_option maxHeartbeats 4000000 in
theorem V9_in6 : V9 m ρ c (Pipeline.arrRef spec4 6) = Cert.Net.biasRow (m ((c : Thread nD τ).loc main_arg21)) := by
  show StableHlo.after hostOps4 (W8 m ρ c) (Proc.devRef .tc main_v75) = _
  after_results_simp
  rw [W8_arg21 m ρ c]
  exact reshape_bias64 (m ((c : Thread nD τ).loc main_arg21))
set_option maxHeartbeats 4000000 in
theorem V9_in7 : V9 m ρ c (Pipeline.arrRef spec4 7) = Cert.Net.tr2 (m ((c : Thread nD τ).loc main_arg22)) := by
  show StableHlo.after hostOps4 (W8 m ρ c) (Proc.devRef .tc main_v73) = _
  after_results_simp
  rw [W8_arg22 m ρ c]
set_option maxHeartbeats 4000000 in
theorem V9_in8 : V9 m ρ c (Pipeline.arrRef spec4 8) = Cert.Net.biasRow (m ((c : Thread nD τ).loc main_arg23)) := by
  show StableHlo.after hostOps4 (W8 m ρ c) (Proc.devRef .tc main_v76) = _
  after_results_simp
  rw [W8_arg23 m ρ c]
  exact reshape_bias2 (m ((c : Thread nD τ).loc main_arg23))

set_option maxHeartbeats 4000000 in
/-- THE RESULT: at the run's last boundary the result buffer holds the network of the launch contents. -/
theorem W10_out : W10 m ρ c (Proc.devRef .tc main_v77) = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W10_arr m ρ c 9).trans ((Region4.value (V9 m ρ) c).trans ?_)
  rw [V9_in0 m ρ c, V9_in1 m ρ c, V9_in2 m ρ c, V9_in3 m ρ c, V9_in4 m ρ c, V9_in5 m ρ c, V9_in6 m ρ c, V9_in7 m ρ c, V9_in8 m ρ c]
  rfl

end Cert.KernelIdeal.Fold

end
-- ==== Proof.RefLayers.lean ====
/-
  The reference's dense clusters as layers. On the host a dense layer is a `dot_general` (a sum over the contracted
  axis, with no accumulator), a bias vector broadcast to a row and then down the rows, an addition, and for relu a
  maximum with a broadcast zero. Read at an index these are the layers of `Cert.Spec`: the product is `Spec.prod`
  (the record's operand indices, coordinate by coordinate, are the generated read lemmas of each product), the
  doubly broadcast bias is the bias at the column, the zero array is 0.
-/
import proofs.«119777_j1168231104685_2_alg».proof.Proof.Gen.ReferenceIdeal.Read
import proofs.«119777_j1168231104685_2_alg».proof.Proof.NetSpec
import proofs.«119777_j1168231104685_2_alg».proof.Proof.LibPlainDot

noncomputable section

namespace Cert.ReferenceIdeal.Layers

open Cert.ReferenceIdeal Cert.ReferenceIdeal.Read Idealize.ShloMosaic Idealize.ShloMosaic.ValueIdx
open Cert.ReferenceIdeal.Facts₀ Cert.ReferenceIdeal.Facts

/-! ## Products -/

/-- The reference's 100000×8 by 8×128 product is the matrix product. -/
theorem prod_fund_in (x : FVec Ideal S100000x8 .f32) (w : FVec Ideal S8x128 .f32) :
    Host.dotGeneral dot_S100000x8_S8x128_S100000x128_1_0_0_1_n_n none x w = Spec.prod (M := 100000) (K := 8) (N := 128) x w := by
  funext i
  simp only [Host.dotGeneral]
  rw [Ideal.dotGeneral_apply]
  exact Cert.PlainDot.sum_eq dot_S100000x8_S8x128_S100000x128_1_0_0_1_n_n rfl rfl
    lhs_main_v1_0 lhs_main_v1_1 rhs_main_v1_0 rhs_main_v1_1 x w i

/-- The reference's 20000×5 by 5×128 product is the matrix product. -/
theorem prod_mgr_in (x : FVec Ideal S20000x5 .f32) (w : FVec Ideal S5x128 .f32) :
    Host.dotGeneral dot_S20000x5_S5x128_S20000x128_1_0_0_1_n_n none x w = Spec.prod (M := 20000) (K := 5) (N := 128) x w := by
  funext i
  simp only [Host.dotGeneral]
  rw [Ideal.dotGeneral_apply]
  exact Cert.PlainDot.sum_eq dot_S20000x5_S5x128_S20000x128_1_0_0_1_n_n rfl rfl
    lhs_main_v7_0 lhs_main_v7_1 rhs_main_v7_0 rhs_main_v7_1 x w i

/-- The reference's 20000×128 by 128×128 product is the matrix product. -/
theorem prod_mgr (x : FVec Ideal S20000x128 .f32) (w : FVec Ideal S128x128 .f32) :
    Host.dotGeneral dot_S20000x128_S128x128_S20000x128_1_0_0_1_n_n none x w = Spec.prod (M := 20000) (K := 128) (N := 128) x w := by
  funext i
  simp only [Host.dotGeneral]
  rw [Ideal.dotGeneral_apply]
  exact Cert.PlainDot.sum_eq dot_S20000x128_S128x128_S20000x128_1_0_0_1_n_n rfl rfl
    lhs_main_v32_0 lhs_main_v32_1 rhs_main_v32_0 rhs_main_v32_1 x w i

/-- The reference's 100000×128 by 128×128 product is the matrix product. -/
theorem prod_fund (x : FVec Ideal S100000x128 .f32) (w : FVec Ideal S128x128 .f32) :
    Host.dotGeneral dot_S100000x128_S128x128_S100000x128_1_0_0_1_n_n none x w = Spec.prod (M := 100000) (K := 128) (N := 128) x w := by
  funext i
  simp only [Host.dotGeneral]
  rw [Ideal.dotGeneral_apply]
  exact Cert.PlainDot.sum_eq dot_S100000x128_S128x128_S100000x128_1_0_0_1_n_n rfl rfl
    lhs_main_v60_0 lhs_main_v60_1 rhs_main_v60_0 rhs_main_v60_1 x w i

/-- The reference's 100000×128 by 128×64 product is the matrix product. -/
theorem prod_cls1 (x : FVec Ideal S100000x128 .f32) (w : FVec Ideal S128x64 .f32) :
    Host.dotGeneral dot_S100000x128_S128x64_S100000x64_1_0_0_1_n_n none x w = Spec.prod (M := 100000) (K := 128) (N := 64) x w := by
  funext i
  simp only [Host.dotGeneral]
  rw [Ideal.dotGeneral_apply]
  exact Cert.PlainDot.sum_eq dot_S100000x128_S128x64_S100000x64_1_0_0_1_n_n rfl rfl
    lhs_main_v125_0 lhs_main_v125_1 rhs_main_v125_0 rhs_main_v125_1 x w i

/-- The reference's 100000×64 by 64×2 product is the matrix product. -/
theorem prod_cls2 (x : FVec Ideal S100000x64 .f32) (w : FVec Ideal S64x2 .f32) :
    Host.dotGeneral dot_S100000x64_S64x2_S100000x2_1_0_0_1_n_n none x w = Spec.prod (M := 100000) (K := 64) (N := 2) x w := by
  funext i
  simp only [Host.dotGeneral]
  rw [Ideal.dotGeneral_apply]
  exact Cert.PlainDot.sum_eq dot_S100000x64_S64x2_S100000x2_1_0_0_1_n_n rfl rfl
    lhs_main_v131_0 lhs_main_v131_1 rhs_main_v131_0 rhs_main_v131_1 x w i

/-! ## Bias rows and the zero array -/

/-- A bias vector broadcast to one row and then down 100000 rows reads the vector at the column. -/
theorem bias_fund (b : FVec Ideal S128 .f32) (i : S100000x128.Idx) :
    broadcastInDim S100000x128 ![0, 1] bcast_S1x128_S100000x128_0_1 (broadcastInDim S1x128 ![1] bcast_S128_S1x128_1 b) i = Net.biasRow b (ix2 0 (Spec.col i)) := by
  rw [broadcastInDim_apply _ bcast_S1x128_S100000x128_0_1 _ i (ix2 0 (Spec.col i)) (fun a => match a with
    | ⟨0, _⟩ => by show (0 : ℕ) = if (1 : ℕ) = 1 then 0 else (i 0).val; rw [if_pos rfl]
    | ⟨1, _⟩ => by show (i 1).val = if (128 : ℕ) = 1 then 0 else (i 1).val; rw [if_neg (by decide)])]
  exact broadcastInDim_apply _ bcast_S128_S1x128_1 b (ix2 0 (Spec.col i)) (ix1 (Spec.col (ix2 (0 : Fin 1) (Spec.col i)))) (fun a => match a with
    | ⟨0, _⟩ => by show (i 1).val = if (128 : ℕ) = 1 then 0 else (i 1).val; rw [if_neg (by decide)])

/-- A bias vector broadcast to one row and then down 20000 rows reads the vector at the column. -/
theorem bias_mgr (b : FVec Ideal S128 .f32) (i : S20000x128.Idx) :
    broadcastInDim S20000x128 ![0, 1] bcast_S1x128_S20000x128_0_1 (broadcastInDim S1x128 ![1] bcast_S128_S1x128_1 b) i = Net.biasRow b (ix2 0 (Spec.col i)) := by
  rw [broadcastInDim_apply _ bcast_S1x128_S20000x128_0_1 _ i (ix2 0 (Spec.col i)) (fun a => match a with
    | ⟨0, _⟩ => by show (0 : ℕ) = if (1 : ℕ) = 1 then 0 else (i 0).val; rw [if_pos rfl]
    | ⟨1, _⟩ => by show (i 1).val = if (128 : ℕ) = 1 then 0 else (i 1).val; rw [if_neg (by decide)])]
  exact broadcastInDim_apply _ bcast_S128_S1x128_1 b (ix2 0 (Spec.col i)) (ix1 (Spec.col (ix2 (0 : Fin 1) (Spec.col i)))) (fun a => match a with
    | ⟨0, _⟩ => by show (i 1).val = if (128 : ℕ) = 1 then 0 else (i 1).val; rw [if_neg (by decide)])

/-- A bias vector broadcast to one row and then down 100000 rows reads the vector at the column. -/
theorem bias_cls1 (b : FVec Ideal S64 .f32) (i : S100000x64.Idx) :
    broadcastInDim S100000x64 ![0, 1] bcast_S1x64_S100000x64_0_1 (broadcastInDim S1x64 ![1] bcast_S64_S1x64_1 b) i = Net.biasRow b (ix2 0 (Spec.col i)) := by
  rw [broadcastInDim_apply _ bcast_S1x64_S100000x64_0_1 _ i (ix2 0 (Spec.col i)) (fun a => match a with
    | ⟨0, _⟩ => by show (0 : ℕ) = if (1 : ℕ) = 1 then 0 else (i 0).val; rw [if_pos rfl]
    | ⟨1, _⟩ => by show (i 1).val = if (64 : ℕ) = 1 then 0 else (i 1).val; rw [if_neg (by decide)])]
  exact broadcastInDim_apply _ bcast_S64_S1x64_1 b (ix2 0 (Spec.col i)) (ix1 (Spec.col (ix2 (0 : Fin 1) (Spec.col i)))) (fun a => match a with
    | ⟨0, _⟩ => by show (i 1).val = if (64 : ℕ) = 1 then 0 else (i 1).val; rw [if_neg (by decide)])

/-- A bias vector broadcast to one row and then down 100000 rows reads the vector at the column. -/
theorem bias_cls2 (b : FVec Ideal S2 .f32) (i : S100000x2.Idx) :
    broadcastInDim S100000x2 ![0, 1] bcast_S1x2_S100000x2_0_1 (broadcastInDim S1x2 ![1] bcast_S2_S1x2_1 b) i = Net.biasRow b (ix2 0 (Spec.col i)) := by
  rw [broadcastInDim_apply _ bcast_S1x2_S100000x2_0_1 _ i (ix2 0 (Spec.col i)) (fun a => match a with
    | ⟨0, _⟩ => by show (0 : ℕ) = if (1 : ℕ) = 1 then 0 else (i 0).val; rw [if_pos rfl]
    | ⟨1, _⟩ => by show (i 1).val = if (2 : ℕ) = 1 then 0 else (i 1).val; rw [if_neg (by decide)])]
  exact broadcastInDim_apply _ bcast_S2_S1x2_1 b (ix2 0 (Spec.col i)) (ix1 (Spec.col (ix2 (0 : Fin 1) (Spec.col i)))) (fun a => match a with
    | ⟨0, _⟩ => by show (i 1).val = if (2 : ℕ) = 1 then 0 else (i 1).val; rw [if_neg (by decide)])

/-- The relu's zero array reads 0. -/
theorem zero_fund (i : S100000x128.Idx) :
    broadcastInDim S100000x128 ![] bcast_S_S100000x128 (constant (F := Ideal) S_ .f32 0x00000000#32) i = 0 := by
  rw [broadcastInDim_apply _ bcast_S_S100000x128 _ i ValueIdx.ix0 (fun a => a.elim0)]
  exact Ideal.ofBits_zero_f32

/-- The relu's zero array reads 0. -/
theorem zero_mgr (i : S20000x128.Idx) :
    broadcastInDim S20000x128 ![] bcast_S_S20000x128 (constant (F := Ideal) S_ .f32 0x00000000#32) i = 0 := by
  rw [broadcastInDim_apply _ bcast_S_S20000x128 _ i ValueIdx.ix0 (fun a => a.elim0)]
  exact Ideal.ofBits_zero_f32

/-- The relu's zero array reads 0. -/
theorem zero_cls1 (i : S100000x64.Idx) :
    broadcastInDim S100000x64 ![] bcast_S_S100000x64 (constant (F := Ideal) S_ .f32 0x00000000#32) i = 0 := by
  rw [broadcastInDim_apply _ bcast_S_S100000x64 _ i ValueIdx.ix0 (fun a => a.elim0)]
  exact Ideal.ofBits_zero_f32

/-! ## The clusters -/

/-- The fund nodes' input projection on the host. -/
theorem lin_fund_in (x : FVec Ideal S100000x8 .f32) (w : FVec Ideal S8x128 .f32) (b : FVec Ideal S128 .f32) :
    maximumf (addf (Host.dotGeneral dot_S100000x8_S8x128_S100000x128_1_0_0_1_n_n none x w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = Spec.lin (M := 100000) (K := 8) (N := 128) x w (Net.biasRow b) := by
  rw [prod_fund_in]
  funext i
  show max (Spec.prod (M := 100000) (K := 8) (N := 128) x w i + broadcastInDim S100000x128 ![0, 1] bcast_S1x128_S100000x128_0_1 (broadcastInDim S1x128 ![1] bcast_S128_S1x128_1 b) i)
      (broadcastInDim S100000x128 ![] bcast_S_S100000x128 (constant (F := Ideal) S_ .f32 0x00000000#32) i) = _
  rw [bias_fund, zero_fund]
  rfl

/-- The manager nodes' input projection on the host. -/
theorem lin_mgr_in (x : FVec Ideal S20000x5 .f32) (w : FVec Ideal S5x128 .f32) (b : FVec Ideal S128 .f32) :
    maximumf (addf (Host.dotGeneral dot_S20000x5_S5x128_S20000x128_1_0_0_1_n_n none x w)
        (broadcastInDim S20000x128 ![0, 1] bcast_S1x128_S20000x128_0_1 (broadcastInDim S1x128 ![1] bcast_S128_S1x128_1 b)))
      (broadcastInDim S20000x128 ![] bcast_S_S20000x128 (constant (F := Ideal) S_ .f32 0x00000000#32))
      = Spec.lin (M := 20000) (K := 5) (N := 128) x w (Net.biasRow b) := by
  rw [prod_mgr_in]
  funext i
  show max (Spec.prod (M := 20000) (K := 5) (N := 128) x w i + broadcastInDim S20000x128 ![0, 1] bcast_S1x128_S20000x128_0_1 (broadcastInDim S1x128 ![1] bcast_S128_S1x128_1 b) i)
      (broadcastInDim S20000x128 ![] bcast_S_S20000x128 (constant (F := Ideal) S_ .f32 0x00000000#32) i) = _
  rw [bias_mgr, zero_mgr]
  rfl

/-- A graph-convolution combine on the managers, on the host. -/
theorem sage_mgr (a x : FVec Ideal S20000x128 .f32) (wl wr : FVec Ideal S128x128 .f32) (bl : FVec Ideal S128 .f32) :
    maximumf (addf (addf (Host.dotGeneral dot_S20000x128_S128x128_S20000x128_1_0_0_1_n_n none a wl)
          (broadcastInDim S20000x128 ![0, 1] bcast_S1x128_S20000x128_0_1 (broadcastInDim S1x128 ![1] bcast_S128_S1x128_1 bl)))
        (Host.dotGeneral dot_S20000x128_S128x128_S20000x128_1_0_0_1_n_n none x wr))
      (broadcastInDim S20000x128 ![] bcast_S_S20000x128 (constant (F := Ideal) S_ .f32 0x00000000#32))
      = Spec.sage (M := 20000) (H := 128) a x wl wr (Net.biasRow bl) := by
  rw [prod_mgr, prod_mgr]
  funext i
  show max ((Spec.prod (M := 20000) (K := 128) (N := 128) a wl i + broadcastInDim S20000x128 ![0, 1] bcast_S1x128_S20000x128_0_1 (broadcastInDim S1x128 ![1] bcast_S128_S1x128_1 bl) i)
        + Spec.prod (M := 20000) (K := 128) (N := 128) x wr i)
      (broadcastInDim S20000x128 ![] bcast_S_S20000x128 (constant (F := Ideal) S_ .f32 0x00000000#32) i) = _
  rw [bias_mgr, zero_mgr]
  rfl

/-- A graph-convolution combine on the funds, on the host. -/
theorem sage_fund (a x : FVec Ideal S100000x128 .f32) (wl wr : FVec Ideal S128x128 .f32) (bl : FVec Ideal S128 .f32) :
    maximumf (addf (addf (Host.dotGeneral dot_S100000x128_S128x128_S100000x128_1_0_0_1_n_n none a wl)
          (broadcastInDim S100000x128 ![0, 1] bcast_S1x128_S100000x128_0_1 (broadcastInDim S1x128 ![1] bcast_S128_S1x128_1 bl)))
        (Host.dotGeneral dot_S100000x128_S128x128_S100000x128_1_0_0_1_n_n none x wr))
      (broadcastInDim S100000x128 ![] bcast_S_S100000x128 (constant (F := Ideal) S_ .f32 0x00000000#32))
      = Spec.sage (M := 100000) (H := 128) a x wl wr (Net.biasRow bl) := by
  rw [prod_fund, prod_fund]
  funext i
  show max ((Spec.prod (M := 100000) (K := 128) (N := 128) a wl i + broadcastInDim S100000x128 ![0, 1] bcast_S1x128_S100000x128_0_1 (broadcastInDim S1x128 ![1] bcast_S128_S1x128_1 bl) i)
        + Spec.prod (M := 100000) (K := 128) (N := 128) x wr i)
      (broadcastInDim S100000x128 ![] bcast_S_S100000x128 (constant (F := Ideal) S_ .f32 0x00000000#32) i) = _
  rw [bias_fund, zero_fund]
  rfl

/-- The classifier's hidden layer on the host. -/
theorem lin_cls1 (y : FVec Ideal S100000x128 .f32) (w : FVec Ideal S128x64 .f32) (b : FVec Ideal S64 .f32) :
    maximumf (addf (Host.dotGeneral dot_S100000x128_S128x64_S100000x64_1_0_0_1_n_n none y w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Spec.lin (M := 100000) (K := 128) (N := 64) y w (Net.biasRow b) := by
  rw [prod_cls1]
  funext i
  show max (Spec.prod (M := 100000) (K := 128) (N := 64) y w i + broadcastInDim S100000x64 ![0, 1] bcast_S1x64_S100000x64_0_1 (broadcastInDim S1x64 ![1] bcast_S64_S1x64_1 b) i)
      (broadcastInDim S100000x64 ![] bcast_S_S100000x64 (constant (F := Ideal) S_ .f32 0x00000000#32) i) = _
  rw [bias_cls1, zero_cls1]
  rfl

/-- The classifier's output layer on the host. -/
theorem affine_cls2 (h : FVec Ideal S100000x64 .f32) (w : FVec Ideal S64x2 .f32) (b : FVec Ideal S2 .f32) :
    addf (Host.dotGeneral dot_S100000x64_S64x2_S100000x2_1_0_0_1_n_n none h w)
        (broadcastInDim S100000x2 ![0, 1] bcast_S1x2_S100000x2_0_1 (broadcastInDim S1x2 ![1] bcast_S2_S1x2_1 b))
      = Spec.affine (M := 100000) (K := 64) (N := 2) h w (Net.biasRow b) := by
  rw [prod_cls2]
  funext i
  show Spec.prod (M := 100000) (K := 64) (N := 2) h w i + broadcastInDim S100000x2 ![0, 1] bcast_S1x2_S100000x2_0_1 (broadcastInDim S1x2 ![1] bcast_S2_S1x2_1 b) i = _
  rw [bias_cls2]
  rfl

end Cert.ReferenceIdeal.Layers

end
-- ==== Proof.RefValue.lean ====
/-
  The reference's result is the network `Net.out` of its arguments: its composed term is unfolded once, each dense
  cluster (product, bias, relu) is rewritten to the layer it is (`Layers.*`), innermost first, and what is left —
  the gathers, scatter-adds and divisions of the neighbourhood means, the transposes of the weights — is, symbol
  for symbol, how `Net.out` spells them.
-/
import proofs.«119777_j1168231104685_2_alg».proof.Proof.Gen.ReferenceIdeal.Run
import proofs.«119777_j1168231104685_2_alg».proof.Proof.RefLayers

set_option maxRecDepth 16384

noncomputable section

namespace Cert.ReferenceIdeal.RefValue

open Cert.ReferenceIdeal Cert.ReferenceIdeal.Gen Idealize.ShloMosaic Idealize.ShloMosaic.TcCoe Idealize.SL.Sem
open Cert.ReferenceIdeal.Facts₀ Cert.ReferenceIdeal.Facts

theorem res_eq (m : (ℓ : Loc nD τ sig) → Buf (Elt Ideal) ℓ) (c : Dev nD) :
    Cert.ReferenceIdeal.Value.res_main_v134 (F := Ideal) m c
      = Cert.Net.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23)) := by
  unfold Cert.ReferenceIdeal.Value.res_main_v134
  rw [Layers.lin_fund_in, Layers.lin_mgr_in, Layers.sage_mgr, Layers.sage_fund, Layers.sage_fund, Layers.lin_cls1, Layers.affine_cls2]
  rfl

end Cert.ReferenceIdeal.RefValue

end
-- ==== Proof.lean ====
/-
  A two-layer graph network on funds and managers joined by a million edges (input projections, two rounds of
  "mean of the neighbours through one weight matrix plus own features through another, then relu", a two-layer
  classifier on the funds), computed by a kernel of five regions with host operations between them, against a
  plain reference.

  At the exact instance (floats are extended reals, every operation exact, a change of float format the identity)
  both programs compute ONE function of the argument arrays, `Cert.Net.out`:

  * the neighbourhood means — gather the rows at one end of the edges, scatter-add them at the other end into
    zeros, divide by the number of edges clipped at 1 — are the same whole-array host operations in both programs
    and are never opened (`Cert.Net.meanToMgr`, `meanToFund`);
  * every dense cluster is a layer of `Cert.Spec`: in the reference a `dot_general`, a broadcast bias, a maximum
    (`Cert.ReferenceIdeal.Layers`); in the kernel a region that walks the rows in blocks, each block's body the same
    layer at the block's extents, a layer computing a row from that row alone, the blocks tiling the rows
    (`Cert.KernelIdeal.Region0 … Region4`);
  * the kernel's contents at its last boundary, read back through the five stretches and five regions, are that
    function of the launch memory (`Cert.KernelIdeal.Fold.W10_out`), and the reference's composed term is the same
    function of its own (`Cert.ReferenceIdeal.RefValue.res_eq`).

  No step uses a law that fails at an infinity (no distributivity, no cancellation): the precondition is not opened.
  The three frames are the generated ones (the reference's is its generated run with the result dropped); the
  idealization rewrote nothing, so `preserves` is `True`.
-/
import proofs.«119777_j1168231104685_2_alg».proof.Defs
import proofs.«119777_j1168231104685_2_alg».proof.Proof.Gen.Kernel
import proofs.«119777_j1168231104685_2_alg».proof.Proof.Gen.Kernel.Skeleton
import proofs.«119777_j1168231104685_2_alg».proof.Proof.Gen.Kernel.Launch
import proofs.«119777_j1168231104685_2_alg».proof.Proof.Gen.Kernel.Points
import proofs.«119777_j1168231104685_2_alg».proof.Proof.Gen.Kernel.Frame
import proofs.«119777_j1168231104685_2_alg».proof.Proof.Gen.KernelIdeal
import proofs.«119777_j1168231104685_2_alg».proof.Proof.Gen.KernelIdeal.Skeleton
import proofs.«119777_j1168231104685_2_alg».proof.Proof.Gen.KernelIdeal.Launch
import proofs.«119777_j1168231104685_2_alg».proof.Proof.Gen.KernelIdeal.Points
import proofs.«119777_j1168231104685_2_alg».proof.Proof.Gen.KernelIdeal.Frame
import proofs.«119777_j1168231104685_2_alg».proof.Proof.Gen.ReferenceIdeal
import proofs.«119777_j1168231104685_2_alg».proof.Proof.Gen.ReferenceIdeal.Run
import proofs.«119777_j1168231104685_2_alg».proof.Proof.Gen.ReferenceIdeal.Read
import proofs.«119777_j1168231104685_2_alg».proof.Proof.Gen.Pre_finite_inputs
import proofs.«119777_j1168231104685_2_alg».proof.Proof.KernelRun
import proofs.«119777_j1168231104685_2_alg».proof.Proof.FoldHost
import proofs.«119777_j1168231104685_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The network of pairwise equal arguments. -/
theorem out_congr {x0 y0 : (⟨Cert.ReferenceIdeal.S100000x8, .f32⟩ : BufTy).Contents (Elt Ideal)}
    {x1 y1 : (⟨Cert.ReferenceIdeal.S20000x5, .f32⟩ : BufTy).Contents (Elt Ideal)}
    {x2 y2 : Cert.Net.Edges}
    {x3 y3 : Cert.Net.Edges}
    {x4 y4 : (⟨Cert.ReferenceIdeal.S128x8, .f32⟩ : BufTy).Contents (Elt Ideal)}
    {x5 y5 : (⟨Cert.ReferenceIdeal.S128, .f32⟩ : BufTy).Contents (Elt Ideal)}
    {x6 y6 : (⟨Cert.ReferenceIdeal.S128x5, .f32⟩ : BufTy).Contents (Elt Ideal)}
    {x7 y7 : (⟨Cert.ReferenceIdeal.S128, .f32⟩ : BufTy).Contents (Elt Ideal)}
    {x8 y8 : (⟨Cert.ReferenceIdeal.S128x128, .f32⟩ : BufTy).Contents (Elt Ideal)}
    {x9 y9 : (⟨Cert.ReferenceIdeal.S128, .f32⟩ : BufTy).Contents (Elt Ideal)}
    {x10 y10 : (⟨Cert.ReferenceIdeal.S128x128, .f32⟩ : BufTy).Contents (Elt Ideal)}
    {x11 y11 : (⟨Cert.ReferenceIdeal.S128x128, .f32⟩ : BufTy).Contents (Elt Ideal)}
    {x12 y12 : (⟨Cert.ReferenceIdeal.S128, .f32⟩ : BufTy).Contents (Elt Ideal)}
    {x13 y13 : (⟨Cert.ReferenceIdeal.S128x128, .f32⟩ : BufTy).Contents (Elt Ideal)}
    {x17 y17 : (⟨Cert.ReferenceIdeal.S128x128, .f32⟩ : BufTy).Contents (Elt Ideal)}
    {x18 y18 : (⟨Cert.ReferenceIdeal.S128, .f32⟩ : BufTy).Contents (Elt Ideal)}
    {x19 y19 : (⟨Cert.ReferenceIdeal.S128x128, .f32⟩ : BufTy).Contents (Elt Ideal)}
    {x20 y20 : (⟨Cert.ReferenceIdeal.S64x128, .f32⟩ : BufTy).Contents (Elt Ideal)}
    {x21 y21 : (⟨Cert.ReferenceIdeal.S64, .f32⟩ : BufTy).Contents (Elt Ideal)}
    {x22 y22 : (⟨Cert.ReferenceIdeal.S2x64, .f32⟩ : BufTy).Contents (Elt Ideal)}
    {x23 y23 : (⟨Cert.ReferenceIdeal.S2, .f32⟩ : BufTy).Contents (Elt Ideal)}
    (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h17 : y17 = x17) (h18 : y18 = x18) (h19 : y19 = x19) (h20 : y20 = x20) (h21 : y21 = x21) (h22 : y22 = x22) (h23 : y23 = x23) :
    Cert.Net.out y0 y1 y2 y3 y4 y5 y6 y7 y8 y9 y10 y11 y12 y13 y17 y18 y19 y20 y21 y22 y23 = Cert.Net.out x0 x1 x2 x3 x4 x5 x6 x7 x8 x9 x10 x11 x12 x13 x17 x18 x19 x20 x21 x22 x23 := by
  subst h0 h1 h2 h3 h4 h5 h6 h7 h8 h9 h10 h11 h12 h13 h17 h18 h19 h20 h21 h22 h23
  rfl

set_option maxHeartbeats 4000000 in
/-- Both runs end with the result array at the network of the kernel's launch contents: the kernel's by the fold
    read back, the reference's by its composed term and the agreement of the arguments. -/
theorem algebraic : Cert.algebraic_KernelIdeal_ReferenceIdeal := by
  intro m ρ m' ρ' _ hagree
  refine ⟨fun c => Cert.Net.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.Fold.W10_out m ρ c), (h c).2⟩)
      (Cert.KernelIdeal.Value.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, -, -, -, h17, h18, h19, h20, h21, h22, h23⟩ := hagree c
    exact (Cert.ReferenceIdeal.RefValue.res_eq m' c).trans (out_congr h0 h1 h2 h3 h4 h5 h6 h7 h8 h9 h10 h11 h12 h13 h17 h18 h19 h20 h21 h22 h23)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
